-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v28)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S16384x1024 : Shape := ⟨2, ![16384, 1024]⟩
abbrev S1024x1536 : Shape := ⟨2, ![1024, 1536]⟩
abbrev S1024 : Shape := ⟨1, ![1024]⟩
abbrev S1x1024 : Shape := ⟨2, ![1, 1024]⟩
abbrev S1 : Shape := ⟨1, ![1]⟩
abbrev S1024x512 : Shape := ⟨2, ![1024, 512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S16384x1024 : S_.BroadcastsInDim S16384x1024 (![] : Fin 0 → Fin S16384x1024.rank)
  reducesTo_S16384x1024_S_d0_1 : S16384x1024.ReducesTo [0, 1] S_
  bcast_S_S1024x1536 : S_.BroadcastsInDim S1024x1536 (![] : Fin 0 → Fin S1024x1536.rank)
  reducesTo_S1024x1536_S_d0_1 : S1024x1536.ReducesTo [0, 1] S_
  bcast_S_S1024 : S_.BroadcastsInDim S1024 (![] : Fin 0 → Fin S1024.rank)
  reducesTo_S1024_S_d0 : S1024.ReducesTo [0] S_
  bcast_S_S1x1024 : S_.BroadcastsInDim S1x1024 (![] : Fin 0 → Fin S1x1024.rank)
  reducesTo_S1x1024_S_d0_1 : S1x1024.ReducesTo [0, 1] S_
  bcast_S_S1 : S_.BroadcastsInDim S1 (![] : Fin 0 → Fin S1.rank)
  reducesTo_S1_S_d0 : S1.ReducesTo [0] S_
  bcast_S_S1024x512 : S_.BroadcastsInDim S1024x512 (![] : Fin 0 → Fin S1024x512.rank)
  reducesTo_S1024x512_S_d0_1 : S1024x512.ReducesTo [0, 1] S_

variable [Facts]

def fn_part4 {F : FTy → Type} [FloatOps F] (main_arg14 : FVec F S1024 .f32) (main_arg15 : FVec F S1024x512 .f32) (main_arg16 : FVec F S1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  let main_v74 : FVec F S1024x512 .f32 := Host.absf main_arg15
  let main_cst_28 : FVec F S_ .f32 := constant S_ .f32 0x7F800000#32
  let main_v75 : FVec F S1024x512 .f32 := broadcastInDim S1024x512 ![] bcast_S_S1024x512 main_cst_28
  let main_v76 : IVec S1024x512 1 := cmpf .olt main_v74 main_v75
  let main_c_29 : IVec S_ 1 := constantI S_ 1 1#1
  let main_v77 : IVec S_ 1 := (fun x v => Host.reduce IntOp.andi x v reducesTo_S1024x512_S_d0_1 h_S_) main_v76 main_c_29
  let main_v78 : IVec S_ 1 := andi main_v73 main_v77
  let main_v79 : FVec F S1024 .f32 := Host.absf main_arg16
  let main_cst_30 : FVec F S_ .f32 := constant S_ .f32 0x7F800000#32
  let main_v80 : FVec F S1024 .f32 := broadcastInDim S1024 ![] bcast_S_S1024 main_cst_30
  let main_v81 : IVec S1024 1 := cmpf .olt main_v79 main_v80
  let main_c_31 : IVec S_ 1 := constantI S_ 1 1#1
  let main_v82 : IVec S_ 1 := (fun x v => Host.reduce IntOp.andi x v reducesTo_S1024_S_d0 h_S_) main_v81 main_c_31
  let main_v83 : IVec S_ 1 := andi main_v78 main_v82
  main_v83

def fn_part3 {F : FTy → Type} [FloatOps F] (main_arg11 : FVec F S1x1024 .f32) (main_arg12 : FVec F S1 .f32) (main_arg13 : FVec F S1024x512 .f32) (main_arg14 : FVec F S1024 .f32) (main_arg15 : FVec F S1024x512 .f32) (main_arg16 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1x1024 .f32 := Host.absf main_arg11
  let main_cst_20 : FVec F S_ .f32 := constant S_ .f32 0x7F800000#32
  let main_v55 : FVec F S1x1024 .f32 := broadcastInDim S1x1024 ![] bcast_S_S1x1024 main_cst_20
  let main_v56 : IVec S1x1024 1 := cmpf .olt main_v54 main_v55
  let main_c_21 : IVec S_ 1 := constantI S_ 1 1#1
  let main_v57 : IVec S_ 1 := (fun x v => Host.reduce IntOp.andi x v reducesTo_S1x1024_S_d0_1 h_S_) main_v56 main_c_21
  let main_v58 : IVec S_ 1 := andi main_v53 main_v57
  let main_v59 : FVec F S1 .f32 := Host.absf main_arg12
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  let main_v64 : FVec F S1024x512 .f32 := Host.absf main_arg13
  let main_cst_24 : FVec F S_ .f32 := constant S_ .f32 0x7F800000#32
  let main_v65 : FVec F S1024x512 .f32 := broadcastInDim S1024x512 ![] bcast_S_S1024x512 main_cst_24
  let main_v66 : IVec S1024x512 1 := cmpf .olt main_v64 main_v65
  let main_c_25 : IVec S_ 1 := constantI S_ 1 1#1
  let main_v67 : IVec S_ 1 := (fun x v => Host.reduce IntOp.andi x v reducesTo_S1024x512_S_d0_1 h_S_) main_v66 main_c_25
  fn_part4 (F := F) main_arg14 main_arg15 main_arg16 main_v63 main_v67

def fn_part2 {F : FTy → Type} [FloatOps F] (main_arg7 : FVec F S1024x1536 .f32) (main_arg8 : FVec F S1024 .f32) (main_arg9 : FVec F S1024x1536 .f32) (main_arg10 : FVec F S1024 .f32) (main_arg11 : FVec F S1x1024 .f32) (main_arg12 : FVec F S1 .f32) (main_arg13 : FVec F S1024x512 .f32) (main_arg14 : FVec F S1024 .f32) (main_arg15 : FVec F S1024x512 .f32) (main_arg16 : FVec F S1024 .f32) (main_v33 : IVec S_ 1) : IVec S_ 1 :=
  let main_v34 : FVec F S1024x1536 .f32 := Host.absf main_arg7
  let main_cst_12 : FVec F S_ .f32 := constant S_ .f32 0x7F800000#32
  let main_v35 : FVec F S1024x1536 .f32 := broadcastInDim S1024x1536 ![] bcast_S_S1024x1536 main_cst_12
  let main_v36 : IVec S1024x1536 1 := cmpf .olt main_v34 main_v35
  let main_c_13 : IVec S_ 1 := constantI S_ 1 1#1
  let main_v37 : IVec S_ 1 := (fun x v => Host.reduce IntOp.andi x v reducesTo_S1024x1536_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1536 .f32 := Host.absf main_arg9
  let main_cst_16 : FVec F S_ .f32 := constant S_ .f32 0x7F800000#32
  let main_v45 : FVec F S1024x1536 .f32 := broadcastInDim S1024x1536 ![] bcast_S_S1024x1536 main_cst_16
  let main_v46 : IVec S1024x1536 1 := cmpf .olt main_v44 main_v45
  let main_c_17 : IVec S_ 1 := constantI S_ 1 1#1
  let main_v47 : IVec S_ 1 := (fun x v => Host.reduce IntOp.andi x v reducesTo_S1024x1536_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_arg15 main_arg16 main_v48 main_v49 main_v50

def fn_part1 {F : FTy → Type} [FloatOps F] (main_arg4 : FVec F S1024 .f32) (main_arg5 : FVec F S1024x1536 .f32) (main_arg6 : FVec F S1024 .f32) (main_arg7 : FVec F S1024x1536 .f32) (main_arg8 : FVec F S1024 .f32) (main_arg9 : FVec F S1024x1536 .f32) (main_arg10 : FVec F S1024 .f32) (main_arg11 : FVec F S1x1024 .f32) (main_arg12 : FVec F S1 .f32) (main_arg13 : FVec F S1024x512 .f32) (main_arg14 : FVec F S1024 .f32) (main_arg15 : FVec F S1024x512 .f32) (main_arg16 : FVec F S1024 .f32) (main_v13 : IVec S_ 1) (main_v16 : IVec S1024x1536 1) : IVec S_ 1 :=
  let main_c_5 : IVec S_ 1 := constantI S_ 1 1#1
  let main_v17 : IVec S_ 1 := (fun x v => Host.reduce IntOp.andi x v reducesTo_S1024x1536_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1536 .f32 := Host.absf main_arg5
  let main_cst_8 : FVec F S_ .f32 := constant S_ .f32 0x7F800000#32
  let main_v25 : FVec F S1024x1536 .f32 := broadcastInDim S1024x1536 ![] bcast_S_S1024x1536 main_cst_8
  let main_v26 : IVec S1024x1536 1 := cmpf .olt main_v24 main_v25
  let main_c_9 : IVec S_ 1 := constantI S_ 1 1#1
  let main_v27 : IVec S_ 1 := (fun x v => Host.reduce IntOp.andi x v reducesTo_S1024x1536_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S16384x512 .f32) (main_arg1 : FVec F S16384x1024 .f32) (main_arg2 : FVec F S16384x1024 .f32) (main_arg3 : FVec F S1024x1536 .f32) (main_arg4 : FVec F S1024 .f32) (main_arg5 : FVec F S1024x1536 .f32) (main_arg6 : FVec F S1024 .f32) (main_arg7 : FVec F S1024x1536 .f32) (main_arg8 : FVec F S1024 .f32) (main_arg9 : FVec F S1024x1536 .f32) (main_arg10 : FVec F S1024 .f32) (main_arg11 : FVec F S1x1024 .f32) (main_arg12 : FVec F S1 .f32) (main_arg13 : FVec F S1024x512 .f32) (main_arg14 : FVec F S1024 .f32) (main_arg15 : FVec F S1024x512 .f32) (main_arg16 : FVec F S1024 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S1024x1536 .f32 := Host.absf main_arg3
  let main_cst_4 : FVec F S_ .f32 := constant S_ .f32 0x7F800000#32
  let main_v15 : FVec F S1024x1536 .f32 := broadcastInDim S1024x1536 ![] bcast_S_S1024x1536 main_cst_4
  let main_v16 : IVec S1024x1536 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S16384x512 : Shape := ⟨2, ![16384, 512]⟩
abbrev S16384x1024 : Shape := ⟨2, ![16384, 1024]⟩
abbrev S1024x1536 : Shape := ⟨2, ![1024, 1536]⟩
abbrev S1024 : Shape := ⟨1, ![1024]⟩
abbrev S1x1024 : Shape := ⟨2, ![1, 1024]⟩
abbrev S1 : Shape := ⟨1, ![1]⟩
abbrev S1024x512 : Shape := ⟨2, ![1024, 512]⟩
abbrev S4096x1536 : Shape := ⟨2, ![4096, 1536]⟩
abbrev S4096 : Shape := ⟨1, ![4096]⟩
abbrev S4096x512 : Shape := ⟨2, ![4096, 512]⟩
abbrev S512x4096 : Shape := ⟨2, ![512, 4096]⟩
abbrev S4096x1024 : Shape := ⟨2, ![4096, 1024]⟩
abbrev S1024x4096 : Shape := ⟨2, ![1024, 4096]⟩
abbrev S1x4096 : Shape := ⟨2, ![1, 4096]⟩
abbrev S1x1 : Shape := ⟨2, ![1, 1]⟩
abbrev S16384x1 : Shape := ⟨2, ![16384, 1]⟩
abbrev S512x512 : Shape := ⟨2, ![512, 512]⟩
abbrev S512x1024 : Shape := ⟨2, ![512, 1024]⟩
abbrev S512x1 : Shape := ⟨2, ![512, 1]⟩
abbrev S1024x1024 : Shape := ⟨2, ![1024, 1024]⟩
abbrev S512 : Shape := ⟨1, ![512]⟩
abbrev S_ : Shape := ⟨0, ![]⟩

abbrev nBuf : Space → Nat
  | .hbm => 51
  | .vmem => 29
  | .smem => 0
  | _ => 0

abbrev bufTy : (tb : Table) → Fin (tcTables nBuf tb) → BufTy
  | .hbm, ⟨0, _⟩ => ⟨S16384x512, .f32⟩
  | .hbm, ⟨1, _⟩ => ⟨S16384x1024, .f32⟩
  | .hbm, ⟨2, _⟩ => ⟨S16384x1024, .f32⟩
  | .hbm, ⟨3, _⟩ => ⟨S1024x1536, .f32⟩
  | .hbm, ⟨4, _⟩ => ⟨S1024, .f32⟩
  | .hbm, ⟨5, _⟩ => ⟨S1024x1536, .f32⟩
  | .hbm, ⟨6, _⟩ => ⟨S1024, .f32⟩
  | .hbm, ⟨7, _⟩ => ⟨S1024x1536, .f32⟩
  | .hbm, ⟨8, _⟩ => ⟨S1024, .f32⟩
  | .hbm, ⟨9, _⟩ => ⟨S1024x1536, .f32⟩
  | .hbm, ⟨10, _⟩ => ⟨S1024, .f32⟩
  | .hbm, ⟨11, _⟩ => ⟨S1x1024, .f32⟩
  | .hbm, ⟨12, _⟩ => ⟨S1, .f32⟩
  | .hbm, ⟨13, _⟩ => ⟨S1024x512, .f32⟩
  | .hbm, ⟨14, _⟩ => ⟨S1024, .f32⟩
  | .hbm, ⟨15, _⟩ => ⟨S1024x512, .f32⟩
  | .hbm, ⟨16, _⟩ => ⟨S1024, .f32⟩
  | .hbm, ⟨17, _⟩ => ⟨S4096x1536, .f32⟩
  | .hbm, ⟨18, _⟩ => ⟨S4096, .f32⟩
  | .hbm, ⟨19, _⟩ => ⟨S4096x512, .f32⟩
  | .hbm, ⟨20, _⟩ => ⟨S512x4096, .f32⟩
  | .hbm, ⟨21, _⟩ => ⟨S512x4096, .bf16⟩
  | .hbm, ⟨22, _⟩ => ⟨S4096x1024, .f32⟩
  | .hbm, ⟨23, _⟩ => ⟨S1024x4096, .f32⟩
  | .hbm, ⟨24, _⟩ => ⟨S1024x4096, .bf16⟩
  | .hbm, ⟨25, _⟩ => ⟨S1x4096, .f32⟩
  | .hbm, ⟨26, _⟩ => ⟨S1x1, .f32⟩
  | .hbm, ⟨27, _⟩ => ⟨S16384x1024, .bf16⟩
  | .hbm, ⟨28, _⟩ => ⟨S16384x1024, .f32⟩
  | .hbm, ⟨29, _⟩ => ⟨S16384x1, .f32⟩
  | .hbm, ⟨30, _⟩ => ⟨S_, .f32⟩
  | .hbm, ⟨31, _⟩ => ⟨S1, .f32⟩
  | .hbm, ⟨32, _⟩ => ⟨S_, .f32⟩
  | .hbm, ⟨33, _⟩ => ⟨S1, .f32⟩
  | .hbm, ⟨34, _⟩ => ⟨S1, .f32⟩
  | .hbm, ⟨35, _⟩ => ⟨S1x1, .f32⟩
  | .hbm, ⟨36, _⟩ => ⟨S16384x1, .f32⟩
  | .hbm, ⟨37, _⟩ => ⟨S16384x1, .f32⟩
  | .hbm, ⟨38, _⟩ => ⟨S16384x1, .f32⟩
  | .hbm, ⟨39, _⟩ => ⟨S_, .f32⟩
  | .hbm, ⟨40, _⟩ => ⟨S1, .f32⟩
  | .hbm, ⟨41, _⟩ => ⟨S1x1, .f32⟩
  | .hbm, ⟨42, _⟩ => ⟨S16384x1, .f32⟩
  | .hbm, ⟨43, _⟩ => ⟨S16384x1, .f32⟩
  | .hbm, ⟨44, _⟩ => ⟨S512x1024, .f32⟩
  | .hbm, ⟨45, _⟩ => ⟨S512x1024, .bf16⟩
  | .hbm, ⟨46, _⟩ => ⟨S512x1024, .f32⟩
  | .hbm, ⟨47, _⟩ => ⟨S512x1024, .bf16⟩
  | .hbm, ⟨48, _⟩ => ⟨S1x1024, .f32⟩
  | .hbm, ⟨49, _⟩ => ⟨S1x1024, .f32⟩
  | .hbm, ⟨50, _⟩ => ⟨S16384x1024, .f32⟩
  | .local _ .vmem, ⟨0, _⟩ => ⟨S512x512, .f32⟩
  | .local _ .vmem, ⟨1, _⟩ => ⟨S512x512, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x4096, .bf16⟩
  | .local _ .vmem, ⟨7, _⟩ => ⟨S1024x4096, .bf16⟩
  | .local _ .vmem, ⟨8, _⟩ => ⟨S1x4096, .f32⟩
  | .local _ .vmem, ⟨9, _⟩ => ⟨S1x1024, .f32⟩
  | .local _ .vmem, ⟨10, _⟩ => ⟨S1x1, .f32⟩
  | .local _ .vmem, ⟨11, _⟩ => ⟨S512x1024, .bf16⟩
  | .local _ .vmem, ⟨12, _⟩ => ⟨S512x1024, .bf16⟩
  | .local _ .vmem, ⟨13, _⟩ => ⟨S512x1024, .f32⟩
  | .local _ .vmem, ⟨14, _⟩ => ⟨S512x1024, .f32⟩
  | .local _ .vmem, ⟨15, _⟩ => ⟨S512x1, .f32⟩
  | .local _ .vmem, ⟨16, _⟩ => ⟨S512x1, .f32⟩
  | .local _ .vmem, ⟨17, _⟩ => ⟨S512x512, .f32⟩
  | .local _ .vmem, ⟨18, _⟩ => ⟨S512x512, .f32⟩
  | .local _ .vmem, ⟨19, _⟩ => ⟨S512x1024, .bf16⟩
  | .local _ .vmem, ⟨20, _⟩ => ⟨S512x1024, .bf16⟩
  | .local _ .vmem, ⟨21, _⟩ => ⟨S512x1, .f32⟩
  | .local _ .vmem, ⟨22, _⟩ => ⟨S512x1, .f32⟩
  | .local _ .vmem, ⟨23, _⟩ => ⟨S512x1024, .bf16⟩
  | .local _ .vmem, ⟨24, _⟩ => ⟨S1x1024, .f32⟩
  | .local _ .vmem, ⟨25, _⟩ => ⟨S512x1024, .bf16⟩
  | .local _ .vmem, ⟨26, _⟩ => ⟨S1x1024, .f32⟩
  | .local _ .vmem, ⟨27, _⟩ => ⟨S512x1024, .f32⟩
  | .local _ .vmem, ⟨28, _⟩ => ⟨S512x1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10_0 : Ref sig .tc := ⟨.hbm, 27, rfl⟩
abbrev main_v10_1 : Ref sig .tc := ⟨.hbm, 28, rfl⟩
abbrev main_v10_2 : Ref sig .tc := ⟨.hbm, 29, rfl⟩
abbrev main_cst : Ref sig .tc := ⟨.hbm, 30, rfl⟩
abbrev main_v11 : Ref sig .tc := ⟨.hbm, 31, rfl⟩
abbrev main_cst_0 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_1 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg2_1 : Ref sig .tc := ⟨.vmem, 22, rfl⟩
abbrev cc1_stg3_0 : Ref sig .tc := ⟨.vmem, 23, rfl⟩
abbrev cc1_stg4_0 : Ref sig .tc := ⟨.vmem, 24, rfl⟩
abbrev cc1_stg5_0 : Ref sig .tc := ⟨.vmem, 25, rfl⟩
abbrev cc1_stg6_0 : Ref sig .tc := ⟨.vmem, 26, rfl⟩
abbrev cc1_stg7_0 : Ref sig .tc := ⟨.vmem, 27, rfl⟩
abbrev cc1_stg7_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc1_sem0_0 : DmaSem sig := 17
abbrev cc1_sem0_1 : DmaSem sig := 18
abbrev cc1_sem1_0 : DmaSem sig := 19
abbrev cc1_sem1_1 : DmaSem sig := 20
abbrev cc1_sem2_0 : DmaSem sig := 21
abbrev cc1_sem2_1 : DmaSem sig := 22
abbrev cc1_sem3_0 : DmaSem sig := 23
abbrev cc1_sem4_0 : DmaSem sig := 24
abbrev cc1_sem5_0 : DmaSem sig := 25
abbrev cc1_sem6_0 : DmaSem sig := 26
abbrev cc1_sem7_0 : DmaSem sig := 27
abbrev cc1_sem7_1 : DmaSem sig := 28

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S512x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S512x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  concatenates_S1024x1536_S1024x1536_S1024x1536_S1024x1536_S4096x1536_d0 : Shape.Concatenates [S1024x1536, S1024x1536, S1024x1536, S1024x1536] S4096x1536 0
  concatenates_S1024_S1024_S1024_S1024_S4096_d0 : Shape.Concatenates [S1024, S1024, S1024, S1024] S4096 0
  slices_S4096x1536_S4096x512_0_0 : S4096x1536.Slices ![0, 0] S4096x512
  transposes_S4096x512_S512x4096_1_0 : S4096x512.Transposes [1, 0] S512x4096
  bitsLt_bf16_f32 : FTy.bits .bf16 < FTy.bits .f32
  slices_S4096x1536_S4096x1024_0_512 : S4096x1536.Slices ![0, 512] S4096x1024
  transposes_S4096x1024_S1024x4096_1_0 : S4096x1024.Transposes [1, 0] S1024x4096
  shapeCasts_S4096_S1x4096 : S4096.ShapeCasts S1x4096
  shapeCasts_S1_S1x1 : S1.ShapeCasts S1x1
  inb_S512x512_S512x512_0_0 : ∀ a, (![0, 0] : Fin 2 → Nat) a + S512x512.size a ≤ S512x512.size a
  h_S512x512 : 0 < S512x512.numel
  inb_S512x1024_S512x1024_0_0 : ∀ a, (![0, 0] : Fin 2 → Nat) a + S512x1024.size a ≤ S512x1024.size a
  h_S512x1024 : 0 < S512x1024.numel
  inb_S512x4096_S512x1024_0_0 : ∀ a, (![0, 0] : Fin 2 → Nat) a + S512x1024.size a ≤ S512x4096.size a
  shapeCasts_S512x1024_S512x1024 : S512x1024.ShapeCasts S512x1024
  inb_S1024x4096_S1024x1024_0_0 : ∀ a, (![0, 0] : Fin 2 → Nat) a + S1024x1024.size a ≤ S1024x4096.size a
  h_S1024x1024 : 0 < S1024x1024.numel
  shapeCasts_S1024x1024_S1024x1024 : S1024x1024.ShapeCasts S1024x1024
  inb_S1x4096_S1x1024_0_0 : ∀ a, (![0, 0] : Fin 2 → Nat) a + S1x1024.size a ≤ S1x4096.size a
  h_S1x1024 : 0 < S1x1024.numel
  shapeCasts_S1x1024_S1x1024 : S1x1024.ShapeCasts S1x1024
  broadcasts_S1x1024_S512x1024 : S1x1024.Broadcasts S512x1024
  inb_S512x4096_S512x1024_0_1024 : ∀ a, (![0, 1024] : Fin 2 → Nat) a + S512x1024.size a ≤ S512x4096.size a
  inb_S1024x4096_S1024x1024_0_1024 : ∀ a, (![0, 1024] : Fin 2 → Nat) a + S1024x1024.size a ≤ S1024x4096.size a
  inb_S1x4096_S1x1024_0_1024 : ∀ a, (![0, 1024] : Fin 2 → Nat) a + S1x1024.size a ≤ S1x4096.size a
  inb_S512x4096_S512x1024_0_2048 : ∀ a, (![0, 2048] : Fin 2 → Nat) a + S512x1024.size a ≤ S512x4096.size a
  inb_S1024x4096_S1024x1024_0_2048 : ∀ a, (![0, 2048] : Fin 2 → Nat) a + S1024x1024.size a ≤ S1024x4096.size a
  inb_S1x4096_S1x1024_0_2048 : ∀ a, (![0, 2048] : Fin 2 → Nat) a + S1x1024.size a ≤ S1x4096.size a
  inb_S512x4096_S512x1024_0_3072 : ∀ a, (![0, 3072] : Fin 2 → Nat) a + S512x1024.size a ≤ S512x4096.size a
  inb_S1024x4096_S1024x1024_0_3072 : ∀ a, (![0, 3072] : Fin 2 → Nat) a + S1024x1024.size a ≤ S1024x4096.size a
  inb_S1x4096_S1x1024_0_3072 : ∀ a, (![0, 3072] : Fin 2 → Nat) a + S1x1024.size a ≤ S1x4096.size a
  inb_S1x1024_S1x1024_0_0 : ∀ a, (![0, 0] : Fin 2 → Nat) a + S1x1024.size a ≤ S1x1024.size a
  reduces_S512x1024_S512 : S512x1024.Reduces [1] S512
  shapeCasts_S512_S512x1 : S512.ShapeCasts S512x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  packedbf16_S512x1024_S512x1024_0_0 : (Rect.unit (s := S512x1024) ![0, 0] S512x1024.size inb_S512x1024_S512x1024_0_0).PackedRows (EltTy.packing .bf16)
  inb_S512x1_S512x1_0_0 : ∀ a, (![0, 0] : Fin 2 → Nat) a + S512x1.size a ≤ S512x1.size a
  h_S512x1 : 0 < S512x1.numel
  reducesTo_S16384x1_S1_d0 : S16384x1.ReducesTo [0] S1
  h_S_ : 0 < S_.numel
  bcast_S_S1 : S_.BroadcastsInDim S1 (![] : Fin 0 → Fin S1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  transposes_S1024x512_S512x1024_1_0 : S1024x512.Transposes [1, 0] S512x1024
  shapeCasts_S1024_S1x1024 : S1024.ShapeCasts S1x1024
  shapeCasts_S512x1_S512x1 : S512x1.ShapeCasts S512x1
  broadcasts_S512x1_S512x1024 : S512x1.Broadcasts S512x1024
  dot_S512x512_S512x1024_S512x1024_1_0_0_1_n_n_wf : DotDims.WF S512x512 S512x1024 S512x1024 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S16384x512.size a
  hwx0_0 : ∀ i : grid0.Coords, EltTy.bits .f32 = 32 ∨ (Rect.block (s := S16384x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S16384x1024.size a
  hwx0_1 : ∀ i : grid0.Coords, EltTy.bits .f32 = 32 ∨ (Rect.block (s := S16384x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S16384x1024.size a
  hwx0_2 : ∀ i : grid0.Coords, EltTy.bits .f32 = 32 ∨ (Rect.block (s := S16384x1024) S512x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x4096.size a ≤ S512x4096.size a
  hwx0_3 : ∀ i : grid0.Coords, EltTy.bits .bf16 = 32 ∨ (Rect.block (s := S512x4096) S512x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x1024.size a ≤ S16384x1024.size a
  hwx0_8 : ∀ i : grid0.Coords, EltTy.bits .bf16 = 32 ∨ (Rect.block (s := S16384x1024) S512x1024.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x1024.size a ≤ S16384x1024.size a
  hwx0_9 : ∀ i : grid0.Coords, EltTy.bits .f32 = 32 ∨ (Rect.block (s := S16384x1024) S512x1024.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x1.size a ≤ S16384x1.size a
  hwx0_10 : ∀ i : grid0.Coords, EltTy.bits .f32 = 32 ∨ (Rect.block (s := S16384x1) S512x1.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S16384x512.size a
  hwx1_0 : ∀ i : grid1.Coords, EltTy.bits .f32 = 32 ∨ (Rect.block (s := S16384x512) S512x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S16384x1024.size a
  hwx1_1 : ∀ i : grid1.Coords, EltTy.bits .bf16 = 32 ∨ (Rect.block (s := S16384x1024) S512x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S16384x1.size a
  hwx1_2 : ∀ i : grid1.Coords, EltTy.bits .f32 = 32 ∨ (Rect.block (s := S16384x1) S512x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S512x1024.size a
  hwx1_3 : ∀ i : grid1.Coords, EltTy.bits .bf16 = 32 ∨ (Rect.block (s := S512x1024) S512x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x1024.size a
  hwx1_4 : ∀ i : grid1.Coords, EltTy.bits .f32 = 32 ∨ (Rect.block (s := S1x1024) S1x1024.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512x1024.size a ≤ S512x1024.size a
  hwx1_5 : ∀ i : grid1.Coords, EltTy.bits .bf16 = 32 ∨ (Rect.block (s := S512x1024) S512x1024.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1024.size a ≤ S1x1024.size a
  hwx1_6 : ∀ i : grid1.Coords, EltTy.bits .f32 = 32 ∨ (Rect.block (s := S1x1024) S1x1024.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S512x1024.size a ≤ S16384x1024.size a
  hwx1_7 : ∀ i : grid1.Coords, EltTy.bits .f32 = 32 ∨ (Rect.block (s := S16384x1024) S512x1024.size (cc1_transform_7 i) (hinb1_7 i)).WholeWords (EltTy.packing .f32)

variable [Facts₀]

def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S512x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg11) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S1x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v10_0) S512x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v10_1) S512x1024.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v10_2) S512x1.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_arg0) S512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10_0) S512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S512x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v23) S512x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S1x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25) S512x1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v27) S1x1024.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v28) S512x1024.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S16384x512 : Shape := ⟨2, ![16384, 512]⟩
abbrev S16384x1024 : Shape := ⟨2, ![16384, 1024]⟩
abbrev S1024x1536 : Shape := ⟨2, ![1024, 1536]⟩
abbrev S1024 : Shape := ⟨1, ![1024]⟩
abbrev S1x1024 : Shape := ⟨2, ![1, 1024]⟩
abbrev S1 : Shape := ⟨1, ![1]⟩
abbrev S1024x512 : Shape := ⟨2, ![1024, 512]⟩
abbrev S16384x1536 : Shape := ⟨2, ![16384, 1536]⟩
abbrev S4096x1536 : Shape := ⟨2, ![4096, 1536]⟩
abbrev S4096 : Shape := ⟨1, ![4096]⟩
abbrev S1536x4096 : Shape := ⟨2, ![1536, 4096]⟩
abbrev S16384x4096 : Shape := ⟨2, ![16384, 4096]⟩
abbrev S1x4096 : Shape := ⟨2, ![1, 4096]⟩
abbrev S_ : Shape := ⟨0, ![]⟩
abbrev S1024x1 : Shape := ⟨2, ![1024, 1]⟩
abbrev S16384x1 : Shape := ⟨2, ![16384, 1]⟩
abbrev S1x1 : Shape := ⟨2, ![1, 1]⟩
abbrev S512x1024 : Shape := ⟨2, ![512, 1024]⟩

abbrev nBuf : Space → Nat
  | .hbm => 104
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x1024, .f32⟩
  | .hbm, ⟨2, _⟩ => ⟨S16384x1024, .f32⟩
  | .hbm, ⟨3, _⟩ => ⟨S1024x1536, .f32⟩
  | .hbm, ⟨4, _⟩ => ⟨S1024, .f32⟩
  | .hbm, ⟨5, _⟩ => ⟨S1024x1536, .f32⟩
  | .hbm, ⟨6, _⟩ => ⟨S1024, .f32⟩
  | .hbm, ⟨7, _⟩ => ⟨S1024x1536, .f32⟩
  | .hbm, ⟨8, _⟩ => ⟨S1024, .f32⟩
  | .hbm, ⟨9, _⟩ => ⟨S1024x1536, .f32⟩
  | .hbm, ⟨10, _⟩ => ⟨S1024, .f32⟩
  | .hbm, ⟨11, _⟩ => ⟨S1x1024, .f32⟩
  | .hbm, ⟨12, _⟩ => ⟨S1, .f32⟩
  | .hbm, ⟨13, _⟩ => ⟨S1024x512, .f32⟩
  | .hbm, ⟨14, _⟩ => ⟨S1024, .f32⟩
  | .hbm, ⟨15, _⟩ => ⟨S1024x512, .f32⟩
  | .hbm, ⟨16, _⟩ => ⟨S1024, .f32⟩
  | .hbm, ⟨17, _⟩ => ⟨S16384x1536, .f32⟩
  | .hbm, ⟨18, _⟩ => ⟨S4096x1536, .f32⟩
  | .hbm, ⟨19, _⟩ => ⟨S4096, .f32⟩
  | .hbm, ⟨20, _⟩ => ⟨S1536x4096, .f32⟩
  | .hbm, ⟨21, _⟩ => ⟨S16384x4096, .f32⟩
  | .hbm, ⟨22, _⟩ => ⟨S1x4096, .f32⟩
  | .hbm, ⟨23, _⟩ => ⟨S16384x4096, .f32⟩
  | .hbm, ⟨24, _⟩ => ⟨S16384x4096, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S_, .f32⟩
  | .hbm, ⟨32, _⟩ => ⟨S16384x1024, .f32⟩
  | .hbm, ⟨33, _⟩ => ⟨S16384x1024, .f32⟩
  | .hbm, ⟨34, _⟩ => ⟨S_, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S_, .f32⟩
  | .hbm, ⟨40, _⟩ => ⟨S16384x1024, .f32⟩
  | .hbm, ⟨41, _⟩ => ⟨S16384x1024, .f32⟩
  | .hbm, ⟨42, _⟩ => ⟨S_, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S_, .f32⟩
  | .hbm, ⟨48, _⟩ => ⟨S16384x1024, .f32⟩
  | .hbm, ⟨49, _⟩ => ⟨S16384x1024, .f32⟩
  | .hbm, ⟨50, _⟩ => ⟨S_, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S1024x1, .f32⟩
  | .hbm, ⟨60, _⟩ => ⟨S16384x1, .f32⟩
  | .hbm, ⟨61, _⟩ => ⟨S1x1, .f32⟩
  | .hbm, ⟨62, _⟩ => ⟨S16384x1, .f32⟩
  | .hbm, ⟨63, _⟩ => ⟨S16384x1, .f32⟩
  | .hbm, ⟨64, _⟩ => ⟨S_, .f32⟩
  | .hbm, ⟨65, _⟩ => ⟨S1, .f32⟩
  | .hbm, ⟨66, _⟩ => ⟨S_, .f32⟩
  | .hbm, ⟨67, _⟩ => ⟨S1, .f32⟩
  | .hbm, ⟨68, _⟩ => ⟨S1, .f32⟩
  | .hbm, ⟨69, _⟩ => ⟨S1x1, .f32⟩
  | .hbm, ⟨70, _⟩ => ⟨S16384x1, .f32⟩
  | .hbm, ⟨71, _⟩ => ⟨S16384x1, .f32⟩
  | .hbm, ⟨72, _⟩ => ⟨S16384x1, .f32⟩
  | .hbm, ⟨73, _⟩ => ⟨S_, .f32⟩
  | .hbm, ⟨74, _⟩ => ⟨S1, .f32⟩
  | .hbm, ⟨75, _⟩ => ⟨S1x1, .f32⟩
  | .hbm, ⟨76, _⟩ => ⟨S16384x1, .f32⟩
  | .hbm, ⟨77, _⟩ => ⟨S16384x1, .f32⟩
  | .hbm, ⟨78, _⟩ => ⟨S16384x1024, .f32⟩
  | .hbm, ⟨79, _⟩ => ⟨S16384x1024, .f32⟩
  | .hbm, ⟨80, _⟩ => ⟨S512x1024, .f32⟩
  | .hbm, ⟨81, _⟩ => ⟨S16384x1024, .f32⟩
  | .hbm, ⟨82, _⟩ => ⟨S1x1024, .f32⟩
  | .hbm, ⟨83, _⟩ => ⟨S16384x1024, .f32⟩
  | .hbm, ⟨84, _⟩ => ⟨S16384x1024, .f32⟩
  | .hbm, ⟨85, _⟩ => ⟨S512x1024, .f32⟩
  | .hbm, ⟨86, _⟩ => ⟨S16384x1024, .f32⟩
  | .hbm, ⟨87, _⟩ => ⟨S1x1024, .f32⟩
  | .hbm, ⟨88, _⟩ => ⟨S16384x1024, .f32⟩
  | .hbm, ⟨89, _⟩ => ⟨S16384x1024, .f32⟩
  | .hbm, ⟨90, _⟩ => ⟨S16384x1024, .f32⟩
  | .hbm, ⟨91, _⟩ => ⟨S16384x1024, .f32⟩
  | .hbm, ⟨92, _⟩ => ⟨S_, .f32⟩
  | .hbm, ⟨93, _⟩ => ⟨S16384x1024, .f32⟩
  | .hbm, ⟨94, _⟩ => ⟨S16384x1024, .f32⟩
  | .hbm, ⟨95, _⟩ => ⟨S_, .f32⟩
  | .hbm, ⟨96, _⟩ => ⟨S16384x1024, .f32⟩
  | .hbm, ⟨97, _⟩ => ⟨S16384x1024, .f32⟩
  | .hbm, ⟨98, _⟩ => ⟨S16384x1024, .f32⟩
  | .hbm, ⟨99, _⟩ => ⟨S_, .f32⟩
  | .hbm, ⟨100, _⟩ => ⟨S16384x1024, .f32⟩
  | .hbm, ⟨101, _⟩ => ⟨S16384x1024, .f32⟩
  | .hbm, ⟨102, _⟩ => ⟨S16384x1024, .f32⟩
  | .hbm, ⟨103, _⟩ => ⟨S16384x1024, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst : Ref sig .tc := ⟨.hbm, 31, rfl⟩
abbrev main_v14 : Ref sig .tc := ⟨.hbm, 32, rfl⟩
abbrev main_v15 : Ref sig .tc := ⟨.hbm, 33, rfl⟩
abbrev main_cst_0 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_1 : Ref sig .tc := ⟨.hbm, 39, rfl⟩
abbrev main_v20 : Ref sig .tc := ⟨.hbm, 40, rfl⟩
abbrev main_v21 : Ref sig .tc := ⟨.hbm, 41, rfl⟩
abbrev main_cst_2 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_3 : Ref sig .tc := ⟨.hbm, 47, rfl⟩
abbrev main_v26 : Ref sig .tc := ⟨.hbm, 48, rfl⟩
abbrev main_v27 : Ref sig .tc := ⟨.hbm, 49, rfl⟩
abbrev main_cst_4 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_5 : Ref sig .tc := ⟨.hbm, 64, rfl⟩
abbrev main_v41 : Ref sig .tc := ⟨.hbm, 65, rfl⟩
abbrev main_cst_6 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_7 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_8 : Ref sig .tc := ⟨.hbm, 92, rfl⟩
abbrev main_v66 : Ref sig .tc := ⟨.hbm, 93, rfl⟩
abbrev main_v67 : Ref sig .tc := ⟨.hbm, 94, rfl⟩
abbrev main_cst_9 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_10 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩

abbrev nD : Nat := 1
abbrev τ : Topo := Topo.v7x

variable {F : FTy → Type} [FloatOps F]

class Facts₀ : Prop where
  concatenates_S16384x512_S16384x1024_S16384x1536_d1 : Shape.Concatenates [S16384x512, S16384x1024] S16384x1536 1
  concatenates_S1024x1536_S1024x1536_S1024x1536_S1024x1536_S4096x1536_d0 : Shape.Concatenates [S1024x1536, S1024x1536, S1024x1536, S1024x1536] S4096x1536 0
  concatenates_S1024_S1024_S1024_S1024_S4096_d0 : Shape.Concatenates [S1024, S1024, S1024, S1024] S4096 0
  transposes_S4096x1536_S1536x4096_1_0 : S4096x1536.Transposes [1, 0] S1536x4096
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  slices_S16384x4096_S16384x1024_0_0 : S16384x4096.Slices ![0, 0] S16384x1024
  slices_S16384x4096_S16384x1024_0_1024 : S16384x4096.Slices ![0, 1024] S16384x1024
  slices_S16384x4096_S16384x1024_0_2048 : S16384x4096.Slices ![0, 2048] S16384x1024
  slices_S16384x4096_S16384x1024_0_3072 : S16384x4096.Slices ![0, 3072] S16384x1024
  bcast_S_S16384x1024 : S_.BroadcastsInDim S16384x1024 (![] : Fin 0 → Fin S16384x1024.rank)
  transposes_S1x1024_S1024x1_1_0 : S1x1024.Transposes [1, 0] S1024x1
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S1_d0 : S16384x1.ReducesTo [0] S1
  h_S_ : 0 < S_.numel
  bcast_S_S1 : S_.BroadcastsInDim S1 (![] : Fin 0 → Fin S1.rank)
  bcast_S16384x1_S16384x1024_0_1 : S16384x1.BroadcastsInDim S16384x1024 (![0, 1] : Fin 2 → Fin S16384x1024.rank)
  transposes_S1024x512_S512x1024_1_0 : S1024x512.Transposes [1, 0] S512x1024
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  dot_S16384x1536_S1536x4096_S16384x4096_1_0_0_1_n_n_wf : DotDims.WF S16384x1536 S1536x4096 S16384x4096 [1] [0] [0] [1] [] []
  dot_S16384x1024_S1024x1_S16384x1_1_0_0_1_n_n_wf : DotDims.WF S16384x1024 S1024x1 S16384x1 [1] [0] [0] [1] [] []
  dot_S16384x512_S512x1024_S16384x1024_1_0_0_1_n_n_wf : DotDims.WF S16384x512 S512x1024 S16384x1024 [1] [0] [0] [1] [] []

variable [Facts₀]

def dot_S16384x1536_S1536x4096_S16384x4096_1_0_0_1_n_n : DotDims S16384x1536 S1536x4096 S16384x4096 where
  lhsContracting := [1]
  rhsContracting := [0]
  lhsNonContracting := [0]
  rhsNonContracting := [1]
  lhsBatch := []
  rhsBatch := []
  wf := dot_S16384x1536_S1536x4096_S16384x4096_1_0_0_1_n_n_wf
def dot_S16384x1024_S1024x1_S16384x1_1_0_0_1_n_n : DotDims S16384x1024 S1024x1 S16384x1 where
  lhsContracting := [1]
  rhsContracting := [0]
  lhsNonContracting := [0]
  rhsNonContracting := [1]
  lhsBatch := []
  rhsBatch := []
  wf := dot_S16384x1024_S1024x1_S16384x1_1_0_0_1_n_n_wf
def dot_S16384x512_S512x1024_S16384x1024_1_0_0_1_n_n : DotDims S16384x512 S512x1024 S16384x1024 where
  lhsContracting := [1]
  rhsContracting := [0]
  lhsNonContracting := [0]
  rhsNonContracting := [1]
  lhsBatch := []
  rhsBatch := []
  wf := dot_S16384x512_S512x1024_S16384x1024_1_0_0_1_n_n_wf

class Facts : Prop extends Facts₀ where

variable [Facts]
-- ==== Proof.FrK.Defs0.lean ====
import proofs.«167787_j30270929502695_2_alg».proof.Proof.Gen.Kernel.Launch
import proofs.«167787_j30270929502695_2_alg».proof.Proof.Gen.Kernel.Skeleton
import proofs.«167787_j30270929502695_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0 (the cell kernel), entered with the buffers at `V`: definitions -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The rectangles the body loads and stores through: whole staging buffers, and for the three stacked operands the
    four column groups of 1024 (one per gate) -/

abbrev rX : Rect S512x512 := Rect.unit (s := S512x512) ![0, 0] S512x512.size inb_S512x512_S512x512_0_0
abbrev rB : Rect S512x1024 := Rect.unit (s := S512x1024) ![0, 0] S512x1024.size inb_S512x1024_S512x1024_0_0
abbrev rWx0 : Rect S512x4096 := Rect.unit (s := S512x4096) ![0, 0] S512x1024.size inb_S512x4096_S512x1024_0_0
abbrev rWh0 : Rect S1024x4096 := Rect.unit (s := S1024x4096) ![0, 0] S1024x1024.size inb_S1024x4096_S1024x1024_0_0
abbrev rb0 : Rect S1x4096 := Rect.unit (s := S1x4096) ![0, 0] S1x1024.size inb_S1x4096_S1x1024_0_0
abbrev rWx1 : Rect S512x4096 := Rect.unit (s := S512x4096) ![0, 1024] S512x1024.size inb_S512x4096_S512x1024_0_1024
abbrev rWh1 : Rect S1024x4096 := Rect.unit (s := S1024x4096) ![0, 1024] S1024x1024.size inb_S1024x4096_S1024x1024_0_1024
abbrev rb1 : Rect S1x4096 := Rect.unit (s := S1x4096) ![0, 1024] S1x1024.size inb_S1x4096_S1x1024_0_1024
abbrev rWx2 : Rect S512x4096 := Rect.unit (s := S512x4096) ![0, 2048] S512x1024.size inb_S512x4096_S512x1024_0_2048
abbrev rWh2 : Rect S1024x4096 := Rect.unit (s := S1024x4096) ![0, 2048] S1024x1024.size inb_S1024x4096_S1024x1024_0_2048
abbrev rb2 : Rect S1x4096 := Rect.unit (s := S1x4096) ![0, 2048] S1x1024.size inb_S1x4096_S1x1024_0_2048
abbrev rWx3 : Rect S512x4096 := Rect.unit (s := S512x4096) ![0, 3072] S512x1024.size inb_S512x4096_S512x1024_0_3072
abbrev rWh3 : Rect S1024x4096 := Rect.unit (s := S1024x4096) ![0, 3072] S1024x1024.size inb_S1024x4096_S1024x1024_0_3072
abbrev rb3 : Rect S1x4096 := Rect.unit (s := S1x4096) ![0, 3072] S1x1024.size inb_S1x4096_S1x1024_0_3072
abbrev rWa : Rect S1x1024 := Rect.unit (s := S1x1024) ![0, 0] S1x1024.size inb_S1x1024_S1x1024_0_0
abbrev rba : Rect S1x1 := Rect.unit (s := S1x1) ![0, 0] S1x1.size inb_S1x1_S1x1_0_0
abbrev rL : Rect S512x1 := Rect.unit (s := S512x1) ![0, 0] S512x1.size inb_S512x1_S512x1_0_0

/-! ## What the body leaves in each output window's staging buffer, from the input windows' blocks -/

/-- The hidden-state output (rounded to bf16 for the second kernel): one whole-buffer store. -/
def out0_8 (x0 : Vec F S512x512 .f32) (x1 : Vec F S512x1024 .f32) (x2 : Vec F S512x1024 .f32) (x3 : Vec F S512x4096 .bf16) (x4 : Vec F S1024x4096 .bf16) (x5 : Vec F S1x4096 .f32) : Vec F S512x1024 .bf16 :=
  View.canon [⟨rB, k0_pay10 (k0_pay1 (View.ld x0 rX)) (k0_pay2 (View.ld x1 rB)) (k0_pay3 (View.ld x0 rX) (View.ld x1 rB) (View.ld x3 rWx0) (View.ld x4 rWh0) (View.ld x5 rb0)) (k0_pay4 (View.ld x0 rX) (View.ld x1 rB) (View.ld x3 rWx1) (View.ld x4 rWh1) (View.ld x5 rb1)) (k0_pay5 (View.ld x0 rX) (View.ld x3 rWx2)) (k0_pay6 (View.ld x4 rWh2)) (constant S512x1024 .f32 0x00000000#32) (View.ld x5 rb2) (View.ld x3 rWx3) (View.ld x4 rWh3) (View.ld x5 rb3) (View.ld x2 rB)⟩]

/-- The cell-state output: one whole-buffer store. -/
def out0_9 (x0 : Vec F S512x512 .f32) (x1 : Vec F S512x1024 .f32) (x2 : Vec F S512x1024 .f32) (x3 : Vec F S512x4096 .bf16) (x4 : Vec F S1024x4096 .bf16) (x5 : Vec F S1x4096 .f32) : Vec F S512x1024 .f32 :=
  View.canon [⟨rB, k0_pay7 (k0_pay1 (View.ld x0 rX)) (k0_pay2 (View.ld x1 rB)) (k0_pay3 (View.ld x0 rX) (View.ld x1 rB) (View.ld x3 rWx0) (View.ld x4 rWh0) (View.ld x5 rb0)) (k0_pay4 (View.ld x0 rX) (View.ld x1 rB) (View.ld x3 rWx1) (View.ld x4 rWh1) (View.ld x5 rb1)) (View.ld x3 rWx3) (View.ld x4 rWh3) (View.ld x5 rb3) (View.ld x2 rB)⟩]

/-- The attention-logit output (one column): one whole-buffer store. -/
def out0_10 (x0 : Vec F S512x512 .f32) (x1 : Vec F S512x1024 .f32) (x2 : Vec F S512x1024 .f32) (x3 : Vec F S512x4096 .bf16) (x4 : Vec F S1024x4096 .bf16) (x5 : Vec F S1x4096 .f32) (x6 : Vec F S1x1024 .f32) (x7 : Vec F S1x1 .f32) : Vec F S512x1 .f32 :=
  View.canon [⟨rL, k0_pay9 (k0_pay1 (View.ld x0 rX)) (k0_pay2 (View.ld x1 rB)) (k0_pay3 (View.ld x0 rX) (View.ld x1 rB) (View.ld x3 rWx0) (View.ld x4 rWh0) (View.ld x5 rb0)) (k0_pay4 (View.ld x0 rX) (View.ld x1 rB) (View.ld x3 rWx1) (View.ld x4 rWh1) (View.ld x5 rb1)) (k0_pay5 (View.ld x0 rX) (View.ld x3 rWx2)) (k0_pay6 (View.ld x4 rWh2)) (constant S512x1024 .f32 0x00000000#32) (View.ld x5 rb2) (View.ld x3 rWx3) (View.ld x4 rWh3) (View.ld x5 rb3) (View.ld x2 rB) (View.ld x6 rWa) (View.ld x7 rba)⟩]

/-- Each output's one store is its whole buffer, so it covers it. -/
theorem cover0_8 (p0 : Vec F S512x1024 .bf16) (y : S512x1024.Idx) :
    ∃ pc ∈ ([⟨rB, p0⟩] : List (View.Piece (Elt F) S512x1024 .bf16)), y ∈ pc.1.set :=
  View.cover_of_tiled [⟨rB, p0⟩] S512x1024.size (by rfl) y
theorem cover0_9 (p0 : Vec F S512x1024 .f32) (y : S512x1024.Idx) :
    ∃ pc ∈ ([⟨rB, p0⟩] : List (View.Piece (Elt F) S512x1024 .f32)), y ∈ pc.1.set :=
  View.cover_of_tiled [⟨rB, p0⟩] S512x1024.size (by rfl) y
theorem cover0_10 (p0 : Vec F S512x1 .f32) (y : S512x1.Idx) :
    ∃ pc ∈ ([⟨rL, p0⟩] : List (View.Piece (Elt F) S512x1 .f32)), y ∈ pc.1.set :=
  View.cover_of_tiled [⟨rL, p0⟩] S512x1.size (by rfl) y

/-! ## The pipeline's proof data -/

/-- The proof data of pipeline 0 on core `c`: the arrays as the region finds them; after the body at point `t` each
    input's buffer at its block and each output's at what the body stored, computed from the input blocks; the
    class-A invariant (the scoped rest and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => out0_8 (iblk0 V c 0 t) (iblk0 V c 1 t) (iblk0 V c 2 t) (iblk0 V c 3 t) (iblk0 V c 4 t) (iblk0 V c 5 t)
    | ⟨9, _⟩ => out0_9 (iblk0 V c 0 t) (iblk0 V c 1 t) (iblk0 V c 2 t) (iblk0 V c 3 t) (iblk0 V c 4 t) (iblk0 V c 5 t)
    | ⟨10, _⟩ => out0_10 (iblk0 V c 0 t) (iblk0 V c 1 t) (iblk0 V c 2 t) (iblk0 V c 3 t) (iblk0 V c 4 t) (iblk0 V c 5 t) (iblk0 V c 6 t) (iblk0 V c 7 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = out0_8 (iblk0 V c 0 t) (iblk0 V c 1 t) (iblk0 V c 2 t) (iblk0 V c 3 t) (iblk0 V c 4 t) (iblk0 V c 5 t) := by dsimp only [dat0]
theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) := by dsimp only [dat0]
theorem after0_10 (c : Dev nD) (t : Fin cfg0.N) : (dat0 V c).after 10 t = out0_10 (iblk0 V c 0 t) (iblk0 V c 1 t) (iblk0 V c 2 t) (iblk0 V c 3 t) (iblk0 V c 4 t) (iblk0 V c 5 t) (iblk0 V c 6 t) (iblk0 V c 7 t) := by dsimp only [dat0]

end Cert.Kernel.Fr

end
-- ==== Proof.FrK.Defs1.lean ====
import proofs.«167787_j30270929502695_2_alg».proof.Proof.Gen.Kernel.Launch
import proofs.«167787_j30270929502695_2_alg».proof.Proof.Gen.Kernel.Skeleton
import proofs.«167787_j30270929502695_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1 (the highway kernel), entered with the buffers at `V`: definitions -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The rectangles the body loads and stores through: every one a whole staging buffer -/

abbrev sX : Rect S512x512 := Rect.unit (s := S512x512) ![0, 0] S512x512.size inb_S512x512_S512x512_0_0
abbrev sB : Rect S512x1024 := Rect.unit (s := S512x1024) ![0, 0] S512x1024.size inb_S512x1024_S512x1024_0_0
abbrev sL : Rect S512x1 := Rect.unit (s := S512x1) ![0, 0] S512x1.size inb_S512x1_S512x1_0_0
abbrev sR : Rect S1x1024 := Rect.unit (s := S1x1024) ![0, 0] S1x1024.size inb_S1x1024_S1x1024_0_0

/-! ## What the body leaves in the output window's staging buffer, from the input windows' blocks -/

/-- The mixed hidden-state output: one whole-buffer store. -/
def out1_7 (x0 : Vec F S512x512 .f32) (x1 : Vec F S512x1024 .bf16) (x2 : Vec F S512x1 .f32) (x3 : Vec F S512x1024 .bf16) (x4 : Vec F S1x1024 .f32) (x5 : Vec F S512x1024 .bf16) (x6 : Vec F S1x1024 .f32) : Vec F S512x1024 .f32 :=
  View.canon [⟨sB, k1_pay1 (View.ld x0 sX) (View.ld x1 sB) (View.ld x2 sL) (View.ld x3 sB) (View.ld x4 sR) (View.ld x5 sB) (View.ld x6 sR)⟩]

/-- Its one store is the whole buffer, so it covers it. -/
theorem cover1_7 (p0 : Vec F S512x1024 .f32) (y : S512x1024.Idx) :
    ∃ pc ∈ ([⟨sB, p0⟩] : List (View.Piece (Elt F) S512x1024 .f32)), y ∈ pc.1.set :=
  View.cover_of_tiled [⟨sB, p0⟩] S512x1024.size (by rfl) y

/-! ## The pipeline's proof data -/

/-- The proof data of pipeline 1 on core `c`: the arrays as the region finds them; after the body at point `t` each
    input's buffer at its block and the output's at what the body stored, computed from the input blocks; the
    class-A invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

end Cert.Kernel.Fr

end
-- ==== Proof.FrK.RunDefs.lean ====
import proofs.«167787_j30270929502695_2_alg».proof.Proof.Gen.Kernel.Launch
import proofs.«167787_j30270929502695_2_alg».proof.Proof.Gen.Kernel.Skeleton
import proofs.«167787_j30270929502695_2_alg».proof.Proof.Gen.Kernel.Points
import proofs.«167787_j30270929502695_2_alg».proof.Proof.FrK.Defs0
import proofs.«167787_j30270929502695_2_alg».proof.Proof.FrK.Defs1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffers' contents at each boundary of @main: the launch memory, then each stretch of host operations applied,
    then each region's arrays at what its write-backs leave -/

/-- Core `c`'s buffers at launch. -/
abbrev W0 : Dev nD → Valuation τ sig (Elt F) := fun c b => (s₀ m ρ).mem ((c : Dev nD), b)
/-- After the first stretch of host operations (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs folded),
    every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch of host operations (region 1's entry). -/
abbrev W3 : Dev nD → Valuation τ sig (Elt F) := fun c => StableHlo.after hostOps1 (W2 m ρ c)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- A buffer no operation of the first host stretch writes keeps its launch contents through it. -/
theorem W1_of_not_written (c : Dev nD) (b : Ref sig .tc)
    (h : ∀ op ∈ (hostOps0 : List (HloOp τ sig (Elt F))), Proc.devRef .tc b ∉ op.writes) :
    W1 m ρ c (Proc.devRef .tc b) = W0 m ρ c (Proc.devRef .tc b) :=
  StableHlo.after_of_forall_not_mem (b := Proc.devRef .tc b) _ _ h
/-- A buffer no operation of the second host stretch writes keeps through it what region 0 left. -/
theorem W3_of_not_written (c : Dev nD) (b : Ref sig .tc)
    (h : ∀ op ∈ (hostOps1 : List (HloOp τ sig (Elt F))), Proc.devRef .tc b ∉ op.writes) :
    W3 m ρ c (Proc.devRef .tc b) = W2 m ρ c (Proc.devRef .tc b) :=
  StableHlo.after_of_forall_not_mem (b := Proc.devRef .tc b) _ _ h

/-! ## The proof data family -/

/-- The prefetched tables' admissible contents: no pipeline has a table. -/
abbrev adm : (p : Fin 2) → (pcfgs (F := F) p).Adm := fun p => (cfgs p).toPCfg_adm
/-- Every pipeline's proof data, each at its region's entry contents: a literal match on the pipeline. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c

end Cert.Kernel.Fr

end
-- ==== Proof.FrK.Body0.lean ====
import proofs.«167787_j30270929502695_2_alg».proof.Proof.Gen.Kernel.Launch
import proofs.«167787_j30270929502695_2_alg».proof.Proof.Gen.Kernel.Skeleton
import proofs.«167787_j30270929502695_2_alg».proof.Proof.Gen.Kernel.Points
import proofs.«167787_j30270929502695_2_alg».proof.Proof.FrK.Defs0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0 (the cell kernel): the body's run and the body obligation -/

/-! ## Each input window's current staging buffer holds its block at every point, fetched there or not -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_0 (c : Dev nD) (t : Fin cfg0.N) (d) : (dat0 V c).before 0 t d = iblk0 V c 0 t :=
  before0_0_of V (dat0 V c) (A_eq0 V c 0) (after0_0 V c) t d

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_1 (c : Dev nD) (t : Fin cfg0.N) (d) : (dat0 V c).before 1 t d = iblk0 V c 1 t :=
  before0_1_of V (dat0 V c) (A_eq0 V c 1) (after0_1 V c) t d

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_2 (c : Dev nD) (t : Fin cfg0.N) (d) : (dat0 V c).before 2 t d = iblk0 V c 2 t :=
  before0_2_of V (dat0 V c) (A_eq0 V c 2) (after0_2 V c) t d

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_3 (c : Dev nD) (t : Fin cfg0.N) (d) : (dat0 V c).before 3 t d = iblk0 V c 3 t :=
  before0_3_of V (dat0 V c) (A_eq0 V c 3) (after0_3 V c) t d

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_4 (c : Dev nD) (t : Fin cfg0.N) (d) : (dat0 V c).before 4 t d = iblk0 V c 4 t :=
  before0_4_of V (dat0 V c) (A_eq0 V c 4) (after0_4 V c) t d

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_5 (c : Dev nD) (t : Fin cfg0.N) (d) : (dat0 V c).before 5 t d = iblk0 V c 5 t :=
  before0_5_of V (dat0 V c) (A_eq0 V c 5) (after0_5 V c) t d

theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_6 (c : Dev nD) (t : Fin cfg0.N) (d) : (dat0 V c).before 6 t d = iblk0 V c 6 t :=
  before0_6_of V (dat0 V c) (A_eq0 V c 6) (after0_6 V c) t d

theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_7 (c : Dev nD) (t : Fin cfg0.N) (d) : (dat0 V c).before 7 t d = iblk0 V c 7 t :=
  before0_7_of V (dat0 V c) (A_eq0 V c 7) (after0_7 V c) t d

/-! ## The body's triple -/

set_option maxHeartbeats 4000000 in
/-- The kernel body on whole staging memrefs, the inputs' at read contents and the outputs' at anything, runs to the
    continuation holding the inputs' as they were and each output's at what its one store wrote, as computed from the
    inputs' contents. -/
theorem sound_kernel0 (c : Dev nD) (E : Set ℕ) (i : grid0.Coords) (arg1 : Memref sig .tc .vmem S512x512 .f32) (harg1 : arg1.IsWhole) (arg2 : Memref sig .tc .vmem S512x1024 .f32) (harg2 : arg2.IsWhole) (arg3 : Memref sig .tc .vmem S512x1024 .f32) (harg3 : arg3.IsWhole) (arg4 : Memref sig .tc .vmem S512x4096 .bf16) (harg4 : arg4.IsWhole) (arg5 : Memref sig .tc .vmem S1024x4096 .bf16) (harg5 : arg5.IsWhole) (arg6 : Memref sig .tc .vmem S1x4096 .f32) (harg6 : arg6.IsWhole) (arg7 : Memref sig .tc .vmem S1x1024 .f32) (harg7 : arg7.IsWhole) (arg8 : Memref sig .tc .vmem S1x1 .f32) (harg8 : arg8.IsWhole) (arg9 : Memref sig .tc .vmem S512x1024 .bf16) (harg9 : arg9.IsWhole) (arg10 : Memref sig .tc .vmem S512x1024 .f32) (harg10 : arg10.IsWhole) (arg11 : Memref sig .tc .vmem S512x1 .f32) (harg11 : arg11.IsWhole)
    (x0 : Vec F S512x512 .f32) (x1 : Vec F S512x1024 .f32) (x2 : Vec F S512x1024 .f32) (x3 : Vec F S512x4096 .bf16) (x4 : Vec F S1024x4096 .bf16) (x5 : Vec F S1x4096 .f32) (x6 : Vec F S1x1024 .f32) (x7 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out0_8 x0 x1 x2 x3 x4 x5) ∗ owns (c : Thread nD τ) arg10 fullShare (out0_9 x0 x1 x2 x3 x4 x5) ∗ owns (c : Thread nD τ) arg11 fullShare (out0_10 x0 x1 x2 x3 x4 x5 x6 x7)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8 arg9 harg9 arg10 harg10 arg11 harg11) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover0_8 _)
  isplitl [H9]
  · iexists _; isplitr
    swap; · iexact H9
    ipureintro
    exact View.read_writes_eq_canon _ _ _ (cover0_9 _)
  iexists _; isplitr
  swap; · iexact H10
  ipureintro
  exact View.read_writes_eq_canon _ _ _ (cover0_10 _)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t))

set_option maxHeartbeats 4000000 in
/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel0 c Set.univ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.FrK.Body1.lean ====
import proofs.«167787_j30270929502695_2_alg».proof.Proof.Gen.Kernel.Launch
import proofs.«167787_j30270929502695_2_alg».proof.Proof.Gen.Kernel.Skeleton
import proofs.«167787_j30270929502695_2_alg».proof.Proof.Gen.Kernel.Points
import proofs.«167787_j30270929502695_2_alg».proof.Proof.FrK.Defs1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1 (the highway kernel): the body's run and the body obligation -/

/-! ## Each input window's current staging buffer holds its block at every point, fetched there or not -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_0 (c : Dev nD) (t : Fin cfg1.N) (d) : (dat1 V c).before 0 t d = iblk1 V c 0 t :=
  before1_0_of V (dat1 V c) (A_eq1 V c 0) (after1_0 V c) t d

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_1 (c : Dev nD) (t : Fin cfg1.N) (d) : (dat1 V c).before 1 t d = iblk1 V c 1 t :=
  before1_1_of V (dat1 V c) (A_eq1 V c 1) (after1_1 V c) t d

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_2 (c : Dev nD) (t : Fin cfg1.N) (d) : (dat1 V c).before 2 t d = iblk1 V c 2 t :=
  before1_2_of V (dat1 V c) (A_eq1 V c 2) (after1_2 V c) t d

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_3 (c : Dev nD) (t : Fin cfg1.N) (d) : (dat1 V c).before 3 t d = iblk1 V c 3 t :=
  before1_3_of V (dat1 V c) (A_eq1 V c 3) (after1_3 V c) t d

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_4 (c : Dev nD) (t : Fin cfg1.N) (d) : (dat1 V c).before 4 t d = iblk1 V c 4 t :=
  before1_4_of V (dat1 V c) (A_eq1 V c 4) (after1_4 V c) t d

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_5 (c : Dev nD) (t : Fin cfg1.N) (d) : (dat1 V c).before 5 t d = iblk1 V c 5 t :=
  before1_5_of V (dat1 V c) (A_eq1 V c 5) (after1_5 V c) t d

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_6 (c : Dev nD) (t : Fin cfg1.N) (d) : (dat1 V c).before 6 t d = iblk1 V c 6 t :=
  before1_6_of V (dat1 V c) (A_eq1 V c 6) (after1_6 V c) t d

/-! ## The body's triple -/

set_option maxHeartbeats 4000000 in
/-- The kernel body on whole staging memrefs, the inputs' at read contents and the outputs' at anything, runs to the
    continuation holding the inputs' as they were and each output's at what its one store wrote, as computed from the
    inputs' contents. -/
theorem sound_kernel1 (c : Dev nD) (E : Set ℕ) (i : grid1.Coords) (arg1 : Memref sig .tc .vmem S512x512 .f32) (harg1 : arg1.IsWhole) (arg2 : Memref sig .tc .vmem S512x1024 .bf16) (harg2 : arg2.IsWhole) (arg3 : Memref sig .tc .vmem S512x1 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S512x1024 .f32) (harg8 : arg8.IsWhole)
    (x0 : Vec F S512x512 .f32) (x1 : Vec F S512x1024 .bf16) (x2 : Vec F S512x1 .f32) (x3 : Vec F S512x1024 .bf16) (x4 : Vec F S1x1024 .f32) (x5 : Vec F S512x1024 .bf16) (x6 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out1_7 x0 x1 x2 x3 x4 x5 x6)) -∗ K ⟨⟩))
      ⊢ wp frame (wpE (defs₀ (F := F)) Variants.none c none) E (cc1__highway_kernel i arg1 harg1 arg2 harg2 arg3 harg3 arg4 harg4 arg5 harg5 arg6 harg6 arg7 harg7 arg8 harg8) K := by
  simp only [cc1__highway_kernel_eq_skeleton]; unfold cc1__highway_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

set_option maxHeartbeats 4000000 in
/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.FrK.Run.lean ====
import proofs.«167787_j30270929502695_2_alg».proof.Proof.Gen.Kernel.Launch
import proofs.«167787_j30270929502695_2_alg».proof.Proof.Gen.Kernel.Skeleton
import proofs.«167787_j30270929502695_2_alg».proof.Proof.Gen.Kernel.Points
import proofs.«167787_j30270929502695_2_alg».proof.Proof.FrK.RunDefs
import proofs.«167787_j30270929502695_2_alg».proof.Proof.FrK.Body0
import proofs.«167787_j30270929502695_2_alg».proof.Proof.FrK.Body1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run: @main as four segments (host operations, region 0, host operations, region 1) from the launch to the
    return -/

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at
    nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register
    at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered from every unscoped buffer at `W1`, left at `W2`. Its arrays are split
    out of the unscoped buffers and put back at the exit contents; the generator register goes into the class invariant
    and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split
    out of the unscoped buffers and put back at the exit contents; the generator register goes into the class invariant
    and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's four segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- @main is the run of the segments. -/
theorem main_run (c : Dev nD) : main (F := F) c = Pipeline.Seg.run (segs m ρ) := (main_chain c).trans (by chain_rfl)

set_option backward.isDefEq.respectTransparency.types false in
/-- THE RUN. From any memory with zero counters, every weakly fair execution of @main on the TensorCores terminates,
    nothing faulting, and in every final state every unscoped buffer of core `c` holds the last boundary's contents
    `W4 m ρ c`. The frame and the results are read off it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end Cert.Kernel.Fr

end
-- ==== Proof.FrK.Args.lean ====
import proofs.«167787_j30270929502695_2_alg».proof.Proof.Gen.Kernel.Launch
import proofs.«167787_j30270929502695_2_alg».proof.Proof.Gen.Kernel.Skeleton
import proofs.«167787_j30270929502695_2_alg».proof.Proof.Gen.Kernel.Points
import proofs.«167787_j30270929502695_2_alg».proof.Proof.FrK.RunDefs
import proofs.«167787_j30270929502695_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The arguments end as launched: no host operation writes one, and a region only reads one through an input window
    (whose array the pipeline leaves as it found it) or does not touch it; so the last boundary's contents at an
    argument's buffer walk back to the launch memory -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := (W4_arr m ρ c 0).trans (((dat1 (V3 m ρ) c).arrAt_in 0 rfl _).trans (A_eq1 (V3 m ρ) c 0))
    _ = W2 m ρ c (Proc.devRef .tc main_arg0) := StableHlo.after_of_writes_sub hostOps1 _ Gen.hostOps1_writes (by decide : main_arg0 ∉ Gen.hostOps1_W)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ Gen.hostOps0_writes (by decide : main_arg0 ∉ Gen.hostOps0_W)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ Gen.hostOps1_writes (by decide : main_arg1 ∉ Gen.hostOps1_W)
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := StableHlo.after_of_writes_sub hostOps0 _ Gen.hostOps0_writes (by decide : main_arg1 ∉ Gen.hostOps0_W)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ Gen.hostOps1_writes (by decide : main_arg2 ∉ Gen.hostOps1_W)
    _ = W1 m ρ c (Proc.devRef .tc main_arg2) := (W2_arr m ρ c 2).trans (((dat0 (V1 m ρ) c).arrAt_in 2 rfl _).trans (A_eq0 (V1 m ρ) c 2))
    _ = W0 m ρ c (Proc.devRef .tc main_arg2) := StableHlo.after_of_writes_sub hostOps0 _ Gen.hostOps0_writes (by decide : main_arg2 ∉ Gen.hostOps0_W)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ Gen.hostOps1_writes (by decide : main_arg3 ∉ Gen.hostOps1_W)
    _ = W1 m ρ c (Proc.devRef .tc main_arg3) := W2_of_ne m ρ c main_arg3 (by decide)
    _ = W0 m ρ c (Proc.devRef .tc main_arg3) := StableHlo.after_of_writes_sub hostOps0 _ Gen.hostOps0_writes (by decide : main_arg3 ∉ Gen.hostOps0_W)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ Gen.hostOps1_writes (by decide : main_arg4 ∉ Gen.hostOps1_W)
    _ = W1 m ρ c (Proc.devRef .tc main_arg4) := W2_of_ne m ρ c main_arg4 (by decide)
    _ = W0 m ρ c (Proc.devRef .tc main_arg4) := StableHlo.after_of_writes_sub hostOps0 _ Gen.hostOps0_writes (by decide : main_arg4 ∉ Gen.hostOps0_W)
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_writes_sub hostOps1 _ Gen.hostOps1_writes (by decide : main_arg5 ∉ Gen.hostOps1_W)
    _ = W1 m ρ c (Proc.devRef .tc main_arg5) := W2_of_ne m ρ c main_arg5 (by decide)
    _ = W0 m ρ c (Proc.devRef .tc main_arg5) := StableHlo.after_of_writes_sub hostOps0 _ Gen.hostOps0_writes (by decide : main_arg5 ∉ Gen.hostOps0_W)
    _ = m ((c : Thread nD τ).loc main_arg5) := rfl
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_writes_sub hostOps1 _ Gen.hostOps1_writes (by decide : main_arg6 ∉ Gen.hostOps1_W)
    _ = W1 m ρ c (Proc.devRef .tc main_arg6) := W2_of_ne m ρ c main_arg6 (by decide)
    _ = W0 m ρ c (Proc.devRef .tc main_arg6) := StableHlo.after_of_writes_sub hostOps0 _ Gen.hostOps0_writes (by decide : main_arg6 ∉ Gen.hostOps0_W)
    _ = m ((c : Thread nD τ).loc main_arg6) := rfl
theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_writes_sub hostOps1 _ Gen.hostOps1_writes (by decide : main_arg7 ∉ Gen.hostOps1_W)
    _ = W1 m ρ c (Proc.devRef .tc main_arg7) := W2_of_ne m ρ c main_arg7 (by decide)
    _ = W0 m ρ c (Proc.devRef .tc main_arg7) := StableHlo.after_of_writes_sub hostOps0 _ Gen.hostOps0_writes (by decide : main_arg7 ∉ Gen.hostOps0_W)
    _ = m ((c : Thread nD τ).loc main_arg7) := rfl
theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := StableHlo.after_of_writes_sub hostOps1 _ Gen.hostOps1_writes (by decide : main_arg8 ∉ Gen.hostOps1_W)
    _ = W1 m ρ c (Proc.devRef .tc main_arg8) := W2_of_ne m ρ c main_arg8 (by decide)
    _ = W0 m ρ c (Proc.devRef .tc main_arg8) := StableHlo.after_of_writes_sub hostOps0 _ Gen.hostOps0_writes (by decide : main_arg8 ∉ Gen.hostOps0_W)
    _ = m ((c : Thread nD τ).loc main_arg8) := rfl
theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := StableHlo.after_of_writes_sub hostOps1 _ Gen.hostOps1_writes (by decide : main_arg9 ∉ Gen.hostOps1_W)
    _ = W1 m ρ c (Proc.devRef .tc main_arg9) := W2_of_ne m ρ c main_arg9 (by decide)
    _ = W0 m ρ c (Proc.devRef .tc main_arg9) := StableHlo.after_of_writes_sub hostOps0 _ Gen.hostOps0_writes (by decide : main_arg9 ∉ Gen.hostOps0_W)
    _ = m ((c : Thread nD τ).loc main_arg9) := rfl
theorem W4_main_arg10 (c : Dev nD) : W4 m ρ c (Proc.devRef .tc main_arg10) = m ((c : Thread nD τ).loc main_arg10) :=
  calc W4 m ρ c (Proc.devRef .tc main_arg10)
    _ = W3 m ρ c (Proc.devRef .tc main_arg10) := W4_of_ne m ρ c main_arg10 (by decide)
    _ = W2 m ρ c (Proc.devRef .tc main_arg10) := StableHlo.after_of_writes_sub hostOps1 _ Gen.hostOps1_writes (by decide : main_arg10 ∉ Gen.hostOps1_W)
    _ = W1 m ρ c (Proc.devRef .tc main_arg10) := W2_of_ne m ρ c main_arg10 (by decide)
    _ = W0 m ρ c (Proc.devRef .tc main_arg10) := StableHlo.after_of_writes_sub hostOps0 _ Gen.hostOps0_writes (by decide : main_arg10 ∉ Gen.hostOps0_W)
    _ = m ((c : Thread nD τ).loc main_arg10) := rfl
theorem W4_main_arg11 (c : Dev nD) : W4 m ρ c (Proc.devRef .tc main_arg11) = m ((c : Thread nD τ).loc main_arg11) :=
  calc W4 m ρ c (Proc.devRef .tc main_arg11)
    _ = W3 m ρ c (Proc.devRef .tc main_arg11) := W4_of_ne m ρ c main_arg11 (by decide)
    _ = W2 m ρ c (Proc.devRef .tc main_arg11) := StableHlo.after_of_writes_sub hostOps1 _ Gen.hostOps1_writes (by decide : main_arg11 ∉ Gen.hostOps1_W)
    _ = W1 m ρ c (Proc.devRef .tc main_arg11) := (W2_arr m ρ c 6).trans (((dat0 (V1 m ρ) c).arrAt_in 6 rfl _).trans (A_eq0 (V1 m ρ) c 6))
    _ = W0 m ρ c (Proc.devRef .tc main_arg11) := StableHlo.after_of_writes_sub hostOps0 _ Gen.hostOps0_writes (by decide : main_arg11 ∉ Gen.hostOps0_W)
    _ = m ((c : Thread nD τ).loc main_arg11) := rfl
theorem W4_main_arg12 (c : Dev nD) : W4 m ρ c (Proc.devRef .tc main_arg12) = m ((c : Thread nD τ).loc main_arg12) :=
  calc W4 m ρ c (Proc.devRef .tc main_arg12)
    _ = W3 m ρ c (Proc.devRef .tc main_arg12) := W4_of_ne m ρ c main_arg12 (by decide)
    _ = W2 m ρ c (Proc.devRef .tc main_arg12) := StableHlo.after_of_writes_sub hostOps1 _ Gen.hostOps1_writes (by decide : main_arg12 ∉ Gen.hostOps1_W)
    _ = W1 m ρ c (Proc.devRef .tc main_arg12) := W2_of_ne m ρ c main_arg12 (by decide)
    _ = W0 m ρ c (Proc.devRef .tc main_arg12) := StableHlo.after_of_writes_sub hostOps0 _ Gen.hostOps0_writes (by decide : main_arg12 ∉ Gen.hostOps0_W)
    _ = m ((c : Thread nD τ).loc main_arg12) := rfl
theorem W4_main_arg13 (c : Dev nD) : W4 m ρ c (Proc.devRef .tc main_arg13) = m ((c : Thread nD τ).loc main_arg13) :=
  calc W4 m ρ c (Proc.devRef .tc main_arg13)
    _ = W3 m ρ c (Proc.devRef .tc main_arg13) := W4_of_ne m ρ c main_arg13 (by decide)
    _ = W2 m ρ c (Proc.devRef .tc main_arg13) := StableHlo.after_of_writes_sub hostOps1 _ Gen.hostOps1_writes (by decide : main_arg13 ∉ Gen.hostOps1_W)
    _ = W1 m ρ c (Proc.devRef .tc main_arg13) := W2_of_ne m ρ c main_arg13 (by decide)
    _ = W0 m ρ c (Proc.devRef .tc main_arg13) := StableHlo.after_of_writes_sub hostOps0 _ Gen.hostOps0_writes (by decide : main_arg13 ∉ Gen.hostOps0_W)
    _ = m ((c : Thread nD τ).loc main_arg13) := rfl
theorem W4_main_arg14 (c : Dev nD) : W4 m ρ c (Proc.devRef .tc main_arg14) = m ((c : Thread nD τ).loc main_arg14) :=
  calc W4 m ρ c (Proc.devRef .tc main_arg14)
    _ = W3 m ρ c (Proc.devRef .tc main_arg14) := W4_of_ne m ρ c main_arg14 (by decide)
    _ = W2 m ρ c (Proc.devRef .tc main_arg14) := StableHlo.after_of_writes_sub hostOps1 _ Gen.hostOps1_writes (by decide : main_arg14 ∉ Gen.hostOps1_W)
    _ = W1 m ρ c (Proc.devRef .tc main_arg14) := W2_of_ne m ρ c main_arg14 (by decide)
    _ = W0 m ρ c (Proc.devRef .tc main_arg14) := StableHlo.after_of_writes_sub hostOps0 _ Gen.hostOps0_writes (by decide : main_arg14 ∉ Gen.hostOps0_W)
    _ = m ((c : Thread nD τ).loc main_arg14) := rfl
theorem W4_main_arg15 (c : Dev nD) : W4 m ρ c (Proc.devRef .tc main_arg15) = m ((c : Thread nD τ).loc main_arg15) :=
  calc W4 m ρ c (Proc.devRef .tc main_arg15)
    _ = W3 m ρ c (Proc.devRef .tc main_arg15) := W4_of_ne m ρ c main_arg15 (by decide)
    _ = W2 m ρ c (Proc.devRef .tc main_arg15) := StableHlo.after_of_writes_sub hostOps1 _ Gen.hostOps1_writes (by decide : main_arg15 ∉ Gen.hostOps1_W)
    _ = W1 m ρ c (Proc.devRef .tc main_arg15) := W2_of_ne m ρ c main_arg15 (by decide)
    _ = W0 m ρ c (Proc.devRef .tc main_arg15) := StableHlo.after_of_writes_sub hostOps0 _ Gen.hostOps0_writes (by decide : main_arg15 ∉ Gen.hostOps0_W)
    _ = m ((c : Thread nD τ).loc main_arg15) := rfl
theorem W4_main_arg16 (c : Dev nD) : W4 m ρ c (Proc.devRef .tc main_arg16) = m ((c : Thread nD τ).loc main_arg16) :=
  calc W4 m ρ c (Proc.devRef .tc main_arg16)
    _ = W3 m ρ c (Proc.devRef .tc main_arg16) := W4_of_ne m ρ c main_arg16 (by decide)
    _ = W2 m ρ c (Proc.devRef .tc main_arg16) := StableHlo.after_of_writes_sub hostOps1 _ Gen.hostOps1_writes (by decide : main_arg16 ∉ Gen.hostOps1_W)
    _ = W1 m ρ c (Proc.devRef .tc main_arg16) := W2_of_ne m ρ c main_arg16 (by decide)
    _ = W0 m ρ c (Proc.devRef .tc main_arg16) := StableHlo.after_of_writes_sub hostOps0 _ Gen.hostOps0_writes (by decide : main_arg16 ∉ Gen.hostOps0_W)
    _ = m ((c : Thread nD τ).loc main_arg16) := rfl

end Cert.Kernel.Fr

end
-- ==== Proof.FrK.Frame.lean ====
import proofs.«167787_j30270929502695_2_alg».proof.Proof.Gen.Kernel.Launch
import proofs.«167787_j30270929502695_2_alg».proof.Proof.Gen.Kernel.Skeleton
import proofs.«167787_j30270929502695_2_alg».proof.Proof.Gen.Kernel.Points
import proofs.«167787_j30270929502695_2_alg».proof.Proof.FrK.Run
import proofs.«167787_j30270929502695_2_alg».proof.Proof.FrK.Args
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The frame: every argument array ends holding its launch contents -/

/-- From any memory with zero counters every weakly fair execution of @main terminates, nothing faulting, and every final
    state has the argument arrays as launched: the run's last boundary read at each argument's buffer. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run (defs (F := F)) _ _).mono (fun r h c =>
    ⟨(h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c),
      (h c _ (mem_uc main_arg7 (by decide))).trans (W4_main_arg7 m ρ c),
      (h c _ (mem_uc main_arg8 (by decide))).trans (W4_main_arg8 m ρ c),
      (h c _ (mem_uc main_arg9 (by decide))).trans (W4_main_arg9 m ρ c),
      (h c _ (mem_uc main_arg10 (by decide))).trans (W4_main_arg10 m ρ c),
      (h c _ (mem_uc main_arg11 (by decide))).trans (W4_main_arg11 m ρ c),
      (h c _ (mem_uc main_arg12 (by decide))).trans (W4_main_arg12 m ρ c),
      (h c _ (mem_uc main_arg13 (by decide))).trans (W4_main_arg13 m ρ c),
      (h c _ (mem_uc main_arg14 (by decide))).trans (W4_main_arg14 m ρ c),
      (h c _ (mem_uc main_arg15 (by decide))).trans (W4_main_arg15 m ρ c),
      (h c _ (mem_uc main_arg16 (by decide))).trans (W4_main_arg16 m ρ c)⟩) (run_all m ρ)

end Cert.Kernel.Fr

end
-- ==== Proof.FrKI.Defs0.lean ====
import proofs.«167787_j30270929502695_2_alg».proof.Proof.Gen.KernelIdeal.Launch
import proofs.«167787_j30270929502695_2_alg».proof.Proof.Gen.KernelIdeal.Skeleton
import proofs.«167787_j30270929502695_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0 (the cell kernel), entered with the buffers at `V`: definitions -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The rectangles the body loads and stores through: whole staging buffers, and for the three stacked operands the
    four column groups of 1024 (one per gate) -/

abbrev rX : Rect S512x512 := Rect.unit (s := S512x512) ![0, 0] S512x512.size inb_S512x512_S512x512_0_0
abbrev rB : Rect S512x1024 := Rect.unit (s := S512x1024) ![0, 0] S512x1024.size inb_S512x1024_S512x1024_0_0
abbrev rWx0 : Rect S512x4096 := Rect.unit (s := S512x4096) ![0, 0] S512x1024.size inb_S512x4096_S512x1024_0_0
abbrev rWh0 : Rect S1024x4096 := Rect.unit (s := S1024x4096) ![0, 0] S1024x1024.size inb_S1024x4096_S1024x1024_0_0
abbrev rb0 : Rect S1x4096 := Rect.unit (s := S1x4096) ![0, 0] S1x1024.size inb_S1x4096_S1x1024_0_0
abbrev rWx1 : Rect S512x4096 := Rect.unit (s := S512x4096) ![0, 1024] S512x1024.size inb_S512x4096_S512x1024_0_1024
abbrev rWh1 : Rect S1024x4096 := Rect.unit (s := S1024x4096) ![0, 1024] S1024x1024.size inb_S1024x4096_S1024x1024_0_1024
abbrev rb1 : Rect S1x4096 := Rect.unit (s := S1x4096) ![0, 1024] S1x1024.size inb_S1x4096_S1x1024_0_1024
abbrev rWx2 : Rect S512x4096 := Rect.unit (s := S512x4096) ![0, 2048] S512x1024.size inb_S512x4096_S512x1024_0_2048
abbrev rWh2 : Rect S1024x4096 := Rect.unit (s := S1024x4096) ![0, 2048] S1024x1024.size inb_S1024x4096_S1024x1024_0_2048
abbrev rb2 : Rect S1x4096 := Rect.unit (s := S1x4096) ![0, 2048] S1x1024.size inb_S1x4096_S1x1024_0_2048
abbrev rWx3 : Rect S512x4096 := Rect.unit (s := S512x4096) ![0, 3072] S512x1024.size inb_S512x4096_S512x1024_0_3072
abbrev rWh3 : Rect S1024x4096 := Rect.unit (s := S1024x4096) ![0, 3072] S1024x1024.size inb_S1024x4096_S1024x1024_0_3072
abbrev rb3 : Rect S1x4096 := Rect.unit (s := S1x4096) ![0, 3072] S1x1024.size inb_S1x4096_S1x1024_0_3072
abbrev rWa : Rect S1x1024 := Rect.unit (s := S1x1024) ![0, 0] S1x1024.size inb_S1x1024_S1x1024_0_0
abbrev rba : Rect S1x1 := Rect.unit (s := S1x1) ![0, 0] S1x1.size inb_S1x1_S1x1_0_0
abbrev rL : Rect S512x1 := Rect.unit (s := S512x1) ![0, 0] S512x1.size inb_S512x1_S512x1_0_0

/-! ## What the body leaves in each output window's staging buffer, from the input windows' blocks -/

/-- The hidden-state output (rounded to bf16 for the second kernel): one whole-buffer store. -/
def out0_8 (x0 : Vec F S512x512 .f32) (x1 : Vec F S512x1024 .f32) (x2 : Vec F S512x1024 .f32) (x3 : Vec F S512x4096 .bf16) (x4 : Vec F S1024x4096 .bf16) (x5 : Vec F S1x4096 .f32) : Vec F S512x1024 .bf16 :=
  View.canon [⟨rB, k0_pay10 (k0_pay1 (View.ld x0 rX)) (k0_pay2 (View.ld x1 rB)) (k0_pay3 (View.ld x0 rX) (View.ld x1 rB) (View.ld x3 rWx0) (View.ld x4 rWh0) (View.ld x5 rb0)) (k0_pay4 (View.ld x0 rX) (View.ld x1 rB) (View.ld x3 rWx1) (View.ld x4 rWh1) (View.ld x5 rb1)) (k0_pay5 (View.ld x0 rX) (View.ld x3 rWx2)) (k0_pay6 (View.ld x4 rWh2)) (constant S512x1024 .f32 0x00000000#32) (View.ld x5 rb2) (View.ld x3 rWx3) (View.ld x4 rWh3) (View.ld x5 rb3) (View.ld x2 rB)⟩]

/-- The cell-state output: one whole-buffer store. -/
def out0_9 (x0 : Vec F S512x512 .f32) (x1 : Vec F S512x1024 .f32) (x2 : Vec F S512x1024 .f32) (x3 : Vec F S512x4096 .bf16) (x4 : Vec F S1024x4096 .bf16) (x5 : Vec F S1x4096 .f32) : Vec F S512x1024 .f32 :=
  View.canon [⟨rB, k0_pay7 (k0_pay1 (View.ld x0 rX)) (k0_pay2 (View.ld x1 rB)) (k0_pay3 (View.ld x0 rX) (View.ld x1 rB) (View.ld x3 rWx0) (View.ld x4 rWh0) (View.ld x5 rb0)) (k0_pay4 (View.ld x0 rX) (View.ld x1 rB) (View.ld x3 rWx1) (View.ld x4 rWh1) (View.ld x5 rb1)) (View.ld x3 rWx3) (View.ld x4 rWh3) (View.ld x5 rb3) (View.ld x2 rB)⟩]

/-- The attention-logit output (one column): one whole-buffer store. -/
def out0_10 (x0 : Vec F S512x512 .f32) (x1 : Vec F S512x1024 .f32) (x2 : Vec F S512x1024 .f32) (x3 : Vec F S512x4096 .bf16) (x4 : Vec F S1024x4096 .bf16) (x5 : Vec F S1x4096 .f32) (x6 : Vec F S1x1024 .f32) (x7 : Vec F S1x1 .f32) : Vec F S512x1 .f32 :=
  View.canon [⟨rL, k0_pay9 (k0_pay1 (View.ld x0 rX)) (k0_pay2 (View.ld x1 rB)) (k0_pay3 (View.ld x0 rX) (View.ld x1 rB) (View.ld x3 rWx0) (View.ld x4 rWh0) (View.ld x5 rb0)) (k0_pay4 (View.ld x0 rX) (View.ld x1 rB) (View.ld x3 rWx1) (View.ld x4 rWh1) (View.ld x5 rb1)) (k0_pay5 (View.ld x0 rX) (View.ld x3 rWx2)) (k0_pay6 (View.ld x4 rWh2)) (constant S512x1024 .f32 0x00000000#32) (View.ld x5 rb2) (View.ld x3 rWx3) (View.ld x4 rWh3) (View.ld x5 rb3) (View.ld x2 rB) (View.ld x6 rWa) (View.ld x7 rba)⟩]

/-- Each output's one store is its whole buffer, so it covers it. -/
theorem cover0_8 (p0 : Vec F S512x1024 .bf16) (y : S512x1024.Idx) :
    ∃ pc ∈ ([⟨rB, p0⟩] : List (View.Piece (Elt F) S512x1024 .bf16)), y ∈ pc.1.set :=
  View.cover_of_tiled [⟨rB, p0⟩] S512x1024.size (by rfl) y
theorem cover0_9 (p0 : Vec F S512x1024 .f32) (y : S512x1024.Idx) :
    ∃ pc ∈ ([⟨rB, p0⟩] : List (View.Piece (Elt F) S512x1024 .f32)), y ∈ pc.1.set :=
  View.cover_of_tiled [⟨rB, p0⟩] S512x1024.size (by rfl) y
theorem cover0_10 (p0 : Vec F S512x1 .f32) (y : S512x1.Idx) :
    ∃ pc ∈ ([⟨rL, p0⟩] : List (View.Piece (Elt F) S512x1 .f32)), y ∈ pc.1.set :=
  View.cover_of_tiled [⟨rL, p0⟩] S512x1.size (by rfl) y

/-! ## The pipeline's proof data -/

/-- The proof data of pipeline 0 on core `c`: the arrays as the region finds them; after the body at point `t` each
    input's buffer at its block and each output's at what the body stored, computed from the input blocks; the
    class-A invariant (the scoped rest and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => out0_8 (iblk0 V c 0 t) (iblk0 V c 1 t) (iblk0 V c 2 t) (iblk0 V c 3 t) (iblk0 V c 4 t) (iblk0 V c 5 t)
    | ⟨9, _⟩ => out0_9 (iblk0 V c 0 t) (iblk0 V c 1 t) (iblk0 V c 2 t) (iblk0 V c 3 t) (iblk0 V c 4 t) (iblk0 V c 5 t)
    | ⟨10, _⟩ => out0_10 (iblk0 V c 0 t) (iblk0 V c 1 t) (iblk0 V c 2 t) (iblk0 V c 3 t) (iblk0 V c 4 t) (iblk0 V c 5 t) (iblk0 V c 6 t) (iblk0 V c 7 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = out0_8 (iblk0 V c 0 t) (iblk0 V c 1 t) (iblk0 V c 2 t) (iblk0 V c 3 t) (iblk0 V c 4 t) (iblk0 V c 5 t) := by dsimp only [dat0]
theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) := by dsimp only [dat0]
theorem after0_10 (c : Dev nD) (t : Fin cfg0.N) : (dat0 V c).after 10 t = out0_10 (iblk0 V c 0 t) (iblk0 V c 1 t) (iblk0 V c 2 t) (iblk0 V c 3 t) (iblk0 V c 4 t) (iblk0 V c 5 t) (iblk0 V c 6 t) (iblk0 V c 7 t) := by dsimp only [dat0]

end Cert.KernelIdeal.Fr

end
-- ==== Proof.FrKI.Defs1.lean ====
import proofs.«167787_j30270929502695_2_alg».proof.Proof.Gen.KernelIdeal.Launch
import proofs.«167787_j30270929502695_2_alg».proof.Proof.Gen.KernelIdeal.Skeleton
import proofs.«167787_j30270929502695_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1 (the highway kernel), entered with the buffers at `V`: definitions -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The rectangles the body loads and stores through: every one a whole staging buffer -/

abbrev sX : Rect S512x512 := Rect.unit (s := S512x512) ![0, 0] S512x512.size inb_S512x512_S512x512_0_0
abbrev sB : Rect S512x1024 := Rect.unit (s := S512x1024) ![0, 0] S512x1024.size inb_S512x1024_S512x1024_0_0
abbrev sL : Rect S512x1 := Rect.unit (s := S512x1) ![0, 0] S512x1.size inb_S512x1_S512x1_0_0
abbrev sR : Rect S1x1024 := Rect.unit (s := S1x1024) ![0, 0] S1x1024.size inb_S1x1024_S1x1024_0_0

/-! ## What the body leaves in the output window's staging buffer, from the input windows' blocks -/

/-- The mixed hidden-state output: one whole-buffer store. -/
def out1_7 (x0 : Vec F S512x512 .f32) (x1 : Vec F S512x1024 .bf16) (x2 : Vec F S512x1 .f32) (x3 : Vec F S512x1024 .bf16) (x4 : Vec F S1x1024 .f32) (x5 : Vec F S512x1024 .bf16) (x6 : Vec F S1x1024 .f32) : Vec F S512x1024 .f32 :=
  View.canon [⟨sB, k1_pay1 (View.ld x0 sX) (View.ld x1 sB) (View.ld x2 sL) (View.ld x3 sB) (View.ld x4 sR) (View.ld x5 sB) (View.ld x6 sR)⟩]

/-- Its one store is the whole buffer, so it covers it. -/
theorem cover1_7 (p0 : Vec F S512x1024 .f32) (y : S512x1024.Idx) :
    ∃ pc ∈ ([⟨sB, p0⟩] : List (View.Piece (Elt F) S512x1024 .f32)), y ∈ pc.1.set :=
  View.cover_of_tiled [⟨sB, p0⟩] S512x1024.size (by rfl) y

/-! ## The pipeline's proof data -/

/-- The proof data of pipeline 1 on core `c`: the arrays as the region finds them; after the body at point `t` each
    input's buffer at its block and the output's at what the body stored, computed from the input blocks; the
    class-A invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

end Cert.KernelIdeal.Fr

end
-- ==== Proof.FrKI.RunDefs.lean ====
import proofs.«167787_j30270929502695_2_alg».proof.Proof.Gen.KernelIdeal.Launch
import proofs.«167787_j30270929502695_2_alg».proof.Proof.Gen.KernelIdeal.Skeleton
import proofs.«167787_j30270929502695_2_alg».proof.Proof.Gen.KernelIdeal.Points
import proofs.«167787_j30270929502695_2_alg».proof.Proof.FrKI.Defs0
import proofs.«167787_j30270929502695_2_alg».proof.Proof.FrKI.Defs1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffers' contents at each boundary of @main: the launch memory, then each stretch of host operations applied,
    then each region's arrays at what its write-backs leave -/

/-- Core `c`'s buffers at launch. -/
abbrev W0 : Dev nD → Valuation τ sig (Elt F) := fun c b => (s₀ m ρ).mem ((c : Dev nD), b)
/-- After the first stretch of host operations (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs folded),
    every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch of host operations (region 1's entry). -/
abbrev W3 : Dev nD → Valuation τ sig (Elt F) := fun c => StableHlo.after hostOps1 (W2 m ρ c)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- A buffer no operation of the first host stretch writes keeps its launch contents through it. -/
theorem W1_of_not_written (c : Dev nD) (b : Ref sig .tc)
    (h : ∀ op ∈ (hostOps0 : List (HloOp τ sig (Elt F))), Proc.devRef .tc b ∉ op.writes) :
    W1 m ρ c (Proc.devRef .tc b) = W0 m ρ c (Proc.devRef .tc b) :=
  StableHlo.after_of_forall_not_mem (b := Proc.devRef .tc b) _ _ h
/-- A buffer no operation of the second host stretch writes keeps through it what region 0 left. -/
theorem W3_of_not_written (c : Dev nD) (b : Ref sig .tc)
    (h : ∀ op ∈ (hostOps1 : List (HloOp τ sig (Elt F))), Proc.devRef .tc b ∉ op.writes) :
    W3 m ρ c (Proc.devRef .tc b) = W2 m ρ c (Proc.devRef .tc b) :=
  StableHlo.after_of_forall_not_mem (b := Proc.devRef .tc b) _ _ h

/-! ## The proof data family -/

/-- The prefetched tables' admissible contents: no pipeline has a table. -/
abbrev adm : (p : Fin 2) → (pcfgs (F := F) p).Adm := fun p => (cfgs p).toPCfg_adm
/-- Every pipeline's proof data, each at its region's entry contents: a literal match on the pipeline. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c

end Cert.KernelIdeal.Fr

end
-- ==== Proof.FrKI.Body0.lean ====
import proofs.«167787_j30270929502695_2_alg».proof.Proof.Gen.KernelIdeal.Launch
import proofs.«167787_j30270929502695_2_alg».proof.Proof.Gen.KernelIdeal.Skeleton
import proofs.«167787_j30270929502695_2_alg».proof.Proof.Gen.KernelIdeal.Points
import proofs.«167787_j30270929502695_2_alg».proof.Proof.FrKI.Defs0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0 (the cell kernel): the body's run and the body obligation -/

/-! ## Each input window's current staging buffer holds its block at every point, fetched there or not -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_0 (c : Dev nD) (t : Fin cfg0.N) (d) : (dat0 V c).before 0 t d = iblk0 V c 0 t :=
  before0_0_of V (dat0 V c) (A_eq0 V c 0) (after0_0 V c) t d

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_1 (c : Dev nD) (t : Fin cfg0.N) (d) : (dat0 V c).before 1 t d = iblk0 V c 1 t :=
  before0_1_of V (dat0 V c) (A_eq0 V c 1) (after0_1 V c) t d

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_2 (c : Dev nD) (t : Fin cfg0.N) (d) : (dat0 V c).before 2 t d = iblk0 V c 2 t :=
  before0_2_of V (dat0 V c) (A_eq0 V c 2) (after0_2 V c) t d

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_3 (c : Dev nD) (t : Fin cfg0.N) (d) : (dat0 V c).before 3 t d = iblk0 V c 3 t :=
  before0_3_of V (dat0 V c) (A_eq0 V c 3) (after0_3 V c) t d

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_4 (c : Dev nD) (t : Fin cfg0.N) (d) : (dat0 V c).before 4 t d = iblk0 V c 4 t :=
  before0_4_of V (dat0 V c) (A_eq0 V c 4) (after0_4 V c) t d

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_5 (c : Dev nD) (t : Fin cfg0.N) (d) : (dat0 V c).before 5 t d = iblk0 V c 5 t :=
  before0_5_of V (dat0 V c) (A_eq0 V c 5) (after0_5 V c) t d

theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_6 (c : Dev nD) (t : Fin cfg0.N) (d) : (dat0 V c).before 6 t d = iblk0 V c 6 t :=
  before0_6_of V (dat0 V c) (A_eq0 V c 6) (after0_6 V c) t d

theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_7 (c : Dev nD) (t : Fin cfg0.N) (d) : (dat0 V c).before 7 t d = iblk0 V c 7 t :=
  before0_7_of V (dat0 V c) (A_eq0 V c 7) (after0_7 V c) t d

/-! ## The body's triple -/

set_option maxHeartbeats 4000000 in
/-- The kernel body on whole staging memrefs, the inputs' at read contents and the outputs' at anything, runs to the
    continuation holding the inputs' as they were and each output's at what its one store wrote, as computed from the
    inputs' contents. -/
theorem sound_kernel0 (c : Dev nD) (E : Set ℕ) (i : grid0.Coords) (arg1 : Memref sig .tc .vmem S512x512 .f32) (harg1 : arg1.IsWhole) (arg2 : Memref sig .tc .vmem S512x1024 .f32) (harg2 : arg2.IsWhole) (arg3 : Memref sig .tc .vmem S512x1024 .f32) (harg3 : arg3.IsWhole) (arg4 : Memref sig .tc .vmem S512x4096 .bf16) (harg4 : arg4.IsWhole) (arg5 : Memref sig .tc .vmem S1024x4096 .bf16) (harg5 : arg5.IsWhole) (arg6 : Memref sig .tc .vmem S1x4096 .f32) (harg6 : arg6.IsWhole) (arg7 : Memref sig .tc .vmem S1x1024 .f32) (harg7 : arg7.IsWhole) (arg8 : Memref sig .tc .vmem S1x1 .f32) (harg8 : arg8.IsWhole) (arg9 : Memref sig .tc .vmem S512x1024 .bf16) (harg9 : arg9.IsWhole) (arg10 : Memref sig .tc .vmem S512x1024 .f32) (harg10 : arg10.IsWhole) (arg11 : Memref sig .tc .vmem S512x1 .f32) (harg11 : arg11.IsWhole)
    (x0 : Vec F S512x512 .f32) (x1 : Vec F S512x1024 .f32) (x2 : Vec F S512x1024 .f32) (x3 : Vec F S512x4096 .bf16) (x4 : Vec F S1024x4096 .bf16) (x5 : Vec F S1x4096 .f32) (x6 : Vec F S1x1024 .f32) (x7 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out0_8 x0 x1 x2 x3 x4 x5) ∗ owns (c : Thread nD τ) arg10 fullShare (out0_9 x0 x1 x2 x3 x4 x5) ∗ owns (c : Thread nD τ) arg11 fullShare (out0_10 x0 x1 x2 x3 x4 x5 x6 x7)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8 arg9 harg9 arg10 harg10 arg11 harg11) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover0_8 _)
  isplitl [H9]
  · iexists _; isplitr
    swap; · iexact H9
    ipureintro
    exact View.read_writes_eq_canon _ _ _ (cover0_9 _)
  iexists _; isplitr
  swap; · iexact H10
  ipureintro
  exact View.read_writes_eq_canon _ _ _ (cover0_10 _)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t))

set_option maxHeartbeats 4000000 in
/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel0 c Set.univ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.FrKI.Body1.lean ====
import proofs.«167787_j30270929502695_2_alg».proof.Proof.Gen.KernelIdeal.Launch
import proofs.«167787_j30270929502695_2_alg».proof.Proof.Gen.KernelIdeal.Skeleton
import proofs.«167787_j30270929502695_2_alg».proof.Proof.Gen.KernelIdeal.Points
import proofs.«167787_j30270929502695_2_alg».proof.Proof.FrKI.Defs1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1 (the highway kernel): the body's run and the body obligation -/

/-! ## Each input window's current staging buffer holds its block at every point, fetched there or not -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_0 (c : Dev nD) (t : Fin cfg1.N) (d) : (dat1 V c).before 0 t d = iblk1 V c 0 t :=
  before1_0_of V (dat1 V c) (A_eq1 V c 0) (after1_0 V c) t d

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_1 (c : Dev nD) (t : Fin cfg1.N) (d) : (dat1 V c).before 1 t d = iblk1 V c 1 t :=
  before1_1_of V (dat1 V c) (A_eq1 V c 1) (after1_1 V c) t d

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_2 (c : Dev nD) (t : Fin cfg1.N) (d) : (dat1 V c).before 2 t d = iblk1 V c 2 t :=
  before1_2_of V (dat1 V c) (A_eq1 V c 2) (after1_2 V c) t d

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_3 (c : Dev nD) (t : Fin cfg1.N) (d) : (dat1 V c).before 3 t d = iblk1 V c 3 t :=
  before1_3_of V (dat1 V c) (A_eq1 V c 3) (after1_3 V c) t d

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_4 (c : Dev nD) (t : Fin cfg1.N) (d) : (dat1 V c).before 4 t d = iblk1 V c 4 t :=
  before1_4_of V (dat1 V c) (A_eq1 V c 4) (after1_4 V c) t d

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_5 (c : Dev nD) (t : Fin cfg1.N) (d) : (dat1 V c).before 5 t d = iblk1 V c 5 t :=
  before1_5_of V (dat1 V c) (A_eq1 V c 5) (after1_5 V c) t d

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_6 (c : Dev nD) (t : Fin cfg1.N) (d) : (dat1 V c).before 6 t d = iblk1 V c 6 t :=
  before1_6_of V (dat1 V c) (A_eq1 V c 6) (after1_6 V c) t d

/-! ## The body's triple -/

set_option maxHeartbeats 4000000 in
/-- The kernel body on whole staging memrefs, the inputs' at read contents and the outputs' at anything, runs to the
    continuation holding the inputs' as they were and each output's at what its one store wrote, as computed from the
    inputs' contents. -/
theorem sound_kernel1 (c : Dev nD) (E : Set ℕ) (i : grid1.Coords) (arg1 : Memref sig .tc .vmem S512x512 .f32) (harg1 : arg1.IsWhole) (arg2 : Memref sig .tc .vmem S512x1024 .bf16) (harg2 : arg2.IsWhole) (arg3 : Memref sig .tc .vmem S512x1 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S512x1024 .f32) (harg8 : arg8.IsWhole)
    (x0 : Vec F S512x512 .f32) (x1 : Vec F S512x1024 .bf16) (x2 : Vec F S512x1 .f32) (x3 : Vec F S512x1024 .bf16) (x4 : Vec F S1x1024 .f32) (x5 : Vec F S512x1024 .bf16) (x6 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out1_7 x0 x1 x2 x3 x4 x5 x6)) -∗ K ⟨⟩))
      ⊢ wp frame (wpE (defs₀ (F := F)) Variants.none c none) E (cc1__highway_kernel i arg1 harg1 arg2 harg2 arg3 harg3 arg4 harg4 arg5 harg5 arg6 harg6 arg7 harg7 arg8 harg8) K := by
  simp only [cc1__highway_kernel_eq_skeleton]; unfold cc1__highway_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

set_option maxHeartbeats 4000000 in
/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.FrKI.Run.lean ====
import proofs.«167787_j30270929502695_2_alg».proof.Proof.Gen.KernelIdeal.Launch
import proofs.«167787_j30270929502695_2_alg».proof.Proof.Gen.KernelIdeal.Skeleton
import proofs.«167787_j30270929502695_2_alg».proof.Proof.Gen.KernelIdeal.Points
import proofs.«167787_j30270929502695_2_alg».proof.Proof.FrKI.RunDefs
import proofs.«167787_j30270929502695_2_alg».proof.Proof.FrKI.Body0
import proofs.«167787_j30270929502695_2_alg».proof.Proof.FrKI.Body1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run: @main as four segments (host operations, region 0, host operations, region 1) from the launch to the
    return -/

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at
    nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register
    at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered from every unscoped buffer at `W1`, left at `W2`. Its arrays are split
    out of the unscoped buffers and put back at the exit contents; the generator register goes into the class invariant
    and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split
    out of the unscoped buffers and put back at the exit contents; the generator register goes into the class invariant
    and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's four segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- @main is the run of the segments. -/
theorem main_run (c : Dev nD) : main (F := F) c = Pipeline.Seg.run (segs m ρ) := (main_chain c).trans (by chain_rfl)

set_option backward.isDefEq.respectTransparency.types false in
/-- THE RUN. From any memory with zero counters, every weakly fair execution of @main on the TensorCores terminates,
    nothing faulting, and in every final state every unscoped buffer of core `c` holds the last boundary's contents
    `W4 m ρ c`. The frame and the results are read off it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end Cert.KernelIdeal.Fr

end
-- ==== Proof.FrKI.Args.lean ====
import proofs.«167787_j30270929502695_2_alg».proof.Proof.Gen.KernelIdeal.Launch
import proofs.«167787_j30270929502695_2_alg».proof.Proof.Gen.KernelIdeal.Skeleton
import proofs.«167787_j30270929502695_2_alg».proof.Proof.Gen.KernelIdeal.Points
import proofs.«167787_j30270929502695_2_alg».proof.Proof.FrKI.RunDefs
import proofs.«167787_j30270929502695_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The arguments end as launched: no host operation writes one, and a region only reads one through an input window
    (whose array the pipeline leaves as it found it) or does not touch it; so the last boundary's contents at an
    argument's buffer walk back to the launch memory -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := (W4_arr m ρ c 0).trans (((dat1 (V3 m ρ) c).arrAt_in 0 rfl _).trans (A_eq1 (V3 m ρ) c 0))
    _ = W2 m ρ c (Proc.devRef .tc main_arg0) := StableHlo.after_of_writes_sub hostOps1 _ Gen.hostOps1_writes (by decide : main_arg0 ∉ Gen.hostOps1_W)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ Gen.hostOps0_writes (by decide : main_arg0 ∉ Gen.hostOps0_W)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ Gen.hostOps1_writes (by decide : main_arg1 ∉ Gen.hostOps1_W)
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := StableHlo.after_of_writes_sub hostOps0 _ Gen.hostOps0_writes (by decide : main_arg1 ∉ Gen.hostOps0_W)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ Gen.hostOps1_writes (by decide : main_arg2 ∉ Gen.hostOps1_W)
    _ = W1 m ρ c (Proc.devRef .tc main_arg2) := (W2_arr m ρ c 2).trans (((dat0 (V1 m ρ) c).arrAt_in 2 rfl _).trans (A_eq0 (V1 m ρ) c 2))
    _ = W0 m ρ c (Proc.devRef .tc main_arg2) := StableHlo.after_of_writes_sub hostOps0 _ Gen.hostOps0_writes (by decide : main_arg2 ∉ Gen.hostOps0_W)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ Gen.hostOps1_writes (by decide : main_arg3 ∉ Gen.hostOps1_W)
    _ = W1 m ρ c (Proc.devRef .tc main_arg3) := W2_of_ne m ρ c main_arg3 (by decide)
    _ = W0 m ρ c (Proc.devRef .tc main_arg3) := StableHlo.after_of_writes_sub hostOps0 _ Gen.hostOps0_writes (by decide : main_arg3 ∉ Gen.hostOps0_W)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ Gen.hostOps1_writes (by decide : main_arg4 ∉ Gen.hostOps1_W)
    _ = W1 m ρ c (Proc.devRef .tc main_arg4) := W2_of_ne m ρ c main_arg4 (by decide)
    _ = W0 m ρ c (Proc.devRef .tc main_arg4) := StableHlo.after_of_writes_sub hostOps0 _ Gen.hostOps0_writes (by decide : main_arg4 ∉ Gen.hostOps0_W)
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_writes_sub hostOps1 _ Gen.hostOps1_writes (by decide : main_arg5 ∉ Gen.hostOps1_W)
    _ = W1 m ρ c (Proc.devRef .tc main_arg5) := W2_of_ne m ρ c main_arg5 (by decide)
    _ = W0 m ρ c (Proc.devRef .tc main_arg5) := StableHlo.after_of_writes_sub hostOps0 _ Gen.hostOps0_writes (by decide : main_arg5 ∉ Gen.hostOps0_W)
    _ = m ((c : Thread nD τ).loc main_arg5) := rfl
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_writes_sub hostOps1 _ Gen.hostOps1_writes (by decide : main_arg6 ∉ Gen.hostOps1_W)
    _ = W1 m ρ c (Proc.devRef .tc main_arg6) := W2_of_ne m ρ c main_arg6 (by decide)
    _ = W0 m ρ c (Proc.devRef .tc main_arg6) := StableHlo.after_of_writes_sub hostOps0 _ Gen.hostOps0_writes (by decide : main_arg6 ∉ Gen.hostOps0_W)
    _ = m ((c : Thread nD τ).loc main_arg6) := rfl
theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_writes_sub hostOps1 _ Gen.hostOps1_writes (by decide : main_arg7 ∉ Gen.hostOps1_W)
    _ = W1 m ρ c (Proc.devRef .tc main_arg7) := W2_of_ne m ρ c main_arg7 (by decide)
    _ = W0 m ρ c (Proc.devRef .tc main_arg7) := StableHlo.after_of_writes_sub hostOps0 _ Gen.hostOps0_writes (by decide : main_arg7 ∉ Gen.hostOps0_W)
    _ = m ((c : Thread nD τ).loc main_arg7) := rfl
theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := StableHlo.after_of_writes_sub hostOps1 _ Gen.hostOps1_writes (by decide : main_arg8 ∉ Gen.hostOps1_W)
    _ = W1 m ρ c (Proc.devRef .tc main_arg8) := W2_of_ne m ρ c main_arg8 (by decide)
    _ = W0 m ρ c (Proc.devRef .tc main_arg8) := StableHlo.after_of_writes_sub hostOps0 _ Gen.hostOps0_writes (by decide : main_arg8 ∉ Gen.hostOps0_W)
    _ = m ((c : Thread nD τ).loc main_arg8) := rfl
theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := StableHlo.after_of_writes_sub hostOps1 _ Gen.hostOps1_writes (by decide : main_arg9 ∉ Gen.hostOps1_W)
    _ = W1 m ρ c (Proc.devRef .tc main_arg9) := W2_of_ne m ρ c main_arg9 (by decide)
    _ = W0 m ρ c (Proc.devRef .tc main_arg9) := StableHlo.after_of_writes_sub hostOps0 _ Gen.hostOps0_writes (by decide : main_arg9 ∉ Gen.hostOps0_W)
    _ = m ((c : Thread nD τ).loc main_arg9) := rfl
theorem W4_main_arg10 (c : Dev nD) : W4 m ρ c (Proc.devRef .tc main_arg10) = m ((c : Thread nD τ).loc main_arg10) :=
  calc W4 m ρ c (Proc.devRef .tc main_arg10)
    _ = W3 m ρ c (Proc.devRef .tc main_arg10) := W4_of_ne m ρ c main_arg10 (by decide)
    _ = W2 m ρ c (Proc.devRef .tc main_arg10) := StableHlo.after_of_writes_sub hostOps1 _ Gen.hostOps1_writes (by decide : main_arg10 ∉ Gen.hostOps1_W)
    _ = W1 m ρ c (Proc.devRef .tc main_arg10) := W2_of_ne m ρ c main_arg10 (by decide)
    _ = W0 m ρ c (Proc.devRef .tc main_arg10) := StableHlo.after_of_writes_sub hostOps0 _ Gen.hostOps0_writes (by decide : main_arg10 ∉ Gen.hostOps0_W)
    _ = m ((c : Thread nD τ).loc main_arg10) := rfl
theorem W4_main_arg11 (c : Dev nD) : W4 m ρ c (Proc.devRef .tc main_arg11) = m ((c : Thread nD τ).loc main_arg11) :=
  calc W4 m ρ c (Proc.devRef .tc main_arg11)
    _ = W3 m ρ c (Proc.devRef .tc main_arg11) := W4_of_ne m ρ c main_arg11 (by decide)
    _ = W2 m ρ c (Proc.devRef .tc main_arg11) := StableHlo.after_of_writes_sub hostOps1 _ Gen.hostOps1_writes (by decide : main_arg11 ∉ Gen.hostOps1_W)
    _ = W1 m ρ c (Proc.devRef .tc main_arg11) := (W2_arr m ρ c 6).trans (((dat0 (V1 m ρ) c).arrAt_in 6 rfl _).trans (A_eq0 (V1 m ρ) c 6))
    _ = W0 m ρ c (Proc.devRef .tc main_arg11) := StableHlo.after_of_writes_sub hostOps0 _ Gen.hostOps0_writes (by decide : main_arg11 ∉ Gen.hostOps0_W)
    _ = m ((c : Thread nD τ).loc main_arg11) := rfl
theorem W4_main_arg12 (c : Dev nD) : W4 m ρ c (Proc.devRef .tc main_arg12) = m ((c : Thread nD τ).loc main_arg12) :=
  calc W4 m ρ c (Proc.devRef .tc main_arg12)
    _ = W3 m ρ c (Proc.devRef .tc main_arg12) := W4_of_ne m ρ c main_arg12 (by decide)
    _ = W2 m ρ c (Proc.devRef .tc main_arg12) := StableHlo.after_of_writes_sub hostOps1 _ Gen.hostOps1_writes (by decide : main_arg12 ∉ Gen.hostOps1_W)
    _ = W1 m ρ c (Proc.devRef .tc main_arg12) := W2_of_ne m ρ c main_arg12 (by decide)
    _ = W0 m ρ c (Proc.devRef .tc main_arg12) := StableHlo.after_of_writes_sub hostOps0 _ Gen.hostOps0_writes (by decide : main_arg12 ∉ Gen.hostOps0_W)
    _ = m ((c : Thread nD τ).loc main_arg12) := rfl
theorem W4_main_arg13 (c : Dev nD) : W4 m ρ c (Proc.devRef .tc main_arg13) = m ((c : Thread nD τ).loc main_arg13) :=
  calc W4 m ρ c (Proc.devRef .tc main_arg13)
    _ = W3 m ρ c (Proc.devRef .tc main_arg13) := W4_of_ne m ρ c main_arg13 (by decide)
    _ = W2 m ρ c (Proc.devRef .tc main_arg13) := StableHlo.after_of_writes_sub hostOps1 _ Gen.hostOps1_writes (by decide : main_arg13 ∉ Gen.hostOps1_W)
    _ = W1 m ρ c (Proc.devRef .tc main_arg13) := W2_of_ne m ρ c main_arg13 (by decide)
    _ = W0 m ρ c (Proc.devRef .tc main_arg13) := StableHlo.after_of_writes_sub hostOps0 _ Gen.hostOps0_writes (by decide : main_arg13 ∉ Gen.hostOps0_W)
    _ = m ((c : Thread nD τ).loc main_arg13) := rfl
theorem W4_main_arg14 (c : Dev nD) : W4 m ρ c (Proc.devRef .tc main_arg14) = m ((c : Thread nD τ).loc main_arg14) :=
  calc W4 m ρ c (Proc.devRef .tc main_arg14)
    _ = W3 m ρ c (Proc.devRef .tc main_arg14) := W4_of_ne m ρ c main_arg14 (by decide)
    _ = W2 m ρ c (Proc.devRef .tc main_arg14) := StableHlo.after_of_writes_sub hostOps1 _ Gen.hostOps1_writes (by decide : main_arg14 ∉ Gen.hostOps1_W)
    _ = W1 m ρ c (Proc.devRef .tc main_arg14) := W2_of_ne m ρ c main_arg14 (by decide)
    _ = W0 m ρ c (Proc.devRef .tc main_arg14) := StableHlo.after_of_writes_sub hostOps0 _ Gen.hostOps0_writes (by decide : main_arg14 ∉ Gen.hostOps0_W)
    _ = m ((c : Thread nD τ).loc main_arg14) := rfl
theorem W4_main_arg15 (c : Dev nD) : W4 m ρ c (Proc.devRef .tc main_arg15) = m ((c : Thread nD τ).loc main_arg15) :=
  calc W4 m ρ c (Proc.devRef .tc main_arg15)
    _ = W3 m ρ c (Proc.devRef .tc main_arg15) := W4_of_ne m ρ c main_arg15 (by decide)
    _ = W2 m ρ c (Proc.devRef .tc main_arg15) := StableHlo.after_of_writes_sub hostOps1 _ Gen.hostOps1_writes (by decide : main_arg15 ∉ Gen.hostOps1_W)
    _ = W1 m ρ c (Proc.devRef .tc main_arg15) := W2_of_ne m ρ c main_arg15 (by decide)
    _ = W0 m ρ c (Proc.devRef .tc main_arg15) := StableHlo.after_of_writes_sub hostOps0 _ Gen.hostOps0_writes (by decide : main_arg15 ∉ Gen.hostOps0_W)
    _ = m ((c : Thread nD τ).loc main_arg15) := rfl
theorem W4_main_arg16 (c : Dev nD) : W4 m ρ c (Proc.devRef .tc main_arg16) = m ((c : Thread nD τ).loc main_arg16) :=
  calc W4 m ρ c (Proc.devRef .tc main_arg16)
    _ = W3 m ρ c (Proc.devRef .tc main_arg16) := W4_of_ne m ρ c main_arg16 (by decide)
    _ = W2 m ρ c (Proc.devRef .tc main_arg16) := StableHlo.after_of_writes_sub hostOps1 _ Gen.hostOps1_writes (by decide : main_arg16 ∉ Gen.hostOps1_W)
    _ = W1 m ρ c (Proc.devRef .tc main_arg16) := W2_of_ne m ρ c main_arg16 (by decide)
    _ = W0 m ρ c (Proc.devRef .tc main_arg16) := StableHlo.after_of_writes_sub hostOps0 _ Gen.hostOps0_writes (by decide : main_arg16 ∉ Gen.hostOps0_W)
    _ = m ((c : Thread nD τ).loc main_arg16) := rfl

end Cert.KernelIdeal.Fr

end
-- ==== Proof.FrKI.Frame.lean ====
import proofs.«167787_j30270929502695_2_alg».proof.Proof.Gen.KernelIdeal.Launch
import proofs.«167787_j30270929502695_2_alg».proof.Proof.Gen.KernelIdeal.Skeleton
import proofs.«167787_j30270929502695_2_alg».proof.Proof.Gen.KernelIdeal.Points
import proofs.«167787_j30270929502695_2_alg».proof.Proof.FrKI.Run
import proofs.«167787_j30270929502695_2_alg».proof.Proof.FrKI.Args
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The frame: every argument array ends holding its launch contents -/

/-- From any memory with zero counters every weakly fair execution of @main terminates, nothing faulting, and every final
    state has the argument arrays as launched: the run's last boundary read at each argument's buffer. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run (defs (F := F)) _ _).mono (fun r h c =>
    ⟨(h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c),
      (h c _ (mem_uc main_arg7 (by decide))).trans (W4_main_arg7 m ρ c),
      (h c _ (mem_uc main_arg8 (by decide))).trans (W4_main_arg8 m ρ c),
      (h c _ (mem_uc main_arg9 (by decide))).trans (W4_main_arg9 m ρ c),
      (h c _ (mem_uc main_arg10 (by decide))).trans (W4_main_arg10 m ρ c),
      (h c _ (mem_uc main_arg11 (by decide))).trans (W4_main_arg11 m ρ c),
      (h c _ (mem_uc main_arg12 (by decide))).trans (W4_main_arg12 m ρ c),
      (h c _ (mem_uc main_arg13 (by decide))).trans (W4_main_arg13 m ρ c),
      (h c _ (mem_uc main_arg14 (by decide))).trans (W4_main_arg14 m ρ c),
      (h c _ (mem_uc main_arg15 (by decide))).trans (W4_main_arg15 m ρ c),
      (h c _ (mem_uc main_arg16 (by decide))).trans (W4_main_arg16 m ρ c)⟩) (run_all m ρ)

end Cert.KernelIdeal.Fr

end
-- ==== Proof.Spec.lean ====
/-
  The cell's arithmetic on the extended reals, one entry at a time. Both programs compute, for a batch row and a hidden
  unit, the four gate pre-activations (a row of the input against a row of the stacked input weights, plus a row of the
  previous hidden state against a row of the stacked recurrent weights, plus the bias), the new cell value
  `σ(f)·c + σ(i)·tanh(g)`, the hidden value `σ(o)·tanh(c')`, the attention logit of a row (the hidden row against the
  attention weights, plus its bias) and, given the row's softmax weight, the highway mix
  `σ(u)·t + (1 − σ(u))·(h·a)` of the transformed input `t` with the scaled hidden value. Nothing here mentions a
  program: the two sides are each read at an index as these functions of rows of their arguments.
-/
import Idealize.ShloMosaic.PureOps.Ideal

noncomputable section

open scoped BigOperators

namespace Cert.Spec

open Idealize.ShloMosaic

/-- A gate's pre-activation: the input row against an input-weight row, plus the hidden row against a recurrent-weight
    row, plus the bias (in that grouping). -/
def gateF (xr : Fin 512 → EReal) (hr : Fin 1024 → EReal) (wx : Fin 512 → EReal) (wh : Fin 1024 → EReal) (b : EReal) : EReal :=
  ((∑ k, xr k * wx k) + ∑ k, hr k * wh k) + b

/-- The new cell value from the input, forget and candidate pre-activations and the previous cell value. -/
def cellF (zi zf zg cp : EReal) : EReal := Ideal.logistic zf * cp + Ideal.logistic zi * Ideal.tanh zg

/-- The hidden value from the output pre-activation and the new cell value. -/
def hidF (zo cn : EReal) : EReal := Ideal.logistic zo * Ideal.tanh cn

/-- A row's attention logit: the hidden row against the attention weights, plus the bias. -/
def logitF (h : Fin 1024 → EReal) (wa : Fin 1024 → EReal) (ba : EReal) : EReal := (∑ q, h q * wa q) + ba

/-- The highway mix of an entry: the gate `σ(x·w_g + b_g)`, the transform `x·w_t + b_t`, and the scaled hidden value `hs`. -/
def mixF (xr : Fin 512 → EReal) (wt wg : Fin 512 → EReal) (bt bg hs : EReal) : EReal :=
  Ideal.logistic ((∑ k, xr k * wg k) + bg) * ((∑ k, xr k * wt k) + bt)
    + (1 - Ideal.logistic ((∑ k, xr k * wg k) + bg)) * hs

end Cert.Spec

end
-- ==== Proof.SpecArr.lean ====
/-
  The two results as whole arrays of the argument arrays, entry by entry, on the extended reals: the new cell state
  `cellArr`, the hidden state `hidArr` (before the attention scaling), the column of attention logits `logitArr`, and —
  given a column `attn` of attention weights, one per batch row — the highway output `outArr`. The stacked gate weights
  `Wc` (4096 rows: gate `g`'s unit `q` is row `1024·g + q`; columns 0…511 meet the input, 512…1535 the previous
  hidden state) and the stacked bias `bc` are taken as given arrays: both programs build them by the same concatenation.
-/
import proofs.«167787_j30270929502695_2_alg».proof.Proof.Spec
import Idealize.ShloMosaic.Lib.ValueIdx

noncomputable section

open scoped BigOperators

namespace Cert.Spec

open Idealize.ShloMosaic Idealize.ShloMosaic.ValueIdx

/-- An `a × b` array of extended reals. -/
abbrev Mat (a b : ℕ) : Type := (⟨2, ![a, b]⟩ : Shape).Idx → EReal
/-- A length-`a` vector of extended reals. -/
abbrev Vc (a : ℕ) : Type := (⟨1, ![a]⟩ : Shape).Idx → EReal

/-- Row `1024·g + q` of the stacked arrays: gate `g`'s unit `q`. -/
def grow (g : Fin 4) (q : Fin 1024) : Fin 4096 := ⟨1024 * g.val + q.val, by have := g.isLt; have := q.isLt; omega⟩
/-- Column `k` of the stacked weights, for `k` below 512: the part that meets the input. -/
def colX (k : Fin 512) : Fin 1536 := ⟨k.val, by have := k.isLt; omega⟩
/-- Column `512 + k` of the stacked weights: the part that meets the previous hidden state. -/
def colH (k : Fin 1024) : Fin 1536 := ⟨512 + k.val, by have := k.isLt; omega⟩

section
variable (x : Mat 16384 512) (hp cp : Mat 16384 1024) (Wc : Mat 4096 1536) (bc : Vc 4096)

/-- Gate `g`'s pre-activation at batch row `i`, unit `q`. -/
def zA (g : Fin 4) (i : Fin 16384) (q : Fin 1024) : EReal :=
  gateF (fun k => x (ix2 i k)) (fun k => hp (ix2 i k)) (fun k => Wc (ix2 (grow g q) (colX k)))
    (fun k => Wc (ix2 (grow g q) (colH k))) (bc (ix1 (grow g q)))
/-- The new cell value at `(i, q)`: gates 0, 1, 3 are the input, forget and candidate gates. -/
def cA (i : Fin 16384) (q : Fin 1024) : EReal :=
  cellF (zA x hp Wc bc 0 i q) (zA x hp Wc bc 1 i q) (zA x hp Wc bc 3 i q) (cp (ix2 i q))
/-- The hidden value at `(i, q)`: gate 2 is the output gate. -/
def hA (i : Fin 16384) (q : Fin 1024) : EReal := hidF (zA x hp Wc bc 2 i q) (cA x hp cp Wc bc i q)

/-- The new cell state. -/
def cellArr : Mat 16384 1024 := fun j => cA x hp cp Wc bc (j 0) (j 1)
/-- The hidden state before the attention scaling. -/
def hidArr : Mat 16384 1024 := fun j => hA x hp cp Wc bc (j 0) (j 1)

variable (Wa : Mat 1 1024) (ba : Vc 1)
/-- The column of attention logits. -/
def logitArr : Mat 16384 1 :=
  fun j => logitF (fun q => hA x hp cp Wc bc (j 0) q) (fun q => Wa (ix2 (0 : Fin 1) q)) (ba (ix1 (0 : Fin 1)))

variable (Wt : Mat 1024 512) (bt : Vc 1024) (Wg : Mat 1024 512) (bg : Vc 1024) (attn : Mat 16384 1)
/-- The highway output, given the attention weights `attn` (one per batch row). -/
def outArr : Mat 16384 1024 :=
  fun j => mixF (fun k => x (ix2 (j 0) k)) (fun k => Wt (ix2 (j 1) k)) (fun k => Wg (ix2 (j 1) k)) (bt (ix1 (j 1))) (bg (ix1 (j 1)))
    (hA x hp cp Wc bc (j 0) (j 1) * attn (ix2 (j 0) (0 : Fin 1)))
end

end Cert.Spec

end
-- ==== Proof.Shared.lean ====
/-
  Three host terms both programs build in the same way from the same arguments, named once so that neither side ever
  opens them: the four gate weight matrices stacked along the rows, the four gate biases stacked, and the softmax of a
  column of logits over the batch (the maximum over the column joined with −∞, the exponentials of the differences, their
  sum from 0, the quotient).
-/
import proofs.«167787_j30270929502695_2_alg».proof.Proof.Gen.KernelIdeal
import Idealize.ShloMosaic.PureOps.Ideal

noncomputable section

namespace Cert.Shared

open Cert.KernelIdeal Cert.KernelIdeal.Gen Idealize.ShloMosaic

/-- The stacked gate weights: gate `g`'s rows are rows `1024·g … 1024·g + 1023`. -/
def Wcat (a3 a5 a7 a9 : FVec Ideal S1024x1536 .f32) : FVec Ideal S4096x1536 .f32 :=
  concatenate S4096x1536 0 [⟨S1024x1536, a3⟩, ⟨S1024x1536, a5⟩, ⟨S1024x1536, a7⟩, ⟨S1024x1536, a9⟩] concatenates_S1024x1536_S1024x1536_S1024x1536_S1024x1536_S4096x1536_d0

/-- The stacked gate biases. -/
def bcat (a4 a6 a8 a10 : FVec Ideal S1024 .f32) : FVec Ideal S4096 .f32 :=
  concatenate S4096 0 [⟨S1024, a4⟩, ⟨S1024, a6⟩, ⟨S1024, a8⟩, ⟨S1024, a10⟩] concatenates_S1024_S1024_S1024_S1024_S4096_d0

/-- The exponentials of a column's entries less the column's maximum. -/
def expShift (z : FVec Ideal S16384x1 .f32) : FVec Ideal S16384x1 .f32 :=
  Host.exp (F := Ideal) (subf z (broadcastInDim S16384x1 ![0, 1] bcast_S1x1_S16384x1_0_1 (broadcastInDim S1x1 ![1] bcast_S1_S1x1_1
    (maximumf (broadcastInDim S1 ![] bcast_S_S1 (constant (F := Ideal) S_ .f32 0xFF800000#32))
      (Host.reduce FloatOps.maximumf z (constant (F := Ideal) S_ .f32 0xFF800000#32) reducesTo_S16384x1_S1_d0 h_S_)))))

/-- The softmax of a column over the batch. -/
def softmaxCol (z : FVec Ideal S16384x1 .f32) : FVec Ideal S16384x1 .f32 :=
  Host.divf (F := Ideal) (expShift z) (broadcastInDim S16384x1 ![0, 1] bcast_S1x1_S16384x1_0_1 (broadcastInDim S1x1 ![1] bcast_S1_S1x1_1
    (Host.reduceAdd (F := Ideal) (expShift z) (constant (F := Ideal) S_ .f32 0x00000000#32) reducesTo_S16384x1_S1_d0 h_S_)))

end Cert.Shared

end
-- ==== Proof.ValKI.Defs.lean ====
/-
  What the two kernel regions compute, as functions of the arrays each region finds when it is entered (a valuation `V` of
  the core's buffers), entry by entry at the ideal instance. Region 0 (the cell kernel) reads the input, the previous
  hidden and cell states, the two transposed stacked weight matrices (input part and recurrent part, `k` running down
  the rows, the gate unit `1024·g + q` along the columns), the stacked bias as one row, the attention weights and bias;
  region 1 (the highway kernel) reads the input, the hidden state region 0 wrote, the column of attention weights, the
  two transposed highway matrices and their biases as rows.
-/
import proofs.«167787_j30270929502695_2_alg».proof.Proof.FrKI.Defs0
import proofs.«167787_j30270929502695_2_alg».proof.Proof.FrKI.Defs1
import proofs.«167787_j30270929502695_2_alg».proof.Proof.SpecArr

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem

variable (V : (c : Dev nD) → (b : Ref sig .tc) → Buf (Elt Ideal) ((c : Thread nD τ).loc b)) (c : Dev nD)

/-- Gate `g`'s pre-activation at batch row `i`, unit `q`, from the arrays region 0 finds. -/
def zK (g : Fin 4) (i : Fin 16384) (q : Fin 1024) : EReal :=
  Spec.gateF (fun k => (V c main_arg0 : S16384x512.Idx → EReal) (ix2 i k)) (fun k => (V c main_arg1 : S16384x1024.Idx → EReal) (ix2 i k))
    (fun k => (V c main_v4 : S512x4096.Idx → EReal) (ix2 k (Spec.grow g q))) (fun k => (V c main_v7 : S1024x4096.Idx → EReal) (ix2 k (Spec.grow g q)))
    ((V c main_v8 : S1x4096.Idx → EReal) (ix2 (0 : Fin 1) (Spec.grow g q)))
/-- The new cell value at `(i, q)`. -/
def cK (i : Fin 16384) (q : Fin 1024) : EReal :=
  Spec.cellF (zK V c 0 i q) (zK V c 1 i q) (zK V c 3 i q) ((V c main_arg2 : S16384x1024.Idx → EReal) (ix2 i q))
/-- The hidden value at `(i, q)`. -/
def hK (i : Fin 16384) (q : Fin 1024) : EReal := Spec.hidF (zK V c 2 i q) (cK V c i q)
/-- Row `i`'s attention logit. -/
def lK (i : Fin 16384) : EReal :=
  Spec.logitF (fun q => hK V c i q) (fun q => (V c main_arg11 : S1x1024.Idx → EReal) (ix2 (0 : Fin 1) q))
    ((V c main_v9 : S1x1.Idx → EReal) (ix2 (0 : Fin 1) (0 : Fin 1)))

/-- The three arrays region 0 leaves: the hidden state, the cell state, the logits column. -/
def hidK : S16384x1024.Idx → EReal := fun j => hK V c (j 0) (j 1)
def cellK : S16384x1024.Idx → EReal := fun j => cK V c (j 0) (j 1)
def logitK : S16384x1.Idx → EReal := fun j => lK V c (j 0)

/-- The array region 1 leaves: the highway mix of the input with the hidden state scaled by the row's attention weight. -/
def outK : S16384x1024.Idx → EReal := fun j =>
  Spec.mixF (fun k => (V c main_arg0 : S16384x512.Idx → EReal) (ix2 (j 0) k))
    (fun k => (V c main_v23 : S512x1024.Idx → EReal) (ix2 k (j 1))) (fun k => (V c main_v25 : S512x1024.Idx → EReal) (ix2 k (j 1)))
    ((V c main_v26 : S1x1024.Idx → EReal) (ix2 (0 : Fin 1) (j 1))) ((V c main_v27 : S1x1024.Idx → EReal) (ix2 (0 : Fin 1) (j 1)))
    ((HMul.hMul : EReal → EReal → EReal) ((V c main_v10_0 : S16384x1024.Idx → EReal) (ix2 (j 0) (j 1))) ((V c main_v21 : S16384x1.Idx → EReal) (ix2 (j 0) (0 : Fin 1))))

end Cert.KernelIdeal.Val

end
-- ==== Proof.ValKI.Host0.lean ====
/-
  The first stretch of host operations, read entry by entry. From the contents `W` of the buffers at launch the stretch
  stacks the four gate weight matrices (4096 rows of 1536) and the four gate biases, cuts the stacked matrix into its
  first 512 columns (the part that meets the input) and its last 1024 (the part that meets the previous hidden state),
  transposes each part and rounds it (rounding is the identity on the extended reals), and views the stacked bias and
  the attention bias as one-row matrices. So entry `(k, j)` of the transposed input part is entry `(j, k)` of the stacked
  matrix, entry `(k, j)` of the transposed recurrent part is its entry `(j, 512 + k)`, and entry `(0, j)` of a
  one-row view is entry `j` of the vector. No operation of the stretch writes an argument.
-/
import proofs.«167787_j30270929502695_2_alg».proof.Proof.Gen.KernelIdeal.Launch
import proofs.«167787_j30270929502695_2_alg».proof.Proof.Gen.KernelIdeal.Regions
import proofs.«167787_j30270929502695_2_alg».proof.Proof.Shared
import proofs.«167787_j30270929502695_2_alg».proof.Proof.SpecArr
import Idealize.ShloMosaic.Lib.StableHlo.Run
import Idealize.ShloMosaic.Lib.Pipeline.Value
import Idealize.ShloMosaic.Lib.ValueIdx

noncomputable section

namespace Cert.KernelIdeal.Val

open Cert.KernelIdeal Cert.KernelIdeal.Gen
open Idealize.ShloMosaic Idealize.ShloMosaic.TcCoe Idealize.ShloMosaic.ValueIdx Idealize.SL.Sem

variable (W : Valuation τ sig (Elt Ideal))

/-- The stacked gate weights built from the contents of the four weight arguments. -/
abbrev WcOf : FVec Ideal S4096x1536 .f32 :=
  Shared.Wcat (W (Proc.devRef .tc main_arg3)) (W (Proc.devRef .tc main_arg5)) (W (Proc.devRef .tc main_arg7)) (W (Proc.devRef .tc main_arg9))
/-- The stacked gate biases built from the contents of the four bias arguments. -/
abbrev bcOf : FVec Ideal S4096 .f32 :=
  Shared.bcat (W (Proc.devRef .tc main_arg4)) (W (Proc.devRef .tc main_arg6)) (W (Proc.devRef .tc main_arg8)) (W (Proc.devRef .tc main_arg10))

/-- A buffer the stretch does not write keeps its contents. -/
theorem host0_keep (r : Ref sig .tc) (h : r ∉ Gen.hostOps0_W) :
    StableHlo.after hostOps0 W (Proc.devRef .tc r) = W (Proc.devRef .tc r) :=
  StableHlo.after_of_writes_sub hostOps0 _ Gen.hostOps0_writes h

/-- The transposed input part of the stacked weights, as the operations' term. -/
theorem host0_v4_term :
    (StableHlo.after hostOps0 W (Proc.devRef .tc main_v4) : S512x4096.Idx → EReal)
      = truncf .bf16 (transpose S512x4096 [1, 0] (extractStridedSlice S4096x512 ![0, 0] (WcOf W) slices_S4096x1536_S4096x512_0_0) transposes_S4096x512_S512x4096_1_0) bitsLt_bf16_f32 := by
  after_results
  rfl

/-- Entry `(k, j)` of the transposed input part is entry `(j, k)` of the stacked weights. -/
theorem host0_v4 (k : Fin 512) (j : Fin 4096) :
    (StableHlo.after hostOps0 W (Proc.devRef .tc main_v4) : S512x4096.Idx → EReal) (ix2 k j) = WcOf W (ix2 j (Spec.colX k)) := by
  rw [host0_v4_term, truncf_apply]
  refine (transpose_apply _ _ _ (ix2 k j) (ix2 j k) (fun b => by match b with | ⟨0, _⟩ => rfl | ⟨1, _⟩ => rfl)).trans ?_
  exact extractStridedSlice_apply _ _ _ (ix2 j k) (ix2 j (Spec.colX k))
    (fun a => by match a with | ⟨0, _⟩ => (show j.val = 0 + j.val; omega) | ⟨1, _⟩ => (show k.val = 0 + k.val; omega))

/-- The transposed recurrent part of the stacked weights, as the operations' term. -/
theorem host0_v7_term :
    (StableHlo.after hostOps0 W (Proc.devRef .tc main_v7) : S1024x4096.Idx → EReal)
      = truncf .bf16 (transpose S1024x4096 [1, 0] (extractStridedSlice S4096x1024 ![0, 512] (WcOf W) slices_S4096x1536_S4096x1024_0_512) transposes_S4096x1024_S1024x4096_1_0) bitsLt_bf16_f32 := by
  after_results
  rfl

/-- Entry `(k, j)` of the transposed recurrent part is entry `(j, 512 + k)` of the stacked weights. -/
theorem host0_v7 (k : Fin 1024) (j : Fin 4096) :
    (StableHlo.after hostOps0 W (Proc.devRef .tc main_v7) : S1024x4096.Idx → EReal) (ix2 k j) = WcOf W (ix2 j (Spec.colH k)) := by
  rw [host0_v7_term, truncf_apply]
  refine (transpose_apply _ _ _ (ix2 k j) (ix2 j k) (fun b => by match b with | ⟨0, _⟩ => rfl | ⟨1, _⟩ => rfl)).trans ?_
  exact extractStridedSlice_apply _ _ _ (ix2 j k) (ix2 j (Spec.colH k))
    (fun a => by match a with | ⟨0, _⟩ => (show j.val = 0 + j.val; omega) | ⟨1, _⟩ => (show 512 + k.val = 512 + k.val; rfl))

/-- The stacked bias viewed as one row, as the operations' term. -/
theorem host0_v8_term :
    (StableHlo.after hostOps0 W (Proc.devRef .tc main_v8) : S1x4096.Idx → EReal)
      = shapeCast S1x4096 (bcOf W) shapeCasts_S4096_S1x4096 := by
  after_results
  rfl

/-- Entry `(0, j)` of the bias row is entry `j` of the stacked bias. -/
theorem host0_v8 (j : Fin 4096) :
    (StableHlo.after hostOps0 W (Proc.devRef .tc main_v8) : S1x4096.Idx → EReal) (ix2 (0 : Fin 1) j) = bcOf W (ix1 j) := by
  rw [host0_v8_term]
  refine shapeCast_apply _ _ (ix2 (0 : Fin 1) j) (ix1 j) ?_
  rw [Shape.rowMajor_val_one, Shape.rowMajor_val_two]
  show j.val = 0 * 4096 + j.val
  omega

/-- The attention bias viewed as a one-by-one matrix, as the operations' term. -/
theorem host0_v9_term :
    (StableHlo.after hostOps0 W (Proc.devRef .tc main_v9) : S1x1.Idx → EReal)
      = shapeCast S1x1 (W (Proc.devRef .tc main_arg12) : S1.Idx → EReal) shapeCasts_S1_S1x1 := by
  after_results
  rfl

/-- The one entry of that matrix is the attention bias. -/
theorem host0_v9 :
    (StableHlo.after hostOps0 W (Proc.devRef .tc main_v9) : S1x1.Idx → EReal) (ix2 (0 : Fin 1) (0 : Fin 1))
      = (W (Proc.devRef .tc main_arg12) : S1.Idx → EReal) (ix1 (0 : Fin 1)) := by
  rw [host0_v9_term]
  refine shapeCast_apply _ _ (ix2 (0 : Fin 1) (0 : Fin 1)) (ix1 (0 : Fin 1)) ?_
  rw [Shape.rowMajor_val_one, Shape.rowMajor_val_two]
  rfl

end Cert.KernelIdeal.Val

end
-- ==== Proof.ValKI.Host1.lean ====
/-
  The second stretch of host operations, read entry by entry. From the contents `W` of the buffers when the first kernel
  has finished, the stretch takes the softmax of the logits column over the batch, transposes and rounds the two highway
  weight matrices (rounding is the identity on the extended reals), and views the two highway biases as one-row
  matrices. So the attention weights are the shared softmax of the logits column, entry `(k, q)` of a transposed
  highway matrix is entry `(q, k)` of the argument, and entry `(0, q)` of a bias row is entry `q` of the bias. No
  operation of the stretch writes an argument or an array the first kernel wrote.
-/
import proofs.«167787_j30270929502695_2_alg».proof.Proof.Gen.KernelIdeal.Launch
import proofs.«167787_j30270929502695_2_alg».proof.Proof.Gen.KernelIdeal.Regions
import proofs.«167787_j30270929502695_2_alg».proof.Proof.Shared
import proofs.«167787_j30270929502695_2_alg».proof.Proof.SpecArr
import Idealize.ShloMosaic.Lib.StableHlo.Run
import Idealize.ShloMosaic.Lib.Pipeline.Value
import Idealize.ShloMosaic.Lib.ValueIdx

noncomputable section

namespace Cert.KernelIdeal.Val

open Cert.KernelIdeal Cert.KernelIdeal.Gen
open Idealize.ShloMosaic Idealize.ShloMosaic.TcCoe Idealize.ShloMosaic.ValueIdx Idealize.SL.Sem

variable (W : Valuation τ sig (Elt Ideal))

/-- A buffer the stretch does not write keeps its contents. -/
theorem host1_keep (r : Ref sig .tc) (h : r ∉ Gen.hostOps1_W) :
    StableHlo.after hostOps1 W (Proc.devRef .tc r) = W (Proc.devRef .tc r) :=
  StableHlo.after_of_writes_sub hostOps1 _ Gen.hostOps1_writes h

/-- The attention weights are the softmax over the batch of the logits column. -/
theorem host1_v21 :
    (StableHlo.after hostOps1 W (Proc.devRef .tc main_v21) : FVec Ideal S16384x1 .f32)
      = Shared.softmaxCol (W (Proc.devRef .tc main_v10_2)) := by
  after_results
  rfl

/-- The transposed transform weights, as the operations' term. -/
theorem host1_v23_term :
    (StableHlo.after hostOps1 W (Proc.devRef .tc main_v23) : S512x1024.Idx → EReal)
      = truncf (F := Ideal) .bf16 (transpose S512x1024 [1, 0] (W (Proc.devRef .tc main_arg13) : FVec Ideal S1024x512 .f32) transposes_S1024x512_S512x1024_1_0) bitsLt_bf16_f32 := by
  after_results

/-- Entry `(k, q)` of the transposed transform weights is entry `(q, k)` of the argument. -/
theorem host1_v23 (k : Fin 512) (q : Fin 1024) :
    (StableHlo.after hostOps1 W (Proc.devRef .tc main_v23) : S512x1024.Idx → EReal) (ix2 k q)
      = (W (Proc.devRef .tc main_arg13) : S1024x512.Idx → EReal) (ix2 q k) := by
  rw [host1_v23_term, truncf_apply]
  exact transpose_apply _ _ _ (ix2 k q) (ix2 q k) (fun b => by match b with | ⟨0, _⟩ => rfl | ⟨1, _⟩ => rfl)

/-- The transposed gate weights, as the operations' term. -/
theorem host1_v25_term :
    (StableHlo.after hostOps1 W (Proc.devRef .tc main_v25) : S512x1024.Idx → EReal)
      = truncf (F := Ideal) .bf16 (transpose S512x1024 [1, 0] (W (Proc.devRef .tc main_arg15) : FVec Ideal S1024x512 .f32) transposes_S1024x512_S512x1024_1_0) bitsLt_bf16_f32 := by
  after_results

/-- Entry `(k, q)` of the transposed gate weights is entry `(q, k)` of the argument. -/
theorem host1_v25 (k : Fin 512) (q : Fin 1024) :
    (StableHlo.after hostOps1 W (Proc.devRef .tc main_v25) : S512x1024.Idx → EReal) (ix2 k q)
      = (W (Proc.devRef .tc main_arg15) : S1024x512.Idx → EReal) (ix2 q k) := by
  rw [host1_v25_term, truncf_apply]
  exact transpose_apply _ _ _ (ix2 k q) (ix2 q k) (fun b => by match b with | ⟨0, _⟩ => rfl | ⟨1, _⟩ => rfl)

/-- The transform bias viewed as one row, as the operations' term. -/
theorem host1_v26_term :
    (StableHlo.after hostOps1 W (Proc.devRef .tc main_v26) : S1x1024.Idx → EReal)
      = shapeCast S1x1024 (W (Proc.devRef .tc main_arg14) : S1024.Idx → EReal) shapeCasts_S1024_S1x1024 := by
  after_results
  rfl

/-- Entry `(0, q)` of the transform bias row is entry `q` of the bias. -/
theorem host1_v26 (q : Fin 1024) :
    (StableHlo.after hostOps1 W (Proc.devRef .tc main_v26) : S1x1024.Idx → EReal) (ix2 (0 : Fin 1) q)
      = (W (Proc.devRef .tc main_arg14) : S1024.Idx → EReal) (ix1 q) := by
  rw [host1_v26_term]
  refine shapeCast_apply _ _ (ix2 (0 : Fin 1) q) (ix1 q) ?_
  rw [Shape.rowMajor_val_one, Shape.rowMajor_val_two]
  show q.val = 0 * 1024 + q.val
  omega

/-- The gate bias viewed as one row, as the operations' term. -/
theorem host1_v27_term :
    (StableHlo.after hostOps1 W (Proc.devRef .tc main_v27) : S1x1024.Idx → EReal)
      = shapeCast S1x1024 (W (Proc.devRef .tc main_arg16) : S1024.Idx → EReal) shapeCasts_S1024_S1x1024 := by
  after_results
  rfl

/-- Entry `(0, q)` of the gate bias row is entry `q` of the bias. -/
theorem host1_v27 (q : Fin 1024) :
    (StableHlo.after hostOps1 W (Proc.devRef .tc main_v27) : S1x1024.Idx → EReal) (ix2 (0 : Fin 1) q)
      = (W (Proc.devRef .tc main_arg16) : S1024.Idx → EReal) (ix1 q) := by
  rw [host1_v27_term]
  refine shapeCast_apply _ _ (ix2 (0 : Fin 1) q) (ix1 q) ?_
  rw [Shape.rowMajor_val_one, Shape.rowMajor_val_two]
  show q.val = 0 * 1024 + q.val
  omega

end Cert.KernelIdeal.Val

end
-- ==== Proof.ValKI.Pay0Defs.lean ====
/-
  Region 0's three stored values read at an entry of the block, over variables for the eight input blocks of one grid
  point: `x0` the input rows, `x1` / `x2` the previous hidden and cell rows, `x3` / `x4` the transposed stacked weights
  (whole), `x5` the stacked bias row, `x6` the attention weights, `x7` the attention bias. The statements are in terms
  of the scalar specification: the gates' pre-activations `zB`, the cell value `cB`, the hidden value `hB`, the logit `lB`.
-/
import proofs.«167787_j30270929502695_2_alg».proof.Proof.FrKI.Defs0
import proofs.«167787_j30270929502695_2_alg».proof.Proof.SpecArr

noncomputable section

namespace Cert.KernelIdeal.Val

open Cert.KernelIdeal Cert.KernelIdeal.Gen Cert.KernelIdeal.Fr
open Idealize.ShloMosaic Idealize.ShloMosaic.ValueIdx

section
variable (x0 : Vec Ideal S512x512 .f32) (x1 x2 : Vec Ideal S512x1024 .f32) (x3 : Vec Ideal S512x4096 .bf16)
  (x4 : Vec Ideal S1024x4096 .bf16) (x5 : Vec Ideal S1x4096 .f32) (x6 : Vec Ideal S1x1024 .f32) (x7 : Vec Ideal S1x1 .f32)

/-- Gate `g`'s pre-activation at row `p` of the block, unit `q`. -/
def zB (g : Fin 4) (p : Fin 512) (q : Fin 1024) : EReal :=
  Spec.gateF (fun k => x0 (ix2 p k)) (fun k => x1 (ix2 p k)) (fun k => x3 (ix2 k (Spec.grow g q)))
    (fun k => x4 (ix2 k (Spec.grow g q))) (x5 (ix2 (0 : Fin 1) (Spec.grow g q)))
/-- The new cell value at `(p, q)` of the block. -/
def cB (p : Fin 512) (q : Fin 1024) : EReal :=
  Spec.cellF (zB x0 x1 x3 x4 x5 0 p q) (zB x0 x1 x3 x4 x5 1 p q) (zB x0 x1 x3 x4 x5 3 p q) (x2 (ix2 p q))
/-- The hidden value at `(p, q)` of the block. -/
def hB (p : Fin 512) (q : Fin 1024) : EReal := Spec.hidF (zB x0 x1 x3 x4 x5 2 p q) (cB x0 x1 x2 x3 x4 x5 p q)
/-- Row `p`'s attention logit. -/
def lB (p : Fin 512) : EReal :=
  Spec.logitF (fun q => hB x0 x1 x2 x3 x4 x5 p q) (fun q => x6 (ix2 (0 : Fin 1) q)) (x7 (ix2 (0 : Fin 1) (0 : Fin 1)))
end

end Cert.KernelIdeal.Val

end
-- ==== Proof.ValKI.Rows0.lean ====
/-
  The cell kernel's block values as values of whole arrays' rows. The cell, hidden and logit values of a block at row p
  read row p of the three row-indexed blocks (input, previous hidden state, previous cell state) and all of the stacked
  weights, bias and attention parameters. When row p of those blocks is row i of three whole arrays, and the other blocks
  are whole arrays themselves, the block's values at row p are the same functions of the arrays at row i.
-/
import proofs.«167787_j30270929502695_2_alg».proof.Proof.ValKI.Pay0Defs

noncomputable section

namespace Cert.KernelIdeal.Val

open Cert.KernelIdeal Cert.KernelIdeal.Gen
open Idealize.ShloMosaic Idealize.ShloMosaic.ValueIdx

section
variable (a0 : S16384x512.Idx → EReal) (a1 a2 : S16384x1024.Idx → EReal) (a3 : S512x4096.Idx → EReal)
  (a4 : S1024x4096.Idx → EReal) (a5 : S1x4096.Idx → EReal) (a6 : S1x1024.Idx → EReal) (a7 : S1x1.Idx → EReal)

/-- Gate g's pre-activation at batch row i, unit q, from whole arrays. -/
def zR (i : Fin 16384) (g : Fin 4) (q : Fin 1024) : EReal :=
  Spec.gateF (fun k => a0 (ix2 i k)) (fun k => a1 (ix2 i k)) (fun k => a3 (ix2 k (Spec.grow g q)))
    (fun k => a4 (ix2 k (Spec.grow g q))) (a5 (ix2 (0 : Fin 1) (Spec.grow g q)))
/-- The new cell value at (i, q), from whole arrays. -/
def cR (i : Fin 16384) (q : Fin 1024) : EReal :=
  Spec.cellF (zR a0 a1 a3 a4 a5 i 0 q) (zR a0 a1 a3 a4 a5 i 1 q) (zR a0 a1 a3 a4 a5 i 3 q) (a2 (ix2 i q))
/-- The hidden value at (i, q), from whole arrays. -/
def hR (i : Fin 16384) (q : Fin 1024) : EReal := Spec.hidF (zR a0 a1 a3 a4 a5 i 2 q) (cR a0 a1 a2 a3 a4 a5 i q)
/-- Row i's attention logit, from whole arrays. -/
def lR (i : Fin 16384) : EReal :=
  Spec.logitF (fun q => hR a0 a1 a2 a3 a4 a5 i q) (fun q => a6 (ix2 (0 : Fin 1) q)) (a7 (ix2 (0 : Fin 1) (0 : Fin 1)))

variable (x0 : Vec Ideal S512x512 .f32) (x1 x2 : Vec Ideal S512x1024 .f32) (x3 : Vec Ideal S512x4096 .bf16)
  (x4 : Vec Ideal S1024x4096 .bf16) (x5 : Vec Ideal S1x4096 .f32) (x6 : Vec Ideal S1x1024 .f32) (x7 : Vec Ideal S1x1 .f32)
  (p : Fin 512) (i : Fin 16384)
  (h0 : ∀ k, x0 (ix2 p k) = a0 (ix2 i k)) (h1 : ∀ k, x1 (ix2 p k) = a1 (ix2 i k)) (h2 : ∀ q, x2 (ix2 p q) = a2 (ix2 i q))
  (h3 : x3 = a3) (h4 : x4 = a4) (h5 : x5 = a5) (h6 : x6 = a6) (h7 : x7 = a7)

include h0 h1 h3 h4 h5 in
/-- A gate's pre-activation at row p of the block is the arrays' at row i. -/
theorem zB_rows (g : Fin 4) (q : Fin 1024) : zB x0 x1 x3 x4 x5 g p q = zR a0 a1 a3 a4 a5 i g q := by
  subst h3 h4 h5
  unfold zB zR
  rw [funext h0, funext h1]

include h0 h1 h2 h3 h4 h5 in
/-- The cell value at row p of the block is the arrays' at row i. -/
theorem cB_rows (q : Fin 1024) : cB x0 x1 x2 x3 x4 x5 p q = cR a0 a1 a2 a3 a4 a5 i q := by
  unfold cB cR
  rw [zB_rows a0 a1 a3 a4 a5 x0 x1 x3 x4 x5 p i h0 h1 h3 h4 h5 0 q, zB_rows a0 a1 a3 a4 a5 x0 x1 x3 x4 x5 p i h0 h1 h3 h4 h5 1 q,
    zB_rows a0 a1 a3 a4 a5 x0 x1 x3 x4 x5 p i h0 h1 h3 h4 h5 3 q, h2 q]

include h0 h1 h2 h3 h4 h5 in
/-- The hidden value at row p of the block is the arrays' at row i. -/
theorem hB_rows (q : Fin 1024) : hB x0 x1 x2 x3 x4 x5 p q = hR a0 a1 a2 a3 a4 a5 i q := by
  unfold hB hR
  rw [zB_rows a0 a1 a3 a4 a5 x0 x1 x3 x4 x5 p i h0 h1 h3 h4 h5 2 q, cB_rows a0 a1 a2 a3 a4 a5 x0 x1 x2 x3 x4 x5 p i h0 h1 h2 h3 h4 h5 q]

include h0 h1 h2 h3 h4 h5 h6 h7 in
/-- Row p's logit in the block is the arrays' row i's. -/
theorem lB_rows : lB x0 x1 x2 x3 x4 x5 x6 x7 p = lR a0 a1 a2 a3 a4 a5 a6 a7 i := by
  subst h6 h7
  unfold lB lR
  rw [funext fun q => hB_rows a0 a1 a2 a3 a4 a5 x0 x1 x2 x3 x4 x5 p i h0 h1 h2 h3 h4 h5 q]
end

end Cert.KernelIdeal.Val

end
-- ==== Proof.ValKI.Blocks0.lean ====
/-
  The cell kernel's windows as parts of their arrays. The grid has 32 points; point t works on batch rows
  512·t … 512·t + 511: its blocks of the input and of the previous hidden and cell states are those rows of their arrays
  (and so are the three output blocks), while the two transposed stacked weight matrices, the stacked bias row, the
  attention weights and the attention bias are staged whole at every point.
-/
import proofs.«167787_j30270929502695_2_alg».proof.Proof.FrKI.Defs0
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem

/-- The printed index maps over the grid: the row-indexed windows (three inputs, three outputs) are at block t on the
    batch axis and block 0 on the other; the weight, bias and attention windows are at block 0 on both. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0
    ∧ win0_10.index t (0 : Fin 2) = t.val ∧ win0_10.index t (1 : Fin 2) = 0
    ∧ True :=
  (by decide +kernel : ∀ t : Fin grid0.N, _)

variable (V : (c : Dev nD) → (b : Ref sig .tc) → Buf (Elt Ideal) ((c : Thread nD τ).loc b)) (c : Dev nD)

/-- The input's block at point t, at (p, k): the input at row 512·t + p. -/
theorem iblk0_0_apply (t : Fin cfg0.N) (p : Fin 512) (k : Fin 512) (i : Fin 16384) (hi : i.val = 512 * t.val + p.val) :
    (iblk0 V c 0 t : S512x512.Idx → EReal) (ix2 p k) = (V c main_arg0 : S16384x512.Idx → EReal) (ix2 i k) := by
  obtain ⟨e0, e1, -⟩ := idx0 t
  unfold iblk0
  rw [View.read_apply]
  show (V c main_arg0 : S16384x512.Idx → EReal) _ = _
  refine congrArg _ (funext fun a => Fin.ext ?_)
  match a with
  | ⟨0, _⟩ => show win0_0.index t (0 : Fin 2) * 512 + 1 * p.val = i.val; rw [e0, hi]; omega
  | ⟨1, _⟩ => show win0_0.index t (1 : Fin 2) * 512 + 1 * k.val = k.val; rw [e1]; omega

/-- The previous hidden state's block at point t, at (p, k): the array at row 512·t + p. -/
theorem iblk0_1_apply (t : Fin cfg0.N) (p : Fin 512) (k : Fin 1024) (i : Fin 16384) (hi : i.val = 512 * t.val + p.val) :
    (iblk0 V c 1 t : S512x1024.Idx → EReal) (ix2 p k) = (V c main_arg1 : S16384x1024.Idx → EReal) (ix2 i k) := by
  obtain ⟨-, -, e0, e1, -⟩ := idx0 t
  unfold iblk0
  rw [View.read_apply]
  show (V c main_arg1 : S16384x1024.Idx → EReal) _ = _
  refine congrArg _ (funext fun a => Fin.ext ?_)
  match a with
  | ⟨0, _⟩ => show win0_1.index t (0 : Fin 2) * 512 + 1 * p.val = i.val; rw [e0, hi]; omega
  | ⟨1, _⟩ => show win0_1.index t (1 : Fin 2) * 1024 + 1 * k.val = k.val; rw [e1]; omega

/-- The previous cell state's block at point t, at (p, k): the array at row 512·t + p. -/
theorem iblk0_2_apply (t : Fin cfg0.N) (p : Fin 512) (k : Fin 1024) (i : Fin 16384) (hi : i.val = 512 * t.val + p.val) :
    (iblk0 V c 2 t : S512x1024.Idx → EReal) (ix2 p k) = (V c main_arg2 : S16384x1024.Idx → EReal) (ix2 i k) := by
  obtain ⟨-, -, -, -, e0, e1, -⟩ := idx0 t
  unfold iblk0
  rw [View.read_apply]
  show (V c main_arg2 : S16384x1024.Idx → EReal) _ = _
  refine congrArg _ (funext fun a => Fin.ext ?_)
  match a with
  | ⟨0, _⟩ => show win0_2.index t (0 : Fin 2) * 512 + 1 * p.val = i.val; rw [e0, hi]; omega
  | ⟨1, _⟩ => show win0_2.index t (1 : Fin 2) * 1024 + 1 * k.val = k.val; rw [e1]; omega

/-- The transposed input weights are staged whole: the block at any point is the array. -/
theorem iblk0_3_eq (t : Fin cfg0.N) : (iblk0 V c 3 t : S512x4096.Idx → EReal) = (V c main_v4 : S512x4096.Idx → EReal) := by
  obtain ⟨-, -, -, -, -, -, e0, e1, -⟩ := idx0 t
  funext y
  unfold iblk0
  rw [View.read_apply]
  show (V c main_v4 : S512x4096.Idx → EReal) _ = _
  refine congrArg _ (funext fun a => Fin.ext ?_)
  match a with
  | ⟨0, _⟩ => show win0_3.index t (0 : Fin 2) * 512 + 1 * (y 0).val = (y 0).val; rw [e0]; omega
  | ⟨1, _⟩ => show win0_3.index t (1 : Fin 2) * 4096 + 1 * (y 1).val = (y 1).val; rw [e1]; omega

/-- The transposed recurrent weights are staged whole. -/
theorem iblk0_4_eq (t : Fin cfg0.N) : (iblk0 V c 4 t : S1024x4096.Idx → EReal) = (V c main_v7 : S1024x4096.Idx → EReal) := by
  obtain ⟨-, -, -, -, -, -, -, -, e0, e1, -⟩ := idx0 t
  funext y
  unfold iblk0
  rw [View.read_apply]
  show (V c main_v7 : S1024x4096.Idx → EReal) _ = _
  refine congrArg _ (funext fun a => Fin.ext ?_)
  match a with
  | ⟨0, _⟩ => show win0_4.index t (0 : Fin 2) * 1024 + 1 * (y 0).val = (y 0).val; rw [e0]; omega
  | ⟨1, _⟩ => show win0_4.index t (1 : Fin 2) * 4096 + 1 * (y 1).val = (y 1).val; rw [e1]; omega

/-- The stacked bias row is staged whole. -/
theorem iblk0_5_eq (t : Fin cfg0.N) : (iblk0 V c 5 t : S1x4096.Idx → EReal) = (V c main_v8 : S1x4096.Idx → EReal) := by
  obtain ⟨-, -, -, -, -, -, -, -, -, -, e0, e1, -⟩ := idx0 t
  funext y
  unfold iblk0
  rw [View.read_apply]
  show (V c main_v8 : S1x4096.Idx → EReal) _ = _
  refine congrArg _ (funext fun a => Fin.ext ?_)
  match a with
  | ⟨0, _⟩ => show win0_5.index t (0 : Fin 2) * 1 + 1 * (y 0).val = (y 0).val; rw [e0]; omega
  | ⟨1, _⟩ => show win0_5.index t (1 : Fin 2) * 4096 + 1 * (y 1).val = (y 1).val; rw [e1]; omega

/-- The attention weights are staged whole. -/
theorem iblk0_6_eq (t : Fin cfg0.N) : (iblk0 V c 6 t : S1x1024.Idx → EReal) = (V c main_arg11 : S1x1024.Idx → EReal) := by
  obtain ⟨-, -, -, -, -, -, -, -, -, -, -, -, e0, e1, -⟩ := idx0 t
  funext y
  unfold iblk0
  rw [View.read_apply]
  show (V c main_arg11 : S1x1024.Idx → EReal) _ = _
  refine congrArg _ (funext fun a => Fin.ext ?_)
  match a with
  | ⟨0, _⟩ => show win0_6.index t (0 : Fin 2) * 1 + 1 * (y 0).val = (y 0).val; rw [e0]; omega
  | ⟨1, _⟩ => show win0_6.index t (1 : Fin 2) * 1024 + 1 * (y 1).val = (y 1).val; rw [e1]; omega

/-- The attention bias is staged whole. -/
theorem iblk0_7_eq (t : Fin cfg0.N) : (iblk0 V c 7 t : S1x1.Idx → EReal) = (V c main_v9 : S1x1.Idx → EReal) := by
  obtain ⟨-, -, -, -, -, -, -, -, -, -, -, -, -, -, e0, e1, -⟩ := idx0 t
  funext y
  unfold iblk0
  rw [View.read_apply]
  show (V c main_v9 : S1x1.Idx → EReal) _ = _
  refine congrArg _ (funext fun a => Fin.ext ?_)
  match a with
  | ⟨0, _⟩ => show win0_7.index t (0 : Fin 2) * 1 + 1 * (y 0).val = (y 0).val; rw [e0]; omega
  | ⟨1, _⟩ => show win0_7.index t (1 : Fin 2) * 1 + 1 * (y 1).val = (y 1).val; rw [e1]; omega

end Cert.KernelIdeal.Val

end
-- ==== Proof.ValKI.Pay0Loads.lean ====
/-
  The body's loads, read at an entry. A load through a whole staging buffer reads the buffer. The stacked operands —
  the transposed input weights (512 × 4096), the transposed recurrent weights (1024 × 4096) and the bias row
  (1 × 4096) — are loaded in four groups of 1024 columns, one per gate: the load of gate g's group, read at row k and
  column q of the group, is the operand at row k and column 1024·g + q, the stacked arrays' row of gate g's unit q.
-/
import proofs.«167787_j30270929502695_2_alg».proof.Proof.ValKI.Pay0Defs
import Idealize.ShloMosaic.Lib.Pipeline.Value

noncomputable section

namespace Cert.KernelIdeal.Val

open Cert.KernelIdeal Cert.KernelIdeal.Gen Cert.KernelIdeal.Fr
open Idealize.ShloMosaic Idealize.ShloMosaic.ValueIdx

/-- The zero offsets of a rank-two rectangle, as the constant function. -/
theorem hz : (![0, 0] : Fin 2 → Nat) = fun _ => 0 := funext fun a => by fin_cases a <;> rfl

/-- A load of 1024 columns from column `o = 1024·g` of an `R × 4096` operand, read at `(k, q)`: the operand at
    `(k, 1024·g + q)`. -/
theorem ld_cols {Val : EltTy → Type} {e : EltTy} {R : ℕ} (x : (⟨2, ![R, 4096]⟩ : Shape).Idx → Val e) (o : ℕ)
    (inb : ∀ a, (![0, o] : Fin 2 → ℕ) a + (⟨2, ![R, 1024]⟩ : Shape).size a ≤ (⟨2, ![R, 4096]⟩ : Shape).size a)
    (g : Fin 4) (ho : o = 1024 * g.val) (k : Fin R) (q : Fin 1024) :
    View.ld x (Rect.unit (s := ⟨2, ![R, 4096]⟩) ![0, o] (⟨2, ![R, 1024]⟩ : Shape).size inb) (ix2 k q)
      = x (ix2 k (Spec.grow g q)) := by
  show x ((Rect.unit (s := ⟨2, ![R, 4096]⟩) ![0, o] (⟨2, ![R, 1024]⟩ : Shape).size inb).idx (ix2 k q)) = _
  refine congrArg x (funext fun a => Fin.ext ?_)
  match a with
  | ⟨0, _⟩ => show 0 + 1 * k.val = k.val; omega
  | ⟨1, _⟩ => show o + 1 * q.val = 1024 * g.val + q.val; omega

section
variable (x0 : Vec Ideal S512x512 .f32) (x1 x2 : Vec Ideal S512x1024 .f32) (x3 : Vec Ideal S512x4096 .bf16)
  (x4 : Vec Ideal S1024x4096 .bf16) (x5 : Vec Ideal S1x4096 .f32) (x6 : Vec Ideal S1x1024 .f32) (x7 : Vec Ideal S1x1 .f32)

theorem ldX : View.ld x0 rX = x0 := View.ld_unit_zero (S := S512x512) hz _ x0
theorem ldB (x : Vec Ideal S512x1024 .f32) : View.ld x rB = x := View.ld_unit_zero (S := S512x1024) hz _ x
theorem ldWa : View.ld x6 rWa = x6 := View.ld_unit_zero (S := S1x1024) hz _ x6
theorem ldba : View.ld x7 rba = x7 := View.ld_unit_zero (S := S1x1) hz _ x7

theorem ldWx0 (k : Fin 512) (q : Fin 1024) : View.ld x3 rWx0 (ix2 k q) = x3 (ix2 k (Spec.grow 0 q)) := ld_cols x3 0 _ 0 rfl k q
theorem ldWx1 (k : Fin 512) (q : Fin 1024) : View.ld x3 rWx1 (ix2 k q) = x3 (ix2 k (Spec.grow 1 q)) := ld_cols x3 1024 _ 1 rfl k q
theorem ldWx2 (k : Fin 512) (q : Fin 1024) : View.ld x3 rWx2 (ix2 k q) = x3 (ix2 k (Spec.grow 2 q)) := ld_cols x3 2048 _ 2 rfl k q
theorem ldWx3 (k : Fin 512) (q : Fin 1024) : View.ld x3 rWx3 (ix2 k q) = x3 (ix2 k (Spec.grow 3 q)) := ld_cols x3 3072 _ 3 rfl k q
theorem ldWh0 (k : Fin 1024) (q : Fin 1024) : View.ld x4 rWh0 (ix2 k q) = x4 (ix2 k (Spec.grow 0 q)) := ld_cols x4 0 _ 0 rfl k q
theorem ldWh1 (k : Fin 1024) (q : Fin 1024) : View.ld x4 rWh1 (ix2 k q) = x4 (ix2 k (Spec.grow 1 q)) := ld_cols x4 1024 _ 1 rfl k q
theorem ldWh2 (k : Fin 1024) (q : Fin 1024) : View.ld x4 rWh2 (ix2 k q) = x4 (ix2 k (Spec.grow 2 q)) := ld_cols x4 2048 _ 2 rfl k q
theorem ldWh3 (k : Fin 1024) (q : Fin 1024) : View.ld x4 rWh3 (ix2 k q) = x4 (ix2 k (Spec.grow 3 q)) := ld_cols x4 3072 _ 3 rfl k q
theorem ldb0 (q : Fin 1024) : View.ld x5 rb0 (ix2 (0 : Fin 1) q) = x5 (ix2 (0 : Fin 1) (Spec.grow 0 q)) := ld_cols x5 0 _ 0 rfl 0 q
theorem ldb1 (q : Fin 1024) : View.ld x5 rb1 (ix2 (0 : Fin 1) q) = x5 (ix2 (0 : Fin 1) (Spec.grow 1 q)) := ld_cols x5 1024 _ 1 rfl 0 q
theorem ldb2 (q : Fin 1024) : View.ld x5 rb2 (ix2 (0 : Fin 1) q) = x5 (ix2 (0 : Fin 1) (Spec.grow 2 q)) := ld_cols x5 2048 _ 2 rfl 0 q
theorem ldb3 (q : Fin 1024) : View.ld x5 rb3 (ix2 (0 : Fin 1) q) = x5 (ix2 (0 : Fin 1) (Spec.grow 3 q)) := ld_cols x5 3072 _ 3 rfl 0 q
end

end Cert.KernelIdeal.Val

end
-- ==== Proof.LibDot.lean ====
/-
  A matrix product read at an index, on the extended reals.

  For a rows × contraction by contraction × columns product — the dimension numbers that contract the left operand's
  second axis with the right operand's first, with no batch axis — the entry at (i, j) of the host's `dot_general`,
  and of a `tpu.matmul` accumulated into the zero splat, is the plain sum over the contraction coordinate k of
  l (i, k) · r (k, j). The sum over the product's own contraction index is re-indexed through the bijection between a
  one-axis contraction index and its coordinate; the operand indices are computed from the dimension numbers.
  Nothing here needs finiteness: only that the sum is re-indexed.
-/
import Idealize.ShloMosaic.Lib.ValueIdx
import Idealize.ShloMosaic.PureOps.Ideal.Laws

noncomputable section

namespace Cert.LibDot

open Idealize.ShloMosaic Idealize.ShloMosaic.ValueIdx

variable {M K N : Nat}

/-- The contraction of row `y 0` of `l` with column `y 1` of `r`: the sum over the product's contraction index is
    the sum over the one contracted coordinate. -/
theorem sum_plain (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (y : (⟨2, ![M, N]⟩ : Shape).Idx) :
    ∑ q : d.contr.Idx, l (d.lhsIdx y q) * r (d.rhsIdx y q) = ∑ k : Fin K, l (ix2 (y 0) k) * r (ix2 k (y 1)) := by
  obtain ⟨lc, rc, ln, rn, lb, rb, wf⟩ := d
  dsimp only at hlc hrc hln hrn hlb hrb
  subst hlc hrc hln hrn hlb hrb
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : DotDims.lhsIdx (⟨[1], [0], [0], [1], [], [], wf⟩ : DotDims ⟨2, ![M, K]⟩ ⟨2, ![K, N]⟩ ⟨2, ![M, N]⟩) y
      ((contrEquiv1 (⟨[1], [0], [0], [1], [], [], wf⟩ : DotDims ⟨2, ![M, K]⟩ ⟨2, ![K, N]⟩ ⟨2, ![M, N]⟩) K rfl rfl).symm k)
      = ix2 (y 0) k := funext fun a => Fin.ext (by
    match a with
    | ⟨0, _⟩ =>
      unfold DotDims.lhsIdx
      rw [dif_neg (by simp), dif_pos (by simp)]
      rfl
    | ⟨1, _⟩ => exact (DotDims.lhsIdx_val_of_single _ rfl y _).trans hk)
  have er : DotDims.rhsIdx (⟨[1], [0], [0], [1], [], [], wf⟩ : DotDims ⟨2, ![M, K]⟩ ⟨2, ![K, N]⟩ ⟨2, ![M, N]⟩) y
      ((contrEquiv1 (⟨[1], [0], [0], [1], [], [], wf⟩ : DotDims ⟨2, ![M, K]⟩ ⟨2, ![K, N]⟩ ⟨2, ![M, N]⟩) K rfl rfl).symm k)
      = ix2 k (y 1) := funext fun a => Fin.ext (by
    match a with
    | ⟨0, _⟩ => exact (DotDims.rhsIdx_val_of_single _ rfl y _).trans hk
    | ⟨1, _⟩ =>
      unfold DotDims.rhsIdx
      rw [dif_neg (by simp), dif_pos (by simp)]
      rfl)
  rw [el, er]
  rfl

variable {φ₁ φ₂ : FTy}

/-- The host's `dot_general` of those dimension numbers, at an index: the sum over the contracted coordinate. -/
theorem dotGeneral_plain_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (l : FVec Ideal ⟨2, ![M, K]⟩ φ₁) (r : FVec Ideal ⟨2, ![K, N]⟩ φ₂) (y : (⟨2, ![M, N]⟩ : Shape).Idx) :
    FloatOps.dotGeneral d prec sched l r y = ∑ k : Fin K, l (ix2 (y 0) k) * r (ix2 k (y 1)) := by
  rw [Ideal.dotGeneral_apply]
  exact sum_plain d hlc hrc hln hrn hlb hrb l r y

/-- A `tpu.matmul` of those dimension numbers into the zero accumulator, at an index: the same sum. -/
theorem matmul_zero_plain_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (l : FVec Ideal ⟨2, ![M, K]⟩ φ₁) (r : FVec Ideal ⟨2, ![K, N]⟩ φ₂) (y : (⟨2, ![M, N]⟩ : Shape).Idx) :
    FloatOps.matmul d prec l r (constant ⟨2, ![M, N]⟩ .f32 0x00000000#32) y
      = ∑ k : Fin K, l (ix2 (y 0) k) * r (ix2 k (y 1)) := by
  rw [Ideal.matmul_constant_zero_apply]
  exact sum_plain d hlc hrc hln hrn hlb hrb l r y

end Cert.LibDot

end
-- ==== Proof.ValKI.Pay0Gate.lean ====
/-
  One gate's pre-activation, read at an entry. The body forms each of the four gates the same way: the input rows
  (rounded to bf16, which changes nothing on the extended reals) against a 512 × 1024 group of columns of the transposed
  input weights, plus the previous hidden rows against the matching 1024 × 1024 group of the transposed recurrent
  weights, plus that group's bias row laid across the 512 rows. At row p and unit q this is the scalar pre-activation
  of the specification: the two matrix products into the zero accumulator are plain sums over the contracted
  coordinate, and the bias row is read at its one row whatever p is.
-/
import proofs.«167787_j30270929502695_2_alg».proof.Proof.Gen.KernelIdeal.Skeleton
import proofs.«167787_j30270929502695_2_alg».proof.Proof.Spec
import proofs.«167787_j30270929502695_2_alg».proof.Proof.LibDot
import Idealize.ShloMosaic.Lib.ValueLayout

noncomputable section

namespace Cert.KernelIdeal.Val

open Cert.KernelIdeal Cert.KernelIdeal.Gen
open Idealize.ShloMosaic Idealize.ShloMosaic.ValueIdx

/-- A gate's pre-activation as the body spells it: two products into the zero accumulator, added, plus the bias row
    broadcast down the rows (each operand first cast to its own shape). -/
def gpre (a : FVec Ideal S512x512 .bf16) (b : FVec Ideal S512x1024 .bf16) (wx : FVec Ideal S512x1024 .bf16)
    (wh : FVec Ideal S1024x1024 .bf16) (bias : FVec Ideal S1x1024 .f32) : FVec Ideal S512x1024 .f32 :=
  addf
    (addf
      (matmul dot_S512x512_S512x1024_S512x1024_1_0_0_1_n_n none a
        (shapeCast S512x1024 wx shapeCasts_S512x1024_S512x1024) (constant S512x1024 .f32 0x00000000#32))
      (matmul dot_S512x1024_S1024x1024_S512x1024_1_0_0_1_n_n none b
        (shapeCast S1024x1024 wh shapeCasts_S1024x1024_S1024x1024) (constant S512x1024 .f32 0x00000000#32)))
    (broadcastTo S512x1024 (shapeCast S1x1024 bias shapeCasts_S1x1024_S1x1024) broadcasts_S1x1024_S512x1024)

/-- The pre-activation at row `p`, unit `q`: the specification's gate function of row `p` of the two left operands,
    column `q` of the two weight groups, and entry `q` of the bias row. -/
theorem gpre_apply (a : FVec Ideal S512x512 .bf16) (b : FVec Ideal S512x1024 .bf16) (wx : FVec Ideal S512x1024 .bf16)
    (wh : FVec Ideal S1024x1024 .bf16) (bias : FVec Ideal S1x1024 .f32) (p : Fin 512) (q : Fin 1024) :
    gpre a b wx wh bias (ix2 p q)
      = Spec.gateF (fun k => a (ix2 p k)) (fun k => b (ix2 p k)) (fun k => wx (ix2 k q)) (fun k => wh (ix2 k q))
          (bias (ix2 (0 : Fin 1) q)) := by
  unfold gpre Spec.gateF
  rw [shapeCast_self, shapeCast_self, shapeCast_self]
  show (FloatOps.matmul dot_S512x512_S512x1024_S512x1024_1_0_0_1_n_n none a wx (constant S512x1024 .f32 0x00000000#32) (ix2 p q)
      + FloatOps.matmul dot_S512x1024_S1024x1024_S512x1024_1_0_0_1_n_n none b wh (constant S512x1024 .f32 0x00000000#32) (ix2 p q))
      + broadcastTo S512x1024 bias broadcasts_S1x1024_S512x1024 (ix2 p q) = _
  rw [Cert.LibDot.matmul_zero_plain_apply dot_S512x512_S512x1024_S512x1024_1_0_0_1_n_n rfl rfl rfl rfl rfl rfl none a wx (ix2 p q),
    Cert.LibDot.matmul_zero_plain_apply dot_S512x1024_S1024x1024_S512x1024_1_0_0_1_n_n rfl rfl rfl rfl rfl rfl none b wh (ix2 p q),
    broadcastTo_1b_ab_apply bias broadcasts_S1x1024_S512x1024 p q]

end Cert.KernelIdeal.Val

end
-- ==== Proof.LibColumn.lean ====
/-
  A column of per-row values laid beside a matrix, read at an index.

  A reduction over a matrix's second axis with the axis kept ("keepdims") leaves one value per row, stored as a
  vector of length a, re-cast as an a × 1 column, and then broadcast across the b columns of the matrix it is
  combined with.  At entry (p, c) each of these re-layings reads the one value of row p: the cast keeps the row-major
  position, and the broadcast reads a unit axis at coordinate 0 whatever the column.
-/
import Idealize.ShloMosaic.Lib.Pipeline.Value
import Idealize.ShloMosaic.Lib.ValueIdx

namespace Cert.LibColumn

open Idealize.ShloMosaic Idealize.ShloMosaic.ValueIdx

variable {α : Type}

/-- A vector of length `a` cast to an `a × 1` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column cast to itself is itself. -/
theorem shapeCast_a1_a1_apply {a : ℕ} (x : (⟨2, ![a, 1]⟩ : Shape).Idx → α) (h : (⟨2, ![a, 1]⟩ : Shape).ShapeCasts ⟨2, ![a, 1]⟩)
    (j : (⟨2, ![a, 1]⟩ : Shape).Idx) : shapeCast ⟨2, ![a, 1]⟩ x h j = x j := by
  rw [shapeCast_self]

/-- An `a × 1` column broadcast across `b` columns reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Cert.LibColumn
-- ==== Proof.LibRows.lean ====
/-
  Rows of a matrix, read at an index, on the extended reals.

  For an a × b matrix v: the sum along the second axis, read at row p, is the sum over k of v (p, k); the maximum
  along the second axis, read at row p, is the fold of max over k of v (p, k) from the start value the accumulator
  word denotes; and one value per row, re-cast as an a × 1 column and laid across c columns ("keepdims", then a
  broadcast), reads at (p, q) the value of row p.  The index of the matrix that a row index with the coordinate k
  put back on the second axis names is (p, k).  All for any extents; nothing is evaluated.
-/
import proofs.«167787_j30270929502695_2_alg».proof.Proof.LibColumn
import Idealize.ShloMosaic.Lib.ValueIdx
import Idealize.ShloMosaic.Lib.Pipeline.Value
import Idealize.ShloMosaic.PureOps.Ideal.Laws

noncomputable section

namespace Cert.LibRows

open Idealize.ShloMosaic Idealize.ShloMosaic.ValueIdx

variable {a b : ℕ}

/-- The index of a matrix over row p with coordinate k put on the second axis is (p, k). -/
theorem lift_row (h : (⟨2, ![a, b]⟩ : Shape).Reduces [1] ⟨1, ![a]⟩) (p : Fin a) (k : Fin b) :
    h.lift (ix1 p) k = ix2 p k := by
  funext c
  match c with
  | ⟨0, _⟩ => exact Fin.ext rfl
  | ⟨1, _⟩ => exact Fin.ext rfl

/-- A sum along the second axis, read at row p: the sum of the row's entries. -/
theorem rowSum_apply {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (lift_row h p k))

/-- A maximum along the second axis, read at row p: the fold of max over the row's entries from the start value. -/
theorem rowMaxf_apply {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ v acc h hφ hacc (ix1 p)
      = (Finset.univ : Finset (Fin b)).fold max (Ideal.ofBits φ acc) (fun k => v (ix2 p k)) :=
  (Ideal.multiReduction_maximumf_single v acc h hφ hacc (ix1 p)).trans
    (Finset.fold_congr fun k _ => congrArg v (lift_row h p k))

/-- One value per row, re-cast as a column and laid across c columns, read at (p, q): the value of row p. -/
theorem column_apply {α : Type} {c : ℕ} (u : (⟨1, ![a]⟩ : Shape).Idx → α)
    (hc : (⟨1, ![a]⟩ : Shape).ShapeCasts ⟨2, ![a, 1]⟩) (hb : (⟨2, ![a, 1]⟩ : Shape).Broadcasts ⟨2, ![a, c]⟩)
    (p : Fin a) (q : Fin c) :
    broadcastTo ⟨2, ![a, c]⟩ (shapeCast ⟨2, ![a, 1]⟩ u hc) hb (ix2 p q) = u (ix1 p) :=
  (Cert.LibColumn.broadcastTo_a1_ab_apply (shapeCast ⟨2, ![a, 1]⟩ u hc) hb p q).trans
    (Cert.LibColumn.shapeCast_a_a1_apply u hc p 0)

end Cert.LibRows

end
-- ==== Proof.ValKI.Pay0.lean ====
/-
  Region 0's three stored values, read at an entry of the block. Each output window gets one store through its whole
  staging buffer, so what is left there is the stored value itself. The stored values are pointwise in the four gates'
  pre-activations: the cell value is σ(f)·c + σ(i)·tanh(g) with the previous cell row c, the hidden value σ(o)·tanh of
  that (its rounding to bf16 changes nothing on the extended reals), and a row's logit is the sum along the row of the
  hidden values against the attention weights — a sum from the zero word, re-cast as a column — plus the attention
  bias laid down the column. Every gate is the one pre-activation lemma at that gate's group of 1024 columns.
-/
import proofs.«167787_j30270929502695_2_alg».proof.Proof.ValKI.Pay0Loads
import proofs.«167787_j30270929502695_2_alg».proof.Proof.ValKI.Pay0Gate
import proofs.«167787_j30270929502695_2_alg».proof.Proof.LibRows
import Idealize.ShloMosaic.Lib.ValueLayout

noncomputable section

open scoped BigOperators

namespace Cert.KernelIdeal.Val

open Cert.KernelIdeal Cert.KernelIdeal.Gen Cert.KernelIdeal.Fr
open Idealize.ShloMosaic Idealize.ShloMosaic.ValueIdx

/-! ## The stored values over variables: pointwise in the pre-activations -/

theorem pay1_apply (v0 : Vec Ideal S512x512 .f32) (j : S512x512.Idx) : k0_pay1 v0 j = v0 j := rfl
theorem pay2_apply (v2 : Vec Ideal S512x1024 .f32) (j : S512x1024.Idx) : k0_pay2 v2 j = v2 j := rfl

/-- The input gate: the logistic function of its pre-activation. -/
theorem pay3_apply (v0 : Vec Ideal S512x512 .f32) (v2 : Vec Ideal S512x1024 .f32) (v4 : Vec Ideal S512x1024 .bf16)
    (v7 : Vec Ideal S1024x1024 .bf16) (v11 : Vec Ideal S1x1024 .f32) (j : S512x1024.Idx) :
    k0_pay3 v0 v2 v4 v7 v11 j = Ideal.logistic (gpre (k0_pay1 v0) (k0_pay2 v2) v4 v7 v11 j) := rfl

/-- The forget gate, likewise. -/
theorem pay4_apply (v0 : Vec Ideal S512x512 .f32) (v2 : Vec Ideal S512x1024 .f32) (v16 : Vec Ideal S512x1024 .bf16)
    (v19 : Vec Ideal S1024x1024 .bf16) (v23 : Vec Ideal S1x1024 .f32) (j : S512x1024.Idx) :
    k0_pay4 v0 v2 v16 v19 v23 j = Ideal.logistic (gpre (k0_pay1 v0) (k0_pay2 v2) v16 v19 v23 j) := rfl

/-- The cell value: forget gate times the previous cell value, plus input gate times tanh of the candidate's
    pre-activation. -/
theorem pay7_apply (v1 : FVec Ideal S512x512 .bf16) (v3 : FVec Ideal S512x1024 .bf16) (v15 v27 : FVec Ideal S512x1024 .f32)
    (v40 : Vec Ideal S512x1024 .bf16) (v43 : Vec Ideal S1024x1024 .bf16) (v47 : Vec Ideal S1x1024 .f32)
    (v52 : Vec Ideal S512x1024 .f32) (j : S512x1024.Idx) :
    k0_pay7 v1 v3 v15 v27 v40 v43 v47 v52 j = v27 j * v52 j + v15 j * Ideal.tanh (gpre v1 v3 v40 v43 v47 j) := rfl

/-- The hidden value: the output gate (whose input-weight product and recurrent-weight operand the body forms
    earlier, into the same zero accumulator) times tanh of the cell value. -/
theorem pay8_apply (v0 : Vec Ideal S512x512 .f32) (v3 : FVec Ideal S512x1024 .bf16) (v15 v27 : FVec Ideal S512x1024 .f32)
    (v28 : Vec Ideal S512x1024 .bf16) (v31 : Vec Ideal S1024x1024 .bf16) (v35 : Vec Ideal S1x1024 .f32)
    (v40 : Vec Ideal S512x1024 .bf16) (v43 : Vec Ideal S1024x1024 .bf16) (v47 : Vec Ideal S1x1024 .f32)
    (v52 : Vec Ideal S512x1024 .f32) (j : S512x1024.Idx) :
    k0_pay8 (k0_pay1 v0) v3 v15 v27 (k0_pay5 v0 v28) (k0_pay6 v31) (constant S512x1024 .f32 0x00000000#32) v35 v40 v43 v47 v52 j
      = Ideal.logistic (gpre (k0_pay1 v0) v3 v28 v31 v35 j)
          * Ideal.tanh (k0_pay7 (k0_pay1 v0) v3 v15 v27 v40 v43 v47 v52 j) := rfl

/-- The stored hidden value is the hidden value: the rounding to bf16 is the identity here. -/
theorem pay10_apply (v1 : FVec Ideal S512x512 .bf16) (v3 : FVec Ideal S512x1024 .bf16) (v15 v27 v30 : FVec Ideal S512x1024 .f32)
    (v32 : FVec Ideal S1024x1024 .bf16) (cst : FVec Ideal S512x1024 .f32) (v35 : Vec Ideal S1x1024 .f32)
    (v40 : Vec Ideal S512x1024 .bf16) (v43 : Vec Ideal S1024x1024 .bf16) (v47 : Vec Ideal S1x1024 .f32)
    (v52 : Vec Ideal S512x1024 .f32) (j : S512x1024.Idx) :
    k0_pay10 v1 v3 v15 v27 v30 v32 cst v35 v40 v43 v47 v52 j = k0_pay8 v1 v3 v15 v27 v30 v32 cst v35 v40 v43 v47 v52 j := rfl

/-- A row's logit: the sum along the row of hidden value times attention weight, plus the attention bias. -/
theorem pay9_apply (v1 : FVec Ideal S512x512 .bf16) (v3 : FVec Ideal S512x1024 .bf16) (v15 v27 v30 : FVec Ideal S512x1024 .f32)
    (v32 : FVec Ideal S1024x1024 .bf16) (cst : FVec Ideal S512x1024 .f32) (v35 : Vec Ideal S1x1024 .f32)
    (v40 : Vec Ideal S512x1024 .bf16) (v43 : Vec Ideal S1024x1024 .bf16) (v47 : Vec Ideal S1x1024 .f32)
    (v52 : Vec Ideal S512x1024 .f32) (v58 : Vec Ideal S1x1024 .f32) (v63 : Vec Ideal S1x1 .f32) (p : Fin 512) :
    k0_pay9 v1 v3 v15 v27 v30 v32 cst v35 v40 v43 v47 v52 v58 v63 (ix2 p (0 : Fin 1))
      = (∑ k : Fin 1024, k0_pay8 v1 v3 v15 v27 v30 v32 cst v35 v40 v43 v47 v52 (ix2 p k) * v58 (ix2 (0 : Fin 1) k))
          + v63 (ix2 (0 : Fin 1) (0 : Fin 1)) := by
  unfold k0_pay9
  dsimp only
  refine (addf_apply _ _ _).trans ?_
  refine congrArg₂ (· + ·) ?_ ?_
  · refine (Cert.LibColumn.shapeCast_a_a1_apply _ _ p 0).trans ?_
    refine (Cert.LibRows.rowSum_apply _ _ _ _ _ p).trans ?_
    refine Finset.sum_congr rfl fun k _ => ?_
    refine (mulf_apply _ _ _).trans ?_
    exact congrArg (_ * ·) (broadcastTo_1b_ab_apply v58 broadcasts_S1x1024_S512x1024 p k)
  · refine (broadcastTo_1b_ab_apply _ broadcasts_S1x1_S512x1 p 0).trans ?_
    rw [shapeCast_self]

/-- The gate function respects entrywise equal arguments. -/
theorem gateF_congr {xr xr' : Fin 512 → EReal} {hr hr' : Fin 1024 → EReal} {wx wx' : Fin 512 → EReal}
    {wh wh' : Fin 1024 → EReal} {b b' : EReal} (h1 : ∀ k, xr k = xr' k) (h2 : ∀ k, hr k = hr' k)
    (h3 : ∀ k, wx k = wx' k) (h4 : ∀ k, wh k = wh' k) (h5 : b = b') :
    Spec.gateF xr hr wx wh b = Spec.gateF xr' hr' wx' wh' b' := by
  rw [funext h1, funext h2, funext h3, funext h4, h5]

section
variable (x0 : Vec Ideal S512x512 .f32) (x1 x2 : Vec Ideal S512x1024 .f32) (x3 : Vec Ideal S512x4096 .bf16)
  (x4 : Vec Ideal S1024x4096 .bf16) (x5 : Vec Ideal S1x4096 .f32) (x6 : Vec Ideal S1x1024 .f32) (x7 : Vec Ideal S1x1 .f32)

/-! ## The four gates of the block: the pre-activation at gate g's group of columns is the specification's -/

theorem zg0 (p : Fin 512) (q : Fin 1024) :
    gpre (k0_pay1 (View.ld x0 rX)) (k0_pay2 (View.ld x1 rB)) (View.ld x3 rWx0) (View.ld x4 rWh0) (View.ld x5 rb0) (ix2 p q)
      = zB x0 x1 x3 x4 x5 0 p q :=
  (gpre_apply _ _ _ _ _ p q).trans
    (gateF_congr (fun k => (pay1_apply _ _).trans (congrFun (ldX x0) (ix2 p k)))
      (fun k => (pay2_apply _ _).trans (congrFun (ldB x1) (ix2 p k)))
      (fun k => ldWx0 x3 k q) (fun k => ldWh0 x4 k q) (ldb0 x5 q))

theorem zg1 (p : Fin 512) (q : Fin 1024) :
    gpre (k0_pay1 (View.ld x0 rX)) (k0_pay2 (View.ld x1 rB)) (View.ld x3 rWx1) (View.ld x4 rWh1) (View.ld x5 rb1) (ix2 p q)
      = zB x0 x1 x3 x4 x5 1 p q :=
  (gpre_apply _ _ _ _ _ p q).trans
    (gateF_congr (fun k => (pay1_apply _ _).trans (congrFun (ldX x0) (ix2 p k)))
      (fun k => (pay2_apply _ _).trans (congrFun (ldB x1) (ix2 p k)))
      (fun k => ldWx1 x3 k q) (fun k => ldWh1 x4 k q) (ldb1 x5 q))

theorem zg2 (p : Fin 512) (q : Fin 1024) :
    gpre (k0_pay1 (View.ld x0 rX)) (k0_pay2 (View.ld x1 rB)) (View.ld x3 rWx2) (View.ld x4 rWh2) (View.ld x5 rb2) (ix2 p q)
      = zB x0 x1 x3 x4 x5 2 p q :=
  (gpre_apply _ _ _ _ _ p q).trans
    (gateF_congr (fun k => (pay1_apply _ _).trans (congrFun (ldX x0) (ix2 p k)))
      (fun k => (pay2_apply _ _).trans (congrFun (ldB x1) (ix2 p k)))
      (fun k => ldWx2 x3 k q) (fun k => ldWh2 x4 k q) (ldb2 x5 q))

theorem zg3 (p : Fin 512) (q : Fin 1024) :
    gpre (k0_pay1 (View.ld x0 rX)) (k0_pay2 (View.ld x1 rB)) (View.ld x3 rWx3) (View.ld x4 rWh3) (View.ld x5 rb3) (ix2 p q)
      = zB x0 x1 x3 x4 x5 3 p q :=
  (gpre_apply _ _ _ _ _ p q).trans
    (gateF_congr (fun k => (pay1_apply _ _).trans (congrFun (ldX x0) (ix2 p k)))
      (fun k => (pay2_apply _ _).trans (congrFun (ldB x1) (ix2 p k)))
      (fun k => ldWx3 x3 k q) (fun k => ldWh3 x4 k q) (ldb3 x5 q))

/-! ## The cell value, the hidden value, the logit -/

theorem cell_ix (p : Fin 512) (q : Fin 1024) :
    k0_pay7 (k0_pay1 (View.ld x0 rX)) (k0_pay2 (View.ld x1 rB))
      (k0_pay3 (View.ld x0 rX) (View.ld x1 rB) (View.ld x3 rWx0) (View.ld x4 rWh0) (View.ld x5 rb0))
      (k0_pay4 (View.ld x0 rX) (View.ld x1 rB) (View.ld x3 rWx1) (View.ld x4 rWh1) (View.ld x5 rb1))
      (View.ld x3 rWx3) (View.ld x4 rWh3) (View.ld x5 rb3) (View.ld x2 rB) (ix2 p q)
      = cB x0 x1 x2 x3 x4 x5 p q := by
  refine (pay7_apply _ _ _ _ _ _ _ _ _).trans ?_
  rw [pay3_apply, pay4_apply, zg0, zg1, zg3, ldB]
  rfl

theorem hid_ix (p : Fin 512) (q : Fin 1024) :
    k0_pay8 (k0_pay1 (View.ld x0 rX)) (k0_pay2 (View.ld x1 rB))
      (k0_pay3 (View.ld x0 rX) (View.ld x1 rB) (View.ld x3 rWx0) (View.ld x4 rWh0) (View.ld x5 rb0))
      (k0_pay4 (View.ld x0 rX) (View.ld x1 rB) (View.ld x3 rWx1) (View.ld x4 rWh1) (View.ld x5 rb1))
      (k0_pay5 (View.ld x0 rX) (View.ld x3 rWx2)) (k0_pay6 (View.ld x4 rWh2)) (constant S512x1024 .f32 0x00000000#32) (View.ld x5 rb2)
      (View.ld x3 rWx3) (View.ld x4 rWh3) (View.ld x5 rb3) (View.ld x2 rB) (ix2 p q)
      = hB x0 x1 x2 x3 x4 x5 p q := by
  refine (pay8_apply _ _ _ _ _ _ _ _ _ _ _ _).trans ?_
  rw [zg2, cell_ix]
  rfl

/-- The cell-state window at `(p, q)`. -/
theorem out0_9_ix (p : Fin 512) (q : Fin 1024) : Fr.out0_9 x0 x1 x2 x3 x4 x5 (ix2 p q) = cB x0 x1 x2 x3 x4 x5 p q := by
  unfold Fr.out0_9
  refine (congrFun (View.canon_unit_zero (S := S512x1024) hz _ _) (ix2 p q)).trans ?_
  exact cell_ix x0 x1 x2 x3 x4 x5 p q

/-- The hidden-state window at `(p, q)`. -/
theorem out0_8_ix (p : Fin 512) (q : Fin 1024) : Fr.out0_8 x0 x1 x2 x3 x4 x5 (ix2 p q) = hB x0 x1 x2 x3 x4 x5 p q := by
  unfold Fr.out0_8
  refine (congrFun (View.canon_unit_zero (S := S512x1024) hz _ _) (ix2 p q)).trans ?_
  refine (pay10_apply _ _ _ _ _ _ _ _ _ _ _ _ _).trans ?_
  exact hid_ix x0 x1 x2 x3 x4 x5 p q

/-- The logit window at row `p` (its one column). -/
theorem out0_10_ix (p : Fin 512) : Fr.out0_10 x0 x1 x2 x3 x4 x5 x6 x7 (ix2 p (0 : Fin 1)) = lB x0 x1 x2 x3 x4 x5 x6 x7 p := by
  unfold Fr.out0_10
  refine (congrFun (View.canon_unit_zero (S := S512x1) hz _ _) (ix2 p (0 : Fin 1))).trans ?_
  refine (pay9_apply _ _ _ _ _ _ _ _ _ _ _ _ _ _ p).trans ?_
  unfold lB Spec.logitF
  rw [ldWa, ldba]
  refine congrArg (· + _) (Finset.sum_congr rfl fun k _ => ?_)
  rw [hid_ix]

/-! ## The same at an index of the window -/

theorem out0_9_apply (y : S512x1024.Idx) : Fr.out0_9 x0 x1 x2 x3 x4 x5 y = cB x0 x1 x2 x3 x4 x5 (y 0) (y 1) := by
  obtain ⟨p, q, rfl⟩ : ∃ (p : Fin 512) (q : Fin 1024), y = ix2 p q := ⟨y 0, y 1, eq_ix2 y⟩
  exact out0_9_ix x0 x1 x2 x3 x4 x5 p q

theorem out0_8_apply (y : S512x1024.Idx) : Fr.out0_8 x0 x1 x2 x3 x4 x5 y = hB x0 x1 x2 x3 x4 x5 (y 0) (y 1) := by
  obtain ⟨p, q, rfl⟩ : ∃ (p : Fin 512) (q : Fin 1024), y = ix2 p q := ⟨y 0, y 1, eq_ix2 y⟩
  exact out0_8_ix x0 x1 x2 x3 x4 x5 p q

theorem out0_10_apply (y : S512x1.Idx) : Fr.out0_10 x0 x1 x2 x3 x4 x5 x6 x7 y = lB x0 x1 x2 x3 x4 x5 x6 x7 (y 0) := by
  obtain ⟨p, u, rfl⟩ : ∃ (p : Fin 512) (u : Fin 1), y = ix2 p u := ⟨y 0, y 1, eq_ix2 y⟩
  obtain rfl : u = 0 := Subsingleton.elim _ _
  exact out0_10_ix x0 x1 x2 x3 x4 x5 x6 x7 p
end

end Cert.KernelIdeal.Val

end
-- ==== Proof.ValKI.Region0.lean ====
/-
  What the cell kernel leaves in its three output arrays. At grid point t the three output blocks are batch rows
  512·t … 512·t + 511 of the hidden-state, cell-state and logit arrays; the body's stored values at row p of the block are
  the hidden, cell and logit values of the arrays the region found, at row 512·t + p. So each block written back is the
  restriction of the whole-array function (`hidK`, `cellK`, `logitK`) to those rows; the 32 blocks cover every row
  (row r is in block r / 512), hence each array ends holding its function.
-/
import proofs.«167787_j30270929502695_2_alg».proof.Proof.ValKI.Defs
import proofs.«167787_j30270929502695_2_alg».proof.Proof.ValKI.Rows0
import proofs.«167787_j30270929502695_2_alg».proof.Proof.ValKI.Blocks0
import proofs.«167787_j30270929502695_2_alg».proof.Proof.ValKI.Pay0
import Idealize.ShloMosaic.Lib.Pipeline.Value

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b)) (c : Dev nD)

/-! ## The stored blocks at an entry, as the whole-array functions at the entry's row -/

/-- The cell block at (p, q) of point t is the cell array's function at any index j whose row is 512·t + p and whose
    unit is q. -/
theorem stored0_9 (t : Fin cfg0.N) (p : Fin 512) (q : Fin 1024) (j : S16384x1024.Idx)
    (hj0 : (j 0).val = 512 * t.val + p.val) (hj1 : (j 1).val = q.val) :
    out0_9 (iblk0 V c 0 t) (iblk0 V c 1 t) (iblk0 V c 2 t) (iblk0 V c 3 t) (iblk0 V c 4 t) (iblk0 V c 5 t) (ix2 p q) = cellK V c j := by
  obtain ⟨i, q', rfl⟩ : ∃ (i : Fin 16384) (q' : Fin 1024), j = ix2 i q' := ⟨j 0, j 1, eq_ix2 j⟩
  have hi : i.val = 512 * t.val + p.val := hj0
  obtain rfl : q' = q := Fin.ext hj1
  refine (out0_9_apply _ _ _ _ _ _ (ix2 p q')).trans ?_
  refine (cB_rows (V c main_arg0) (V c main_arg1) (V c main_arg2) (V c main_v4) (V c main_v7) (V c main_v8)
    (iblk0 V c 0 t) (iblk0 V c 1 t) (iblk0 V c 2 t) (iblk0 V c 3 t) (iblk0 V c 4 t) (iblk0 V c 5 t) p i
    (fun k => iblk0_0_apply V c t p k i hi) (fun k => iblk0_1_apply V c t p k i hi) (fun k => iblk0_2_apply V c t p k i hi) (iblk0_3_eq V c t) (iblk0_4_eq V c t) (iblk0_5_eq V c t) q').trans ?_
  rfl

/-- The hidden block at (p, q) of point t is the hidden array's function at the index of row 512·t + p, unit q. -/
theorem stored0_8 (t : Fin cfg0.N) (p : Fin 512) (q : Fin 1024) (j : S16384x1024.Idx)
    (hj0 : (j 0).val = 512 * t.val + p.val) (hj1 : (j 1).val = q.val) :
    out0_8 (iblk0 V c 0 t) (iblk0 V c 1 t) (iblk0 V c 2 t) (iblk0 V c 3 t) (iblk0 V c 4 t) (iblk0 V c 5 t) (ix2 p q) = hidK V c j := by
  obtain ⟨i, q', rfl⟩ : ∃ (i : Fin 16384) (q' : Fin 1024), j = ix2 i q' := ⟨j 0, j 1, eq_ix2 j⟩
  have hi : i.val = 512 * t.val + p.val := hj0
  obtain rfl : q' = q := Fin.ext hj1
  refine (out0_8_apply _ _ _ _ _ _ (ix2 p q')).trans ?_
  refine (hB_rows (V c main_arg0) (V c main_arg1) (V c main_arg2) (V c main_v4) (V c main_v7) (V c main_v8)
    (iblk0 V c 0 t) (iblk0 V c 1 t) (iblk0 V c 2 t) (iblk0 V c 3 t) (iblk0 V c 4 t) (iblk0 V c 5 t) p i
    (fun k => iblk0_0_apply V c t p k i hi) (fun k => iblk0_1_apply V c t p k i hi) (fun k => iblk0_2_apply V c t p k i hi) (iblk0_3_eq V c t) (iblk0_4_eq V c t) (iblk0_5_eq V c t) q').trans ?_
  rfl

/-- The logit block at row p of point t is the logit column's function at the index of row 512·t + p. -/
theorem stored0_10 (t : Fin cfg0.N) (p : Fin 512) (j : S16384x1.Idx) (hj0 : (j 0).val = 512 * t.val + p.val) :
    out0_10 (iblk0 V c 0 t) (iblk0 V c 1 t) (iblk0 V c 2 t) (iblk0 V c 3 t) (iblk0 V c 4 t) (iblk0 V c 5 t) (iblk0 V c 6 t) (iblk0 V c 7 t) (ix2 p (0 : Fin 1)) = logitK V c j := by
  obtain ⟨i, u, rfl⟩ : ∃ (i : Fin 16384) (u : Fin 1), j = ix2 i u := ⟨j 0, j 1, eq_ix2 j⟩
  have hi : i.val = 512 * t.val + p.val := hj0
  refine (out0_10_apply _ _ _ _ _ _ _ _ (ix2 p (0 : Fin 1))).trans ?_
  refine (lB_rows (V c main_arg0) (V c main_arg1) (V c main_arg2) (V c main_v4) (V c main_v7) (V c main_v8) (V c main_arg11) (V c main_v9)
    (iblk0 V c 0 t) (iblk0 V c 1 t) (iblk0 V c 2 t) (iblk0 V c 3 t) (iblk0 V c 4 t) (iblk0 V c 5 t) (iblk0 V c 6 t) (iblk0 V c 7 t) p i
    (fun k => iblk0_0_apply V c t p k i hi) (fun k => iblk0_1_apply V c t p k i hi) (fun k => iblk0_2_apply V c t p k i hi) (iblk0_3_eq V c t) (iblk0_4_eq V c t) (iblk0_5_eq V c t) (iblk0_6_eq V c t) (iblk0_7_eq V c t)).trans ?_
  rfl

/-! ## The blocks written back -/

/-- An index of a one-column block is its row with column 0. -/
theorem col_eq (y : S512x1.Idx) : y = ix2 (y 0) (0 : Fin 1) := by
  funext a
  match a with
  | ⟨0, _⟩ => rfl
  | ⟨1, _⟩ => exact Fin.ext (Nat.lt_one_iff.mp (y 1).isLt)

/-- The hidden block point t writes back is block t of the hidden array's function. -/
theorem flushed0_8 (t : Fin cfg0.N) :
    (dat0 V c).flushed 8 t = ((cfg0.win 8).blk t).view.read (Elt Ideal) (hidK V c) := by
  obtain ⟨-, -, -, -, -, -, -, -, -, -, -, -, -, -, -, -, e0, e1, -⟩ := idx0 t
  show (cfg0.win 8).cut (grid0.coords t) ((dat0 V c).after 8 t) = _
  rw [after0_8]
  funext y
  rw [View.read_apply]
  show out0_8 (iblk0 V c 0 t) (iblk0 V c 1 t) (iblk0 V c 2 t) (iblk0 V c 3 t) (iblk0 V c 4 t) (iblk0 V c 5 t) y = hidK V c (((cfg0.win 8).blk t).view.emb y)
  have ey : y = ix2 (y 0) (y 1) := eq_ix2 (n0 := 512) (n1 := 1024) y
  rw [ey]
  refine stored0_8 V c t (y 0) (y 1) _ ?_ ?_
  · show win0_8.index t (0 : Fin 2) * 512 + 1 * (y 0).val = 512 * t.val + (y 0).val; rw [e0]; omega
  · show win0_8.index t (1 : Fin 2) * 1024 + 1 * (y 1).val = (y 1).val; rw [e1]; omega

/-- The cell block point t writes back is block t of the cell array's function. -/
theorem flushed0_9 (t : Fin cfg0.N) :
    (dat0 V c).flushed 9 t = ((cfg0.win 9).blk t).view.read (Elt Ideal) (cellK V c) := by
  obtain ⟨-, -, -, -, -, -, -, -, -, -, -, -, -, -, -, -, -, -, e0, e1, -⟩ := idx0 t
  show (cfg0.win 9).cut (grid0.coords t) ((dat0 V c).after 9 t) = _
  rw [after0_9]
  funext y
  rw [View.read_apply]
  show out0_9 (iblk0 V c 0 t) (iblk0 V c 1 t) (iblk0 V c 2 t) (iblk0 V c 3 t) (iblk0 V c 4 t) (iblk0 V c 5 t) y = cellK V c (((cfg0.win 9).blk t).view.emb y)
  have ey : y = ix2 (y 0) (y 1) := eq_ix2 (n0 := 512) (n1 := 1024) y
  rw [ey]
  refine stored0_9 V c t (y 0) (y 1) _ ?_ ?_
  · show win0_9.index t (0 : Fin 2) * 512 + 1 * (y 0).val = 512 * t.val + (y 0).val; rw [e0]; omega
  · show win0_9.index t (1 : Fin 2) * 1024 + 1 * (y 1).val = (y 1).val; rw [e1]; omega

/-- The logit block point t writes back is block t of the logit column's function. -/
theorem flushed0_10 (t : Fin cfg0.N) :
    (dat0 V c).flushed 10 t = ((cfg0.win 10).blk t).view.read (Elt Ideal) (logitK V c) := by
  obtain ⟨-, -, -, -, -, -, -, -, -, -, -, -, -, -, -, -, -, -, -, -, e0, e1, -⟩ := idx0 t
  show (cfg0.win 10).cut (grid0.coords t) ((dat0 V c).after 10 t) = _
  rw [after0_10]
  funext y
  rw [View.read_apply]
  show out0_10 (iblk0 V c 0 t) (iblk0 V c 1 t) (iblk0 V c 2 t) (iblk0 V c 3 t) (iblk0 V c 4 t) (iblk0 V c 5 t) (iblk0 V c 6 t) (iblk0 V c 7 t) y = logitK V c (((cfg0.win 10).blk t).view.emb y)
  have ey : y = ix2 (y 0) (0 : Fin 1) := col_eq y
  rw [ey]
  refine stored0_10 V c t (y 0) _ ?_
  show win0_10.index t (0 : Fin 2) * 512 + 1 * (y 0).val = 512 * t.val + (y 0).val; rw [e0]; omega

/-! ## The covers -/

/-- An index of the hidden array is in point t's block iff each coordinate is in the block's range on its axis. -/
theorem mem_blk0_8 (t : Fin cfg0.N) (i : S16384x1024.Idx) :
    i ∈ ((cfg0.win 8).blk t).view.set ↔ ∀ a : Fin 2, win0_8.index t a * S512x1024.size a ≤ (i a).val
      ∧ (i a).val < win0_8.index t a * S512x1024.size a + S512x1024.size a := by
  show i ∈ ((View.whole main_v10_0).slice (win0_8.rect t)).set ↔ _
  rw [View.set_slice_whole, Rect.mem_set_unit]
  exact Iff.rfl

/-- Every index of the hidden array is in some point's block: row r is in block r / 512. -/
theorem cover0_8_arr (i : S16384x1024.Idx) :
    ∃ t : Fin cfg0.N, (cfg0.win 8).flush t = true ∧ i ∈ ((cfg0.win 8).blk t).view.set := by
  have hi0 : (i 0).val < 16384 := idx2_lt0 i
  have hi1 : (i 1).val < 1024 := idx2_lt1 i
  have hN : cfg0.N = 32 := N_0
  obtain ⟨t, ht⟩ : ∃ t : Fin cfg0.N, t.val = (i 0).val / 512 := ⟨⟨(i 0).val / 512, by rw [hN]; omega⟩, rfl⟩
  obtain ⟨-, -, -, -, -, -, -, -, -, -, -, -, -, -, -, -, e0, e1, -⟩ := idx0 t
  refine ⟨t, flush0_8 t, ?_⟩
  rw [mem_blk0_8]
  intro a
  match a with
  | ⟨0, _⟩ =>
    show win0_8.index t (0 : Fin 2) * 512 ≤ (i 0).val ∧ (i 0).val < win0_8.index t (0 : Fin 2) * 512 + 512
    rw [e0, ht]; omega
  | ⟨1, _⟩ =>
    show win0_8.index t (1 : Fin 2) * 1024 ≤ (i 1).val ∧ (i 1).val < win0_8.index t (1 : Fin 2) * 1024 + 1024
    rw [e1]; omega

/-- An index of the cell array is in point t's block iff each coordinate is in the block's range on its axis. -/
theorem mem_blk0_9 (t : Fin cfg0.N) (i : S16384x1024.Idx) :
    i ∈ ((cfg0.win 9).blk t).view.set ↔ ∀ a : Fin 2, win0_9.index t a * S512x1024.size a ≤ (i a).val
      ∧ (i a).val < win0_9.index t a * S512x1024.size a + S512x1024.size a := by
  show i ∈ ((View.whole main_v10_1).slice (win0_9.rect t)).set ↔ _
  rw [View.set_slice_whole, Rect.mem_set_unit]
  exact Iff.rfl

/-- Every index of the cell array is in some point's block. -/
theorem cover0_9_arr (i : S16384x1024.Idx) :
    ∃ t : Fin cfg0.N, (cfg0.win 9).flush t = true ∧ i ∈ ((cfg0.win 9).blk t).view.set := by
  have hi0 : (i 0).val < 16384 := idx2_lt0 i
  have hi1 : (i 1).val < 1024 := idx2_lt1 i
  have hN : cfg0.N = 32 := N_0
  obtain ⟨t, ht⟩ : ∃ t : Fin cfg0.N, t.val = (i 0).val / 512 := ⟨⟨(i 0).val / 512, by rw [hN]; omega⟩, rfl⟩
  obtain ⟨-, -, -, -, -, -, -, -, -, -, -, -, -, -, -, -, -, -, e0, e1, -⟩ := idx0 t
  refine ⟨t, flush0_9 t, ?_⟩
  rw [mem_blk0_9]
  intro a
  match a with
  | ⟨0, _⟩ =>
    show win0_9.index t (0 : Fin 2) * 512 ≤ (i 0).val ∧ (i 0).val < win0_9.index t (0 : Fin 2) * 512 + 512
    rw [e0, ht]; omega
  | ⟨1, _⟩ =>
    show win0_9.index t (1 : Fin 2) * 1024 ≤ (i 1).val ∧ (i 1).val < win0_9.index t (1 : Fin 2) * 1024 + 1024
    rw [e1]; omega

/-- An index of the logit column is in point t's block iff each coordinate is in the block's range on its axis. -/
theorem mem_blk0_10 (t : Fin cfg0.N) (i : S16384x1.Idx) :
    i ∈ ((cfg0.win 10).blk t).view.set ↔ ∀ a : Fin 2, win0_10.index t a * S512x1.size a ≤ (i a).val
      ∧ (i a).val < win0_10.index t a * S512x1.size a + S512x1.size a := by
  show i ∈ ((View.whole main_v10_2).slice (win0_10.rect t)).set ↔ _
  rw [View.set_slice_whole, Rect.mem_set_unit]
  exact Iff.rfl

/-- Every index of the logit column is in some point's block. -/
theorem cover0_10_arr (i : S16384x1.Idx) :
    ∃ t : Fin cfg0.N, (cfg0.win 10).flush t = true ∧ i ∈ ((cfg0.win 10).blk t).view.set := by
  have hi0 : (i 0).val < 16384 := idx2_lt0 i
  have hi1 : (i 1).val < 1 := idx2_lt1 i
  have hN : cfg0.N = 32 := N_0
  obtain ⟨t, ht⟩ : ∃ t : Fin cfg0.N, t.val = (i 0).val / 512 := ⟨⟨(i 0).val / 512, by rw [hN]; omega⟩, rfl⟩
  obtain ⟨-, -, -, -, -, -, -, -, -, -, -, -, -, -, -, -, -, -, -, -, e0, e1, -⟩ := idx0 t
  refine ⟨t, flush0_10 t, ?_⟩
  rw [mem_blk0_10]
  intro a
  match a with
  | ⟨0, _⟩ =>
    show win0_10.index t (0 : Fin 2) * 512 ≤ (i 0).val ∧ (i 0).val < win0_10.index t (0 : Fin 2) * 512 + 512
    rw [e0, ht]; omega
  | ⟨1, _⟩ =>
    show win0_10.index t (1 : Fin 2) * 1 ≤ (i 1).val ∧ (i 1).val < win0_10.index t (1 : Fin 2) * 1 + 1
    rw [e1]; omega

/-! ## The arrays after the region -/

/-- The hidden array after the region. -/
theorem final0_8 : ((dat0 V c).arrAt 8 cfg0.N : S16384x1024.Idx → EReal) = hidK V c :=
  (dat0 V c).arrAt_eq_of_cover 8 (hidK V c) (fun t _ => flushed0_8 V c t) (cover0_8_arr)

/-- The cell array after the region. -/
theorem final0_9 : ((dat0 V c).arrAt 9 cfg0.N : S16384x1024.Idx → EReal) = cellK V c :=
  (dat0 V c).arrAt_eq_of_cover 9 (cellK V c) (fun t _ => flushed0_9 V c t) (cover0_9_arr)

/-- The logit column after the region. -/
theorem final0_10 : ((dat0 V c).arrAt 10 cfg0.N : S16384x1.Idx → EReal) = logitK V c :=
  (dat0 V c).arrAt_eq_of_cover 10 (logitK V c) (fun t _ => flushed0_10 V c t) (cover0_10_arr)

end Cert.KernelIdeal.Val

end
-- ==== Proof.ValKI.Pay1.lean ====
/-
  The highway kernel's stored value, read at an entry of a block. With the blocks of the seven windows as variables —
  the input rows, the hidden rows, the column of attention weights, the two transposed weight matrices and their bias
  rows — the value at row p, unit q is the mix: the gate σ(x·w_g + b_g) times the transform x·w_t + b_t, plus one
  minus the gate times the hidden value scaled by the row's attention weight. The roundings on the way into the two
  products and out of the stored hidden state are the identity on the extended reals; each product into the zero
  accumulator is the plain sum over the 512 input coordinates.
-/
import proofs.«167787_j30270929502695_2_alg».proof.Proof.Gen.KernelIdeal.Skeleton
import proofs.«167787_j30270929502695_2_alg».proof.Proof.Spec
import proofs.«167787_j30270929502695_2_alg».proof.Proof.LibDot
import proofs.«167787_j30270929502695_2_alg».proof.Proof.LibColumn
import Idealize.ShloMosaic.Lib.ValueLayout

noncomputable section

namespace Cert.KernelIdeal.Val

open Cert.KernelIdeal Cert.KernelIdeal.Gen
open Idealize.ShloMosaic Idealize.ShloMosaic.ValueIdx

/-- The word of 1.0 denotes one. -/
theorem one_word : Ideal.ofBits .f32 0x3F800000#32 = 1 := by
  simp [Ideal.ofBits, Ideal.ieee, -EReal.coe_mul]; norm_num

/-- A 512 × 512 by 512 × 1024 product into the zero accumulator, at (p, q): the sum over the contracted coordinate. -/
theorem mm512_apply (l : FVec Ideal S512x512 .bf16) (r : FVec Ideal S512x1024 .bf16) (p : Fin 512) (q : Fin 1024) :
    matmul dot_S512x512_S512x1024_S512x1024_1_0_0_1_n_n none l r (constant S512x1024 .f32 0x00000000#32) (ix2 p q)
      = ∑ k : Fin 512, l (ix2 p k) * r (ix2 k q) :=
  Cert.LibDot.matmul_zero_plain_apply dot_S512x512_S512x1024_S512x1024_1_0_0_1_n_n rfl rfl rfl rfl rfl rfl none l r (ix2 p q)

/-- A bias row laid over the 512 rows of a block, at (p, q): the row's entry q. -/
theorem rowb_apply (v : FVec Ideal S1x1024 .f32) (p : Fin 512) (q : Fin 1024) :
    broadcastTo S512x1024 v broadcasts_S1x1024_S512x1024 (ix2 p q) = v (ix2 (0 : Fin 1) q) :=
  broadcastTo_1b_ab_apply v broadcasts_S1x1024_S512x1024 p q

/-- A column of per-row weights laid across the 1024 units, at (p, q): the column's entry of row p. -/
theorem colb_apply (v : FVec Ideal S512x1 .f32) (p : Fin 512) (q : Fin 1024) :
    broadcastTo S512x1024 v broadcasts_S512x1_S512x1024 (ix2 p q) = v (ix2 p (0 : Fin 1)) :=
  Cert.LibColumn.broadcastTo_a1_ab_apply v broadcasts_S512x1_S512x1024 p q

section
variable (x0 : Vec Ideal S512x512 .f32) (x1 : Vec Ideal S512x1024 .bf16) (x2 : Vec Ideal S512x1 .f32)
  (x3 : Vec Ideal S512x1024 .bf16) (x4 : Vec Ideal S1x1024 .f32) (x5 : Vec Ideal S512x1024 .bf16) (x6 : Vec Ideal S1x1024 .f32)

/-- The mix at row p, unit q of a block, from the seven windows' blocks. -/
def mixB (p : Fin 512) (q : Fin 1024) : EReal :=
  Spec.mixF (fun k => x0 (ix2 p k)) (fun k => x3 (ix2 k q)) (fun k => x5 (ix2 k q)) (x4 (ix2 (0 : Fin 1) q)) (x6 (ix2 (0 : Fin 1) q))
    (x1 (ix2 p q) * x2 (ix2 p (0 : Fin 1)))

/-- The kernel's stored value at (p, q) is the mix there. -/
theorem k1_pay1_apply (p : Fin 512) (q : Fin 1024) :
    k1_pay1 x0 x1 x2 x3 x4 x5 x6 (ix2 p q) = mixB x0 x1 x2 x3 x4 x5 x6 p q := by
  unfold k1_pay1
  simp only [shapeCast_self]
  show Ideal.logistic (matmul (F := Ideal) dot_S512x512_S512x1024_S512x1024_1_0_0_1_n_n none (truncf (F := Ideal) .bf16 x0 bitsLt_bf16_f32) x5 (constant S512x1024 .f32 0x00000000#32) (ix2 p q)
          + broadcastTo S512x1024 x6 broadcasts_S1x1024_S512x1024 (ix2 p q))
        * (matmul (F := Ideal) dot_S512x512_S512x1024_S512x1024_1_0_0_1_n_n none (truncf (F := Ideal) .bf16 x0 bitsLt_bf16_f32) x3 (constant S512x1024 .f32 0x00000000#32) (ix2 p q)
          + broadcastTo S512x1024 x4 broadcasts_S1x1024_S512x1024 (ix2 p q))
      + (Ideal.ofBits .f32 0x3F800000#32
          - Ideal.logistic (matmul (F := Ideal) dot_S512x512_S512x1024_S512x1024_1_0_0_1_n_n none (truncf (F := Ideal) .bf16 x0 bitsLt_bf16_f32) x5 (constant S512x1024 .f32 0x00000000#32) (ix2 p q)
            + broadcastTo S512x1024 x6 broadcasts_S1x1024_S512x1024 (ix2 p q)))
        * (x1 (ix2 p q) * broadcastTo S512x1024 x2 broadcasts_S512x1_S512x1024 (ix2 p q)) = _
  rw [mm512_apply, mm512_apply, rowb_apply, rowb_apply, colb_apply, one_word]
  rfl

end

end Cert.KernelIdeal.Val

end
-- ==== Proof.ValKI.Region1.lean ====
/-
  What the highway kernel leaves in its output array. The grid has 32 points; point t works on batch rows 512·t … 512·t + 511:
  its blocks of the input, of the hidden state and of the attention-weight column are those rows of their arrays, the two
  transposed weight matrices and their bias rows are staged whole at every point, and the block written back is those
  rows of the output. So the block point t writes back is the restriction of the array of mixes (`outK`) to those rows;
  the 32 blocks cover every row (row r is in block r / 512), hence the array ends holding `outK`.
-/
import proofs.«167787_j30270929502695_2_alg».proof.Proof.ValKI.Defs
import proofs.«167787_j30270929502695_2_alg».proof.Proof.ValKI.Pay1
import Idealize.ShloMosaic.Lib.Pipeline.Value

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

/-- The zero offsets of a whole-buffer rectangle, as a constant function. -/
theorem zeroOff1 : (![0, 0] : Fin 2 → Nat) = fun _ => 0 := funext fun a => by fin_cases a <;> rfl

/-! ## The body's stored block from the windows' blocks -/

section
variable (x0 : Vec Ideal S512x512 .f32) (x1 : Vec Ideal S512x1024 .bf16) (x2 : Vec Ideal S512x1 .f32)
  (x3 : Vec Ideal S512x1024 .bf16) (x4 : Vec Ideal S1x1024 .f32) (x5 : Vec Ideal S512x1024 .bf16) (x6 : Vec Ideal S1x1024 .f32)

/-- The output's staging buffer after the body, at (p, q): every load and the one store go through whole buffers, so it
    is the stored value of the blocks themselves. -/
theorem out1_7_apply (p : Fin 512) (q : Fin 1024) :
    out1_7 x0 x1 x2 x3 x4 x5 x6 (ix2 p q) = mixB x0 x1 x2 x3 x4 x5 x6 p q := by
  unfold out1_7
  rw [View.canon_unit_zero zeroOff1]
  simp only [View.ld_unit_zero (S := S512x512) zeroOff1, View.ld_unit_zero (S := S512x1024) zeroOff1,
    View.ld_unit_zero (S := S512x1) zeroOff1, View.ld_unit_zero (S := S1x1024) zeroOff1]
  exact k1_pay1_apply x0 x1 x2 x3 x4 x5 x6 p q

/-- The mix of a block at (p, q) reads only row p of the row-indexed blocks and column q of the weights: when those
    agree with row i of whole arrays, it is the mix of the arrays' row i. -/
theorem mixB_of_rows (a0 : S16384x512.Idx → EReal) (a1 : S16384x1024.Idx → EReal) (a2 : S16384x1.Idx → EReal)
    (a3 : S512x1024.Idx → EReal) (a4 : S1x1024.Idx → EReal) (a5 : S512x1024.Idx → EReal) (a6 : S1x1024.Idx → EReal)
    (p : Fin 512) (q : Fin 1024) (i : Fin 16384)
    (h0 : ∀ k, x0 (ix2 p k) = a0 (ix2 i k)) (h1 : x1 (ix2 p q) = a1 (ix2 i q)) (h2 : x2 (ix2 p (0 : Fin 1)) = a2 (ix2 i (0 : Fin 1)))
    (h3 : ∀ k, x3 (ix2 k q) = a3 (ix2 k q)) (h4 : x4 (ix2 (0 : Fin 1) q) = a4 (ix2 (0 : Fin 1) q))
    (h5 : ∀ k, x5 (ix2 k q) = a5 (ix2 k q)) (h6 : x6 (ix2 (0 : Fin 1) q) = a6 (ix2 (0 : Fin 1) q)) :
    mixB x0 x1 x2 x3 x4 x5 x6 p q
      = Spec.mixF (fun k => a0 (ix2 i k)) (fun k => a3 (ix2 k q)) (fun k => a5 (ix2 k q)) (a4 (ix2 (0 : Fin 1) q)) (a6 (ix2 (0 : Fin 1) q))
          (a1 (ix2 i q) * a2 (ix2 i (0 : Fin 1))) := by
  unfold mixB
  rw [funext h0, funext h3, funext h5, h1, h2, h4, h6]
end

variable (V : (c : Dev nD) → (b : Ref sig .tc) → Buf (Elt Ideal) ((c : Thread nD τ).loc b)) (c : Dev nD)

/-! ## The windows' blocks as rows of their arrays -/

/-- The printed index maps over the grid: the row-indexed windows are at block t on the batch axis and block 0 on the
    other; the weight and bias windows are at block 0 on both. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- The input's block at point t, at (p, k): the input at row 512·t + p. -/
theorem iblk1_0_apply (t : Fin cfg1.N) (p : Fin 512) (k : Fin 512) (i : Fin 16384) (hi : i.val = 512 * t.val + p.val) :
    (iblk1 V c 0 t : S512x512.Idx → EReal) (ix2 p k) = (V c main_arg0 : S16384x512.Idx → EReal) (ix2 i k) := by
  obtain ⟨e0, e1, -⟩ := idx1 t
  unfold iblk1
  rw [View.read_apply]
  show (V c main_arg0 : S16384x512.Idx → EReal) _ = _
  refine congrArg _ (funext fun a => Fin.ext ?_)
  match a with
  | ⟨0, _⟩ => show win1_0.index t (0 : Fin 2) * 512 + 1 * p.val = i.val; rw [e0, hi]; omega
  | ⟨1, _⟩ => show win1_0.index t (1 : Fin 2) * 512 + 1 * k.val = k.val; rw [e1]; omega

/-- The hidden state's block at point t, at (p, q): the hidden state at row 512·t + p. -/
theorem iblk1_1_apply (t : Fin cfg1.N) (p : Fin 512) (q : Fin 1024) (i : Fin 16384) (hi : i.val = 512 * t.val + p.val) :
    (iblk1 V c 1 t : S512x1024.Idx → EReal) (ix2 p q) = (V c main_v10_0 : S16384x1024.Idx → EReal) (ix2 i q) := by
  obtain ⟨-, -, e0, e1, -⟩ := idx1 t
  unfold iblk1
  rw [View.read_apply]
  show (V c main_v10_0 : S16384x1024.Idx → EReal) _ = _
  refine congrArg _ (funext fun a => Fin.ext ?_)
  match a with
  | ⟨0, _⟩ => show win1_1.index t (0 : Fin 2) * 512 + 1 * p.val = i.val; rw [e0, hi]; omega
  | ⟨1, _⟩ => show win1_1.index t (1 : Fin 2) * 1024 + 1 * q.val = q.val; rw [e1]; omega

/-- The attention-weight column's block at point t, at row p: the column at row 512·t + p. -/
theorem iblk1_2_apply (t : Fin cfg1.N) (p : Fin 512) (i : Fin 16384) (hi : i.val = 512 * t.val + p.val) :
    (iblk1 V c 2 t : S512x1.Idx → EReal) (ix2 p (0 : Fin 1)) = (V c main_v21 : S16384x1.Idx → EReal) (ix2 i (0 : Fin 1)) := by
  obtain ⟨-, -, -, -, e0, e1, -⟩ := idx1 t
  unfold iblk1
  rw [View.read_apply]
  show (V c main_v21 : S16384x1.Idx → EReal) _ = _
  refine congrArg _ (funext fun a => Fin.ext ?_)
  match a with
  | ⟨0, _⟩ => show win1_2.index t (0 : Fin 2) * 512 + 1 * p.val = i.val; rw [e0, hi]; omega
  | ⟨1, _⟩ => show win1_2.index t (1 : Fin 2) * 1 + 1 * 0 = 0; rw [e1]

/-- The transform weights are staged whole: the block at any point is the array. -/
theorem iblk1_3_apply (t : Fin cfg1.N) (k : Fin 512) (q : Fin 1024) :
    (iblk1 V c 3 t : S512x1024.Idx → EReal) (ix2 k q) = (V c main_v23 : S512x1024.Idx → EReal) (ix2 k q) := by
  obtain ⟨-, -, -, -, -, -, e0, e1, -⟩ := idx1 t
  unfold iblk1
  rw [View.read_apply]
  show (V c main_v23 : S512x1024.Idx → EReal) _ = _
  refine congrArg _ (funext fun a => Fin.ext ?_)
  match a with
  | ⟨0, _⟩ => show win1_3.index t (0 : Fin 2) * 512 + 1 * k.val = k.val; rw [e0]; omega
  | ⟨1, _⟩ => show win1_3.index t (1 : Fin 2) * 1024 + 1 * q.val = q.val; rw [e1]; omega

/-- The transform bias row is staged whole. -/
theorem iblk1_4_apply (t : Fin cfg1.N) (q : Fin 1024) :
    (iblk1 V c 4 t : S1x1024.Idx → EReal) (ix2 (0 : Fin 1) q) = (V c main_v26 : S1x1024.Idx → EReal) (ix2 (0 : Fin 1) q) := by
  obtain ⟨-, -, -, -, -, -, -, -, e0, e1, -⟩ := idx1 t
  unfold iblk1
  rw [View.read_apply]
  show (V c main_v26 : S1x1024.Idx → EReal) _ = _
  refine congrArg _ (funext fun a => Fin.ext ?_)
  match a with
  | ⟨0, _⟩ => show win1_4.index t (0 : Fin 2) * 1 + 1 * 0 = 0; rw [e0]
  | ⟨1, _⟩ => show win1_4.index t (1 : Fin 2) * 1024 + 1 * q.val = q.val; rw [e1]; omega

/-- The gate weights are staged whole. -/
theorem iblk1_5_apply (t : Fin cfg1.N) (k : Fin 512) (q : Fin 1024) :
    (iblk1 V c 5 t : S512x1024.Idx → EReal) (ix2 k q) = (V c main_v25 : S512x1024.Idx → EReal) (ix2 k q) := by
  obtain ⟨-, -, -, -, -, -, -, -, -, -, e0, e1, -⟩ := idx1 t
  unfold iblk1
  rw [View.read_apply]
  show (V c main_v25 : S512x1024.Idx → EReal) _ = _
  refine congrArg _ (funext fun a => Fin.ext ?_)
  match a with
  | ⟨0, _⟩ => show win1_5.index t (0 : Fin 2) * 512 + 1 * k.val = k.val; rw [e0]; omega
  | ⟨1, _⟩ => show win1_5.index t (1 : Fin 2) * 1024 + 1 * q.val = q.val; rw [e1]; omega

/-- The gate bias row is staged whole. -/
theorem iblk1_6_apply (t : Fin cfg1.N) (q : Fin 1024) :
    (iblk1 V c 6 t : S1x1024.Idx → EReal) (ix2 (0 : Fin 1) q) = (V c main_v27 : S1x1024.Idx → EReal) (ix2 (0 : Fin 1) q) := by
  obtain ⟨-, -, -, -, -, -, -, -, -, -, -, -, e0, e1, -⟩ := idx1 t
  unfold iblk1
  rw [View.read_apply]
  show (V c main_v27 : S1x1024.Idx → EReal) _ = _
  refine congrArg _ (funext fun a => Fin.ext ?_)
  match a with
  | ⟨0, _⟩ => show win1_6.index t (0 : Fin 2) * 1 + 1 * 0 = 0; rw [e0]
  | ⟨1, _⟩ => show win1_6.index t (1 : Fin 2) * 1024 + 1 * q.val = q.val; rw [e1]; omega

/-! ## The block written back, the cover, the array -/

/-- What the body leaves at (p, q) of the output's buffer at point t is the array of mixes at any index j whose row is
    512·t + p and whose unit is q. -/
theorem stored1_7 (t : Fin cfg1.N) (p : Fin 512) (q : Fin 1024) (j : S16384x1024.Idx)
    (hj0 : (j 0).val = 512 * t.val + p.val) (hj1 : (j 1).val = q.val) :
    out1_7 (iblk1 V c 0 t) (iblk1 V c 1 t) (iblk1 V c 2 t) (iblk1 V c 3 t) (iblk1 V c 4 t) (iblk1 V c 5 t) (iblk1 V c 6 t) (ix2 p q)
      = outK V c j := by
  obtain ⟨i, q', rfl⟩ : ∃ (i : Fin 16384) (q' : Fin 1024), j = ix2 i q' := ⟨j 0, j 1, eq_ix2 j⟩
  have hi : i.val = 512 * t.val + p.val := hj0
  obtain rfl : q' = q := Fin.ext hj1
  refine (out1_7_apply _ _ _ _ _ _ _ p q').trans ?_
  refine (mixB_of_rows _ _ _ _ _ _ _ (V c main_arg0) (V c main_v10_0) (V c main_v21) (V c main_v23) (V c main_v26)
    (V c main_v25) (V c main_v27) p q' i (fun k => iblk1_0_apply V c t p k i hi) (iblk1_1_apply V c t p q' i hi)
    (iblk1_2_apply V c t p i hi) (fun k => iblk1_3_apply V c t k q') (iblk1_4_apply V c t q')
    (fun k => iblk1_5_apply V c t k q') (iblk1_6_apply V c t q')).trans ?_
  rfl

/-- The block point t writes back is block t of the array of mixes. -/
theorem flushed1_7 (t : Fin cfg1.N) :
    (dat1 V c).flushed 7 t = ((cfg1.win 7).blk t).view.read (Elt Ideal) (outK V c) := by
  obtain ⟨-, -, -, -, -, -, -, -, -, -, -, -, -, -, e0, e1⟩ := idx1 t
  show (cfg1.win 7).cut (grid1.coords t) ((dat1 V c).after 7 t) = _
  rw [after1_7]
  funext y
  rw [View.read_apply]
  show out1_7 (iblk1 V c 0 t) (iblk1 V c 1 t) (iblk1 V c 2 t) (iblk1 V c 3 t) (iblk1 V c 4 t) (iblk1 V c 5 t) (iblk1 V c 6 t) y
    = outK V c (((cfg1.win 7).blk t).view.emb y)
  have ey : y = ix2 (y 0) (y 1) := eq_ix2 (n0 := 512) (n1 := 1024) y
  rw [ey]
  refine stored1_7 V c t (y 0) (y 1) _ ?_ ?_
  · show win1_7.index t (0 : Fin 2) * 512 + 1 * (y 0).val = 512 * t.val + (y 0).val; rw [e0]; omega
  · show win1_7.index t (1 : Fin 2) * 1024 + 1 * (y 1).val = (y 1).val; rw [e1]; omega

/-- An index of the output array is in point t's block iff each coordinate is in the block's range on its axis. -/
theorem mem_blk1_7 (t : Fin cfg1.N) (i : S16384x1024.Idx) :
    i ∈ ((cfg1.win 7).blk t).view.set ↔ ∀ a : Fin 2, win1_7.index t a * S512x1024.size a ≤ (i a).val
      ∧ (i a).val < win1_7.index t a * S512x1024.size a + S512x1024.size a := by
  show i ∈ ((View.whole main_v28).slice (win1_7.rect t)).set ↔ _
  rw [View.set_slice_whole, Rect.mem_set_unit]
  exact Iff.rfl

/-- Every index of the output array is in some point's block: row r is in block r / 512. -/
theorem cover1_7 (i : S16384x1024.Idx) :
    ∃ t : Fin cfg1.N, (cfg1.win 7).flush t = true ∧ i ∈ ((cfg1.win 7).blk t).view.set := by
  have hi0 : (i 0).val < 16384 := idx2_lt0 i
  have hi1 : (i 1).val < 1024 := idx2_lt1 i
  have hN : cfg1.N = 32 := N_1
  obtain ⟨t, ht⟩ : ∃ t : Fin cfg1.N, t.val = (i 0).val / 512 := ⟨⟨(i 0).val / 512, by rw [hN]; omega⟩, rfl⟩
  obtain ⟨-, -, -, -, -, -, -, -, -, -, -, -, -, -, e0, e1⟩ := idx1 t
  refine ⟨t, flush1_7 t, ?_⟩
  rw [mem_blk1_7]
  intro a
  match a with
  | ⟨0, _⟩ =>
    show win1_7.index t (0 : Fin 2) * 512 ≤ (i 0).val ∧ (i 0).val < win1_7.index t (0 : Fin 2) * 512 + 512
    rw [e0, ht]; omega
  | ⟨1, _⟩ =>
    show win1_7.index t (1 : Fin 2) * 1024 ≤ (i 1).val ∧ (i 1).val < win1_7.index t (1 : Fin 2) * 1024 + 1024
    rw [e1]; omega

/-- The output array after the region: the array of mixes. -/
theorem final1_7 : ((dat1 V c).arrAt 7 cfg1.N : S16384x1024.Idx → EReal) = outK V c :=
  (dat1 V c).arrAt_eq_of_cover 7 (outK V c) (fun t _ => flushed1_7 V c t) (cover1_7)

end Cert.KernelIdeal.Val

end
-- ==== Proof.ValKI.Kernel.lean ====
/-
  The first kernel's cell state and the second kernel's highway output, as the specification's arrays of the program's
  ARGUMENTS. The buffers' contents are followed from the launch through the program: the first stretch of host
  operations leaves the arguments alone and builds, from the stacked gate weights and biases, the transposed parts and the
  one-row views the first kernel reads, so that kernel's three arrays (hidden state, cell state, logits column) are the
  specification's arrays of the arguments; the second stretch turns the logits column into the shared softmax and
  transposes the highway weights, and leaves the hidden state and the arguments alone, so the second kernel's array
  is the specification's highway output with that softmax as the attention weights; the second kernel does not touch the
  cell state.
-/
import proofs.«167787_j30270929502695_2_alg».proof.Proof.FrKI.RunDefs
import proofs.«167787_j30270929502695_2_alg».proof.Proof.ValKI.Defs
import proofs.«167787_j30270929502695_2_alg».proof.Proof.ValKI.Host0
import proofs.«167787_j30270929502695_2_alg».proof.Proof.ValKI.Host1
import proofs.«167787_j30270929502695_2_alg».proof.Proof.ValKI.Region0
import proofs.«167787_j30270929502695_2_alg».proof.Proof.ValKI.Region1

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem

/-! ## The scalar functions respect entrywise equality of their row arguments -/

theorem gateF_rows {xr xr' : Fin 512 → EReal} {hr hr' : Fin 1024 → EReal} {wx wx' : Fin 512 → EReal} {wh wh' : Fin 1024 → EReal}
    {b b' : EReal} (h1 : ∀ k, xr k = xr' k) (h2 : ∀ k, hr k = hr' k) (h3 : ∀ k, wx k = wx' k) (h4 : ∀ k, wh k = wh' k) (h5 : b = b') :
    Spec.gateF xr hr wx wh b = Spec.gateF xr' hr' wx' wh' b' := by
  rw [funext h1, funext h2, funext h3, funext h4, h5]

theorem logitF_rows {h h' wa wa' : Fin 1024 → EReal} {ba ba' : EReal} (h1 : ∀ q, h q = h' q) (h2 : ∀ q, wa q = wa' q) (h3 : ba = ba') :
    Spec.logitF h wa ba = Spec.logitF h' wa' ba' := by
  rw [funext h1, funext h2, h3]

theorem mixF_rows {xr xr' wt wt' wg wg' : Fin 512 → EReal} {bt bt' bg bg' hs hs' : EReal} (h1 : ∀ k, xr k = xr' k) (h2 : ∀ k, wt k = wt' k)
    (h3 : ∀ k, wg k = wg' k) (h4 : bt = bt') (h5 : bg = bg') (h6 : hs = hs') :
    Spec.mixF xr wt wg bt bg hs = Spec.mixF xr' wt' wg' bt' bg' hs' := by
  rw [funext h1, funext h2, funext h3, h4, h5, h6]

section Walk

variable (m : (ℓ : Loc nD τ sig) → Buf (Elt Ideal) ℓ) (ρ : Dev nD → PrngReg) (c : Dev nD)

/-! ## The arguments, and the stacked weights and bias built from them -/

/-- The input. -/
abbrev aX : Spec.Mat 16384 512 := m ((c : Thread nD τ).loc main_arg0)
/-- The previous hidden state. -/
abbrev aH : Spec.Mat 16384 1024 := m ((c : Thread nD τ).loc main_arg1)
/-- The previous cell state. -/
abbrev aC : Spec.Mat 16384 1024 := m ((c : Thread nD τ).loc main_arg2)
/-- The stacked gate weights. -/
abbrev aWc : Spec.Mat 4096 1536 :=
  Shared.Wcat (m ((c : Thread nD τ).loc main_arg3)) (m ((c : Thread nD τ).loc main_arg5)) (m ((c : Thread nD τ).loc main_arg7)) (m ((c : Thread nD τ).loc main_arg9))
/-- The stacked gate biases. -/
abbrev abc : Spec.Vc 4096 :=
  Shared.bcat (m ((c : Thread nD τ).loc main_arg4)) (m ((c : Thread nD τ).loc main_arg6)) (m ((c : Thread nD τ).loc main_arg8)) (m ((c : Thread nD τ).loc main_arg10))
/-- The attention weights and bias. -/
abbrev aWa : Spec.Mat 1 1024 := m ((c : Thread nD τ).loc main_arg11)
abbrev aba : Spec.Vc 1 := m ((c : Thread nD τ).loc main_arg12)
/-- The highway transform weights and bias, and gate weights and bias. -/
abbrev aWt : Spec.Mat 1024 512 := m ((c : Thread nD τ).loc main_arg13)
abbrev abt : Spec.Vc 1024 := m ((c : Thread nD τ).loc main_arg14)
abbrev aWg : Spec.Mat 1024 512 := m ((c : Thread nD τ).loc main_arg15)
abbrev abg : Spec.Vc 1024 := m ((c : Thread nD τ).loc main_arg16)

/-! ## What the first kernel finds when it is entered -/

theorem V1_arg0 : (V1 m ρ c main_arg0 : S16384x512.Idx → EReal) = aX m c := host0_keep (W0 m ρ c) main_arg0 (by decide)
theorem V1_arg1 : (V1 m ρ c main_arg1 : S16384x1024.Idx → EReal) = aH m c := host0_keep (W0 m ρ c) main_arg1 (by decide)
theorem V1_arg2 : (V1 m ρ c main_arg2 : S16384x1024.Idx → EReal) = aC m c := host0_keep (W0 m ρ c) main_arg2 (by decide)
theorem V1_arg11 : (V1 m ρ c main_arg11 : S1x1024.Idx → EReal) = aWa m c := host0_keep (W0 m ρ c) main_arg11 (by decide)
theorem V1_v4 (k : Fin 512) (j : Fin 4096) :
    (V1 m ρ c main_v4 : S512x4096.Idx → EReal) (ix2 k j) = aWc m c (ix2 j (Spec.colX k)) := host0_v4 (W0 m ρ c) k j
theorem V1_v7 (k : Fin 1024) (j : Fin 4096) :
    (V1 m ρ c main_v7 : S1024x4096.Idx → EReal) (ix2 k j) = aWc m c (ix2 j (Spec.colH k)) := host0_v7 (W0 m ρ c) k j
theorem V1_v8 (j : Fin 4096) :
    (V1 m ρ c main_v8 : S1x4096.Idx → EReal) (ix2 (0 : Fin 1) j) = abc m c (ix1 j) := host0_v8 (W0 m ρ c) j
theorem V1_v9 :
    (V1 m ρ c main_v9 : S1x1.Idx → EReal) (ix2 (0 : Fin 1) (0 : Fin 1)) = aba m c (ix1 (0 : Fin 1)) := host0_v9 (W0 m ρ c)

/-! ## The first kernel's three arrays are the specification's, of the arguments -/

theorem zK_eq (g : Fin 4) (i : Fin 16384) (q : Fin 1024) :
    zK (V1 m ρ) c g i q = Spec.zA (aX m c) (aH m c) (aWc m c) (abc m c) g i q := by
  unfold zK Spec.zA
  exact gateF_rows (fun k => congrFun (V1_arg0 m ρ c) _) (fun k => congrFun (V1_arg1 m ρ c) _) (fun k => V1_v4 m ρ c k _)
    (fun k => V1_v7 m ρ c k _) (V1_v8 m ρ c _)

theorem cK_eq (i : Fin 16384) (q : Fin 1024) :
    cK (V1 m ρ) c i q = Spec.cA (aX m c) (aH m c) (aC m c) (aWc m c) (abc m c) i q := by
  unfold cK Spec.cA
  rw [zK_eq, zK_eq, zK_eq, V1_arg2]

theorem hK_eq (i : Fin 16384) (q : Fin 1024) :
    hK (V1 m ρ) c i q = Spec.hA (aX m c) (aH m c) (aC m c) (aWc m c) (abc m c) i q := by
  unfold hK Spec.hA
  rw [zK_eq, cK_eq]

theorem cellK_eq : cellK (V1 m ρ) c = Spec.cellArr (aX m c) (aH m c) (aC m c) (aWc m c) (abc m c) :=
  funext fun j => cK_eq m ρ c (j 0) (j 1)

theorem hidK_eq : hidK (V1 m ρ) c = Spec.hidArr (aX m c) (aH m c) (aC m c) (aWc m c) (abc m c) :=
  funext fun j => hK_eq m ρ c (j 0) (j 1)

theorem lK_eq (i : Fin 16384) :
    lK (V1 m ρ) c i = Spec.logitF (fun q => Spec.hA (aX m c) (aH m c) (aC m c) (aWc m c) (abc m c) i q)
      (fun q => aWa m c (ix2 (0 : Fin 1) q)) (aba m c (ix1 (0 : Fin 1))) := by
  unfold lK
  exact logitF_rows (fun q => hK_eq m ρ c i q) (fun q => congrFun (V1_arg11 m ρ c) _) (V1_v9 m ρ c)

theorem logitK_eq :
    logitK (V1 m ρ) c = Spec.logitArr (aX m c) (aH m c) (aC m c) (aWc m c) (abc m c) (aWa m c) (aba m c) :=
  funext fun j => lK_eq m ρ c (j 0)

/-! ## What the first kernel leaves -/

theorem W2_hid : W2 m ρ c (Proc.devRef .tc main_v10_0) = Spec.hidArr (aX m c) (aH m c) (aC m c) (aWc m c) (abc m c) :=
  ((W2_arr m ρ c 8).trans (final0_8 (V1 m ρ) c)).trans (hidK_eq m ρ c)
theorem W2_cell : W2 m ρ c (Proc.devRef .tc main_v10_1) = Spec.cellArr (aX m c) (aH m c) (aC m c) (aWc m c) (abc m c) :=
  ((W2_arr m ρ c 9).trans (final0_9 (V1 m ρ) c)).trans (cellK_eq m ρ c)
theorem W2_logit :
    W2 m ρ c (Proc.devRef .tc main_v10_2) = Spec.logitArr (aX m c) (aH m c) (aC m c) (aWc m c) (abc m c) (aWa m c) (aba m c) :=
  ((W2_arr m ρ c 10).trans (final0_10 (V1 m ρ) c)).trans (logitK_eq m ρ c)
/-- The input is an input window of the first kernel: the pipeline leaves it as it found it. -/
theorem W2_arg0 : (W2 m ρ c (Proc.devRef .tc main_arg0) : S16384x512.Idx → EReal) = aX m c :=
  ((W2_arr m ρ c 0).trans (((dat0 (V1 m ρ) c).arrAt_in 0 rfl _).trans (A_eq0 (V1 m ρ) c 0))).trans (V1_arg0 m ρ c)
/-- The highway arguments are no array of the first kernel. -/
theorem W2_arg13 : (W2 m ρ c (Proc.devRef .tc main_arg13) : S1024x512.Idx → EReal) = aWt m c :=
  (W2_of_ne m ρ c main_arg13 (by decide)).trans (host0_keep (W0 m ρ c) main_arg13 (by decide))
theorem W2_arg14 : (W2 m ρ c (Proc.devRef .tc main_arg14) : S1024.Idx → EReal) = abt m c :=
  (W2_of_ne m ρ c main_arg14 (by decide)).trans (host0_keep (W0 m ρ c) main_arg14 (by decide))
theorem W2_arg15 : (W2 m ρ c (Proc.devRef .tc main_arg15) : S1024x512.Idx → EReal) = aWg m c :=
  (W2_of_ne m ρ c main_arg15 (by decide)).trans (host0_keep (W0 m ρ c) main_arg15 (by decide))
theorem W2_arg16 : (W2 m ρ c (Proc.devRef .tc main_arg16) : S1024.Idx → EReal) = abg m c :=
  (W2_of_ne m ρ c main_arg16 (by decide)).trans (host0_keep (W0 m ρ c) main_arg16 (by decide))

/-! ## What the second kernel finds when it is entered -/

/-- The attention weights: the shared softmax of the specification's logits column. -/
abbrev attnA : Spec.Mat 16384 1 :=
  Shared.softmaxCol (Spec.logitArr (aX m c) (aH m c) (aC m c) (aWc m c) (abc m c) (aWa m c) (aba m c))

theorem V3_arg0 : (V3 m ρ c main_arg0 : S16384x512.Idx → EReal) = aX m c :=
  (host1_keep (W2 m ρ c) main_arg0 (by decide)).trans (W2_arg0 m ρ c)
theorem V3_hid : (V3 m ρ c main_v10_0 : S16384x1024.Idx → EReal) = Spec.hidArr (aX m c) (aH m c) (aC m c) (aWc m c) (abc m c) :=
  (host1_keep (W2 m ρ c) main_v10_0 (by decide)).trans (W2_hid m ρ c)
theorem V3_attn : (V3 m ρ c main_v21 : S16384x1.Idx → EReal) = attnA m c :=
  (host1_v21 (W2 m ρ c)).trans (congrArg Shared.softmaxCol (W2_logit m ρ c))
theorem V3_v23 (k : Fin 512) (q : Fin 1024) : (V3 m ρ c main_v23 : S512x1024.Idx → EReal) (ix2 k q) = aWt m c (ix2 q k) :=
  (host1_v23 (W2 m ρ c) k q).trans (congrFun (W2_arg13 m ρ c) _)
theorem V3_v25 (k : Fin 512) (q : Fin 1024) : (V3 m ρ c main_v25 : S512x1024.Idx → EReal) (ix2 k q) = aWg m c (ix2 q k) :=
  (host1_v25 (W2 m ρ c) k q).trans (congrFun (W2_arg15 m ρ c) _)
theorem V3_v26 (q : Fin 1024) : (V3 m ρ c main_v26 : S1x1024.Idx → EReal) (ix2 (0 : Fin 1) q) = abt m c (ix1 q) :=
  (host1_v26 (W2 m ρ c) q).trans (congrFun (W2_arg14 m ρ c) _)
theorem V3_v27 (q : Fin 1024) : (V3 m ρ c main_v27 : S1x1024.Idx → EReal) (ix2 (0 : Fin 1) q) = abg m c (ix1 q) :=
  (host1_v27 (W2 m ρ c) q).trans (congrFun (W2_arg16 m ρ c) _)

/-! ## The second kernel's array is the specification's highway output -/

theorem outK_at (i : Fin 16384) (q : Fin 1024) :
    Spec.mixF (fun k => (V3 m ρ c main_arg0 : S16384x512.Idx → EReal) (ix2 i k))
        (fun k => (V3 m ρ c main_v23 : S512x1024.Idx → EReal) (ix2 k q)) (fun k => (V3 m ρ c main_v25 : S512x1024.Idx → EReal) (ix2 k q))
        ((V3 m ρ c main_v26 : S1x1024.Idx → EReal) (ix2 (0 : Fin 1) q)) ((V3 m ρ c main_v27 : S1x1024.Idx → EReal) (ix2 (0 : Fin 1) q))
        ((HMul.hMul : EReal → EReal → EReal) ((V3 m ρ c main_v10_0 : S16384x1024.Idx → EReal) (ix2 i q))
          ((V3 m ρ c main_v21 : S16384x1.Idx → EReal) (ix2 i (0 : Fin 1))))
      = Spec.mixF (fun k => aX m c (ix2 i k)) (fun k => aWt m c (ix2 q k)) (fun k => aWg m c (ix2 q k)) (abt m c (ix1 q)) (abg m c (ix1 q))
          (Spec.hA (aX m c) (aH m c) (aC m c) (aWc m c) (abc m c) i q * attnA m c (ix2 i (0 : Fin 1))) :=
  mixF_rows (fun k => congrFun (V3_arg0 m ρ c) _) (fun k => V3_v23 m ρ c k q) (fun k => V3_v25 m ρ c k q) (V3_v26 m ρ c q) (V3_v27 m ρ c q)
    (by rw [V3_hid, V3_attn]; rfl)

theorem outK_eq :
    outK (V3 m ρ) c = Spec.outArr (aX m c) (aH m c) (aC m c) (aWc m c) (abc m c) (aWt m c) (abt m c) (aWg m c) (abg m c) (attnA m c) :=
  funext fun j => outK_at m ρ c (j 0) (j 1)

/-! ## The two results, over the named arguments -/

/-- The cell state the program returns is the specification's, of the arguments. -/
theorem W4_cell_spec :
    W4 m ρ c (Proc.devRef .tc main_v10_1) = Spec.cellArr (aX m c) (aH m c) (aC m c) (aWc m c) (abc m c) :=
  ((W4_of_ne m ρ c main_v10_1 (by decide)).trans (host1_keep (W2 m ρ c) main_v10_1 (by decide))).trans (W2_cell m ρ c)

/-- The highway output the program returns is the specification's, of the arguments, with the softmax of the
    specification's logits column as the attention weights. -/
theorem W4_out_spec :
    W4 m ρ c (Proc.devRef .tc main_v28)
      = Spec.outArr (aX m c) (aH m c) (aC m c) (aWc m c) (abc m c) (aWt m c) (abt m c) (aWg m c) (abg m c) (attnA m c) :=
  ((W4_arr m ρ c 7).trans (final1_7 (V3 m ρ) c)).trans (outK_eq m ρ c)

end Walk

/-! ## The two results, with the arguments written out -/

/-- The highway output the program returns, as the specification's array of the launch contents of the arguments. -/
theorem W4_out (m : (ℓ : Loc nD τ sig) → Buf (Elt Ideal) ℓ) (ρ : Dev nD → PrngReg) (c : Dev nD) :
    Fr.W4 (F := Ideal) m ρ c (Proc.devRef .tc main_v28) = Cert.Spec.outArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (Cert.Shared.Wcat (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg7)) (m ((c.tc : Thread Cert.KernelIdeal.nD Cert.KernelIdeal.τ).loc Cert.KernelIdeal.main_arg9))) (Cert.Shared.bcat (m ((c.tc : Thread Cert.KernelIdeal.nD Cert.KernelIdeal.τ).loc Cert.KernelIdeal.main_arg4)) (m ((c.tc : Thread Cert.KernelIdeal.nD Cert.KernelIdeal.τ).loc Cert.KernelIdeal.main_arg6)) (m ((c.tc : Thread Cert.KernelIdeal.nD Cert.KernelIdeal.τ).loc Cert.KernelIdeal.main_arg8)) (m ((c.tc : Thread Cert.KernelIdeal.nD Cert.KernelIdeal.τ).loc Cert.KernelIdeal.main_arg10))) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (Cert.Shared.softmaxCol (Cert.Spec.logitArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (Cert.Shared.Wcat (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg7)) (m ((c.tc : Thread Cert.KernelIdeal.nD Cert.KernelIdeal.τ).loc Cert.KernelIdeal.main_arg9))) (Cert.Shared.bcat (m ((c.tc : Thread Cert.KernelIdeal.nD Cert.KernelIdeal.τ).loc Cert.KernelIdeal.main_arg4)) (m ((c.tc : Thread Cert.KernelIdeal.nD Cert.KernelIdeal.τ).loc Cert.KernelIdeal.main_arg6)) (m ((c.tc : Thread Cert.KernelIdeal.nD Cert.KernelIdeal.τ).loc Cert.KernelIdeal.main_arg8)) (m ((c.tc : Thread Cert.KernelIdeal.nD Cert.KernelIdeal.τ).loc Cert.KernelIdeal.main_arg10))) (m ((c.tc : Thread Cert.KernelIdeal.nD Cert.KernelIdeal.τ).loc Cert.KernelIdeal.main_arg11)) (m ((c.tc : Thread Cert.KernelIdeal.nD Cert.KernelIdeal.τ).loc Cert.KernelIdeal.main_arg12)))) :=
  W4_out_spec m ρ c

/-- The cell state the program returns, as the specification's array of the launch contents of the arguments. -/
theorem W4_cell (m : (ℓ : Loc nD τ sig) → Buf (Elt Ideal) ℓ) (ρ : Dev nD → PrngReg) (c : Dev nD) :
    Fr.W4 (F := Ideal) m ρ c (Proc.devRef .tc main_v10_1) = Cert.Spec.cellArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (Cert.Shared.Wcat (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg7)) (m ((c.tc : Thread Cert.KernelIdeal.nD Cert.KernelIdeal.τ).loc Cert.KernelIdeal.main_arg9))) (Cert.Shared.bcat (m ((c.tc : Thread Cert.KernelIdeal.nD Cert.KernelIdeal.τ).loc Cert.KernelIdeal.main_arg4)) (m ((c.tc : Thread Cert.KernelIdeal.nD Cert.KernelIdeal.τ).loc Cert.KernelIdeal.main_arg6)) (m ((c.tc : Thread Cert.KernelIdeal.nD Cert.KernelIdeal.τ).loc Cert.KernelIdeal.main_arg8)) (m ((c.tc : Thread Cert.KernelIdeal.nD Cert.KernelIdeal.τ).loc Cert.KernelIdeal.main_arg10))) :=
  W4_cell_spec m ρ c

end Cert.KernelIdeal.Val

end
-- ==== Proof.LibCols.lean ====
/-
  Two matrices set side by side, read at an index.

  For an a × b₁ matrix x₁ and an a × b₂ matrix x₂ concatenated along the column axis into an a × b matrix, the entry
  at (r, j) with j < b₁ is x₁(r, j), and the entry at (r, b₁ + q) is x₂(r, q) — generic in the four extents.
-/
import Idealize.ShloMosaic.Lib.Pipeline.Value
import Idealize.ShloMosaic.Lib.ValueIdx

namespace Cert.LibCols

open Idealize.ShloMosaic Idealize.ShloMosaic.ValueIdx

variable {α : Type} {a b₁ b₂ b : Nat}

/-- A column in the first piece's range reads the first piece at the same coordinates. -/
theorem concat_cols_left (x₁ : (⟨2, ![a, b₁]⟩ : Shape).Idx → α) (x₂ : (⟨2, ![a, b₂]⟩ : Shape).Idx → α)
    (h : Shape.Concatenates [(⟨2, ![a, b₁]⟩ : Shape), ⟨2, ![a, b₂]⟩] ⟨2, ![a, b]⟩ 1) (r : Fin a) (j : Fin b) (q : Fin b₁)
    (hq : q.val = j.val) :
    concatenate ⟨2, ![a, b]⟩ 1 [⟨⟨2, ![a, b₁]⟩, x₁⟩, ⟨⟨2, ![a, b₂]⟩, x₂⟩] h (ix2 r j) = x₁ (ix2 r q) :=
  concatenate_pair_apply_left 1 x₁ x₂ h (ix2 r j) rfl (ix2 r q) fun c => match c with
    | ⟨0, _⟩ => rfl
    | ⟨1, _⟩ => hq

/-- A column past the first piece's range reads the second piece, the first piece's width less. -/
theorem concat_cols_right (x₁ : (⟨2, ![a, b₁]⟩ : Shape).Idx → α) (x₂ : (⟨2, ![a, b₂]⟩ : Shape).Idx → α)
    (h : Shape.Concatenates [(⟨2, ![a, b₁]⟩ : Shape), ⟨2, ![a, b₂]⟩] ⟨2, ![a, b]⟩ 1) (r : Fin a) (j : Fin b) (q : Fin b₂)
    (hq : q.val + b₁ = j.val) :
    concatenate ⟨2, ![a, b]⟩ 1 [⟨⟨2, ![a, b₁]⟩, x₁⟩, ⟨⟨2, ![a, b₂]⟩, x₂⟩] h (ix2 r j) = x₂ (ix2 r q) :=
  concatenate_pair_apply_right 1 x₁ x₂ h (ix2 r j) rfl rfl (ix2 r q)
    (fun c hc => match c, hc with
      | ⟨0, _⟩, _ => rfl
      | ⟨1, _⟩, hc => absurd rfl hc)
    hq

end Cert.LibCols
-- ==== Proof.Ref.Split.lean ====
/-
  A sum over the 1536 columns of the joined row `[x | h]` of the gate product is the sum over the first 512 columns
  plus the sum over the remaining 1024: sums in the extended reals commute and associate, so no finiteness is needed.
-/
import proofs.«167787_j30270929502695_2_alg».proof.Proof.SpecArr

noncomputable section

open scoped BigOperators

namespace Cert.RefSide

open Idealize.ShloMosaic Cert.Spec

/-- A sum over the 1536 joined columns splits into the input part and the hidden-state part. -/
theorem sum_split (f : Fin 1536 → EReal) :
    ∑ k, f k = (∑ k : Fin 512, f (colX k)) + ∑ k : Fin 1024, f (colH k) :=
  (Fin.sum_univ_add (M := EReal) (a := 512) (b := 1024) f).trans
    (congrArg₂ (· + ·) (Finset.sum_congr rfl fun _ _ => rfl) (Finset.sum_congr rfl fun _ _ => rfl))

end Cert.RefSide

end
-- ==== Proof.Ref.Gates.lean ====
/-
  The reference's gate pre-activations, entry by entry. The reference multiplies the joined matrix `[x | h]` by the
  transposed stacked weights and adds the stacked bias (broadcast along the rows): the entry at batch row `i` and
  stacked row `j` is `∑ k, [x | h](i, k) · W(j, k) + b(j)`. Splitting the sum at column 512 and reading the joined
  matrix on each part gives `(∑ x(i, k) · W(j, k)) + (∑ h(i, k) · W(j, 512 + k)) + b(j)`. The stacked weights and
  bias stay as they are: only their entries at an index appear.
-/
import proofs.«167787_j30270929502695_2_alg».proof.Proof.Gen.ReferenceIdeal.Read
import proofs.«167787_j30270929502695_2_alg».proof.Proof.SpecArr
import proofs.«167787_j30270929502695_2_alg».proof.Proof.LibCols
import proofs.«167787_j30270929502695_2_alg».proof.Proof.Ref.Split

noncomputable section

open scoped BigOperators

namespace Cert.RefSide

open Cert.ReferenceIdeal Cert.ReferenceIdeal.Gen Cert.ReferenceIdeal.Read Idealize.ShloMosaic Idealize.ShloMosaic.ValueIdx Cert.Spec

/-- The input matrix's type. -/
abbrev TX : Type := (⟨S16384x512, .f32⟩ : BufTy).Contents (Elt Ideal)
/-- The type of the hidden and cell states. -/
abbrev TH : Type := (⟨S16384x1024, .f32⟩ : BufTy).Contents (Elt Ideal)
/-- One gate's weight matrix. -/
abbrev TW : Type := (⟨S1024x1536, .f32⟩ : BufTy).Contents (Elt Ideal)
/-- One gate's bias, and the highway biases. -/
abbrev TB : Type := (⟨S1024, .f32⟩ : BufTy).Contents (Elt Ideal)

/-- The joined matrix at one of the first 512 columns is the input matrix. -/
theorem joined_colX (x0 : TX) (x1 : TH) (i : Fin 16384) (k : Fin 512) :
    val_main_v0 (F := Ideal) x0 x1 (ix2 i (colX k)) = x0 (ix2 i k) :=
  Cert.LibCols.concat_cols_left x0 x1 concatenates_S16384x512_S16384x1024_S16384x1536_d1 i (colX k) k rfl

/-- The joined matrix at one of the last 1024 columns is the previous hidden state. -/
theorem joined_colH (x0 : TX) (x1 : TH) (i : Fin 16384) (k : Fin 1024) :
    val_main_v0 (F := Ideal) x0 x1 (ix2 i (colH k)) = x1 (ix2 i k) :=
  Cert.LibCols.concat_cols_right x0 x1 concatenates_S16384x512_S16384x1024_S16384x1536_d1 i (colH k) k (Nat.add_comm _ _)

/-- The product's left operand is read on batch row `i`, column `k`. -/
theorem lidx4 (i : Fin 16384) (j : Fin 4096) (k : Fin 1536) : lidx_main_v4 (ix2 i j) k = ix2 i k :=
  funext fun a => match a with | ⟨0, _⟩ => rfl | ⟨1, _⟩ => rfl

/-- The product's right operand, the transposed stacked weights, is read on stacked row `j`, column `k`. -/
theorem ridx4 (i : Fin 16384) (j : Fin 4096) (k : Fin 1536) : idx_main_v3 (ridx_main_v4 (ix2 i j) k) = ix2 j k :=
  funext fun a => match a with | ⟨0, _⟩ => rfl | ⟨1, _⟩ => rfl

/-- The broadcast bias is read at stacked row `j`. -/
theorem bidx6 (i : Fin 16384) (j : Fin 4096) : idx_main_v5 (idx_main_v6 (ix2 i j)) = ix1 j :=
  funext fun a => match a with | ⟨0, _⟩ => rfl

/-- The pre-activation at batch row `i`, stacked row `j`. -/
theorem gates_at (x0 : TX) (x1 : TH) (x3 : TW) (x4 : TB) (x5 : TW) (x6 : TB) (x7 : TW) (x8 : TB) (x9 : TW) (x10 : TB)
    (i : Fin 16384) (j : Fin 4096) :
    val_main_v7 (F := Ideal) x0 x1 x3 x4 x5 x6 x7 x8 x9 x10 (ix2 i j)
      = gateF (fun k => x0 (ix2 i k)) (fun k => x1 (ix2 i k))
          (fun k => val_main_v1 (F := Ideal) x3 x5 x7 x9 (ix2 j (colX k)))
          (fun k => val_main_v1 (F := Ideal) x3 x5 x7 x9 (ix2 j (colH k)))
          (val_main_v2 (F := Ideal) x4 x6 x8 x10 (ix1 j)) := by
  rw [val_main_v7_apply, val_main_v4_apply, val_main_v6_apply, val_main_v5_apply, bidx6]
  simp only [val_main_v3_apply, lidx4, ridx4]
  rw [sum_split]
  simp only [joined_colX, joined_colH]
  rfl

end Cert.RefSide

end
-- ==== Proof.Ref.Sigmoid.lean ====
/-
  The logistic function as the reference spells it. The reference writes `1 / (1 + exp (−z))` with the float literal
  `1.0` (the word `0x3F800000`) for both ones; on the extended reals that literal denotes `1`, and the quotient is by
  definition the logistic function.
-/
import Idealize.ShloMosaic.PureOps.Ideal

noncomputable section

namespace Cert.RefSide

open Idealize.ShloMosaic

/-- The float word of `1.0` denotes the extended real `1`. -/
theorem ofBits_one : Ideal.ofBits .f32 0x3F800000#32 = 1 := by
  simp [Ideal.ofBits, Ideal.ieee, -EReal.coe_mul]; norm_num

/-- `1 / (1 + exp (−z))`, with both ones spelt as the float word of `1.0`, is the logistic function at `z`. -/
theorem div_one_add_exp_neg (z : EReal) :
    Ideal.div (Ideal.ofBits .f32 0x3F800000#32) (Ideal.ofBits .f32 0x3F800000#32 + Ideal.exp (-z)) = Ideal.logistic z := by
  rw [ofBits_one, Ideal.logistic]

/-- `1 − s` with the one spelt as the float word of `1.0`. -/
theorem one_sub (s : EReal) : Ideal.ofBits .f32 0x3F800000#32 - s = 1 - s := by
  rw [ofBits_one]

end Cert.RefSide

end
-- ==== Proof.Ref.Cell.lean ====
/-
  The reference's cell and hidden values, entry by entry. The four column groups of the gate product (columns
  `1024·g + q` for the gates `g = 0, 1, 2, 3`) are the input, forget, output and candidate pre-activations; the
  reference applies `1 / (1 + exp (−z))` to the first three and `tanh` to the fourth, and forms
  `σ(f)·c + σ(i)·tanh(g)` and `σ(o)·tanh(c')`.
-/
import proofs.«167787_j30270929502695_2_alg».proof.Proof.Ref.Gates
import proofs.«167787_j30270929502695_2_alg».proof.Proof.Ref.Sigmoid

noncomputable section

open scoped BigOperators

namespace Cert.RefSide

open Cert.ReferenceIdeal Cert.ReferenceIdeal.Gen Cert.ReferenceIdeal.Read Idealize.ShloMosaic Idealize.ShloMosaic.ValueIdx Cert.Spec

/-- The first slice reads stacked row `q`: gate 0's unit `q`. -/
theorem sidx8 (i : Fin 16384) (q : Fin 1024) : idx_main_v8 (ix2 i q) = ix2 i (grow 0 q) :=
  funext fun a => match a with
    | ⟨0, _⟩ => rfl
    | ⟨1, _⟩ => Fin.ext (show q.val = 1024 * ((0 : Fin 4) : ℕ) + q.val by have h : ((0 : Fin 4) : ℕ) = 0 := rfl; omega)

/-- The second slice reads stacked row `1024 + q`: gate 1's unit `q`. -/
theorem sidx9 (i : Fin 16384) (q : Fin 1024) : idx_main_v9 (ix2 i q) = ix2 i (grow 1 q) :=
  funext fun a => match a with
    | ⟨0, _⟩ => rfl
    | ⟨1, _⟩ => Fin.ext (show 1024 + q.val = 1024 * ((1 : Fin 4) : ℕ) + q.val by have h : ((1 : Fin 4) : ℕ) = 1 := rfl; omega)

/-- The third slice reads stacked row `2048 + q`: gate 2's unit `q`. -/
theorem sidx10 (i : Fin 16384) (q : Fin 1024) : idx_main_v10 (ix2 i q) = ix2 i (grow 2 q) :=
  funext fun a => match a with
    | ⟨0, _⟩ => rfl
    | ⟨1, _⟩ => Fin.ext (show 2048 + q.val = 1024 * ((2 : Fin 4) : ℕ) + q.val by have h : ((2 : Fin 4) : ℕ) = 2 := rfl; omega)

/-- The fourth slice reads stacked row `3072 + q`: gate 3's unit `q`. -/
theorem sidx11 (i : Fin 16384) (q : Fin 1024) : idx_main_v11 (ix2 i q) = ix2 i (grow 3 q) :=
  funext fun a => match a with
    | ⟨0, _⟩ => rfl
    | ⟨1, _⟩ => Fin.ext (show 3072 + q.val = 1024 * ((3 : Fin 4) : ℕ) + q.val by have h : ((3 : Fin 4) : ℕ) = 3 := rfl; omega)

section
variable (x0 : TX) (x1 x2 : TH) (x3 : TW) (x4 : TB) (x5 : TW) (x6 : TB) (x7 : TW) (x8 : TB) (x9 : TW) (x10 : TB)
  (i : Fin 16384) (q : Fin 1024)

/-- The input gate's pre-activation. -/
theorem zi_at : val_main_v8 (F := Ideal) x0 x1 x3 x4 x5 x6 x7 x8 x9 x10 (ix2 i q)
    = zA x0 x1 (val_main_v1 (F := Ideal) x3 x5 x7 x9) (val_main_v2 (F := Ideal) x4 x6 x8 x10) 0 i q := by
  rw [val_main_v8_apply, sidx8, gates_at]; rfl

/-- The forget gate's pre-activation. -/
theorem zf_at : val_main_v9 (F := Ideal) x0 x1 x3 x4 x5 x6 x7 x8 x9 x10 (ix2 i q)
    = zA x0 x1 (val_main_v1 (F := Ideal) x3 x5 x7 x9) (val_main_v2 (F := Ideal) x4 x6 x8 x10) 1 i q := by
  rw [val_main_v9_apply, sidx9, gates_at]; rfl

/-- The output gate's pre-activation. -/
theorem zo_at : val_main_v10 (F := Ideal) x0 x1 x3 x4 x5 x6 x7 x8 x9 x10 (ix2 i q)
    = zA x0 x1 (val_main_v1 (F := Ideal) x3 x5 x7 x9) (val_main_v2 (F := Ideal) x4 x6 x8 x10) 2 i q := by
  rw [val_main_v10_apply, sidx10, gates_at]; rfl

/-- The candidate's pre-activation. -/
theorem zg_at : val_main_v11 (F := Ideal) x0 x1 x3 x4 x5 x6 x7 x8 x9 x10 (ix2 i q)
    = zA x0 x1 (val_main_v1 (F := Ideal) x3 x5 x7 x9) (val_main_v2 (F := Ideal) x4 x6 x8 x10) 3 i q := by
  rw [val_main_v11_apply, sidx11, gates_at]; rfl

/-- The input gate. -/
theorem si_at : val_main_v17 (F := Ideal) x0 x1 x3 x4 x5 x6 x7 x8 x9 x10 (ix2 i q)
    = Ideal.logistic (zA x0 x1 (val_main_v1 (F := Ideal) x3 x5 x7 x9) (val_main_v2 (F := Ideal) x4 x6 x8 x10) 0 i q) := by
  rw [val_main_v17_apply, val_main_v16_apply, val_main_cst_0_apply, val_main_v15_apply, val_main_v14_apply,
    val_main_cst_apply, val_main_v13_apply, val_main_v12_apply, zi_at]
  exact div_one_add_exp_neg _

/-- The forget gate. -/
theorem sf_at : val_main_v23 (F := Ideal) x0 x1 x3 x4 x5 x6 x7 x8 x9 x10 (ix2 i q)
    = Ideal.logistic (zA x0 x1 (val_main_v1 (F := Ideal) x3 x5 x7 x9) (val_main_v2 (F := Ideal) x4 x6 x8 x10) 1 i q) := by
  rw [val_main_v23_apply, val_main_v22_apply, val_main_cst_2_apply, val_main_v21_apply, val_main_v20_apply,
    val_main_cst_1_apply, val_main_v19_apply, val_main_v18_apply, zf_at]
  exact div_one_add_exp_neg _

/-- The output gate. -/
theorem so_at : val_main_v29 (F := Ideal) x0 x1 x3 x4 x5 x6 x7 x8 x9 x10 (ix2 i q)
    = Ideal.logistic (zA x0 x1 (val_main_v1 (F := Ideal) x3 x5 x7 x9) (val_main_v2 (F := Ideal) x4 x6 x8 x10) 2 i q) := by
  rw [val_main_v29_apply, val_main_v28_apply, val_main_cst_4_apply, val_main_v27_apply, val_main_v26_apply,
    val_main_cst_3_apply, val_main_v25_apply, val_main_v24_apply, zo_at]
  exact div_one_add_exp_neg _

/-- The new cell value. -/
theorem cell_at : val_main_v33 (F := Ideal) x0 x1 x2 x3 x4 x5 x6 x7 x8 x9 x10 (ix2 i q)
    = cA x0 x1 x2 (val_main_v1 (F := Ideal) x3 x5 x7 x9) (val_main_v2 (F := Ideal) x4 x6 x8 x10) i q := by
  rw [val_main_v33_apply, val_main_v31_apply, val_main_v32_apply, sf_at, si_at, val_main_v30_apply, zg_at]
  rfl

/-- The hidden value before the attention scaling. -/
theorem hid_at : val_main_v35 (F := Ideal) x0 x1 x2 x3 x4 x5 x6 x7 x8 x9 x10 (ix2 i q)
    = hA x0 x1 x2 (val_main_v1 (F := Ideal) x3 x5 x7 x9) (val_main_v2 (F := Ideal) x4 x6 x8 x10) i q := by
  rw [val_main_v35_apply, so_at, val_main_v34_apply, cell_at]
  rfl

end

/-- The reference's new cell state is the specification's, as arrays. -/
theorem cell_eq (x0 : TX) (x1 x2 : TH) (x3 : TW) (x4 : TB) (x5 : TW) (x6 : TB) (x7 : TW) (x8 : TB) (x9 : TW) (x10 : TB) :
    val_main_v33 (F := Ideal) x0 x1 x2 x3 x4 x5 x6 x7 x8 x9 x10
      = cellArr x0 x1 x2 (val_main_v1 (F := Ideal) x3 x5 x7 x9) (val_main_v2 (F := Ideal) x4 x6 x8 x10) := by
  funext j
  obtain ⟨i, q, rfl⟩ : ∃ (i : Fin 16384) (q : Fin 1024), j = ix2 i q := ⟨j 0, j 1, eq_ix2 j⟩
  exact cell_at x0 x1 x2 x3 x4 x5 x6 x7 x8 x9 x10 i q

end Cert.RefSide

end
-- ==== Proof.Ref.Logit.lean ====
/-
  The reference's attention logits, entry by entry: the hidden row against the one row of the attention weights (the
  reference multiplies by its transpose, a 1024 × 1 column), plus the one bias entry, broadcast along the rows.
-/
import proofs.«167787_j30270929502695_2_alg».proof.Proof.Ref.Cell

noncomputable section

open scoped BigOperators

namespace Cert.RefSide

open Cert.ReferenceIdeal Cert.ReferenceIdeal.Gen Cert.ReferenceIdeal.Read Idealize.ShloMosaic Idealize.ShloMosaic.ValueIdx Cert.Spec

/-- The attention weights' type. -/
abbrev TWa : Type := (⟨S1x1024, .f32⟩ : BufTy).Contents (Elt Ideal)
/-- The attention bias's type. -/
abbrev TBa : Type := (⟨S1, .f32⟩ : BufTy).Contents (Elt Ideal)

/-- The product's left operand, the hidden state, is read on batch row `i`, unit `k`. -/
theorem lidx37 (i : Fin 16384) (z : Fin 1) (k : Fin 1024) : lidx_main_v37 (ix2 i z) k = ix2 i k :=
  funext fun a => match a with | ⟨0, _⟩ => rfl | ⟨1, _⟩ => rfl

/-- The product's right operand, the transposed attention weights, is read on the weights' row `z`, unit `k`. -/
theorem ridx37 (i : Fin 16384) (z : Fin 1) (k : Fin 1024) : idx_main_v36 (ridx_main_v37 (ix2 i z) k) = ix2 z k :=
  funext fun a => match a with | ⟨0, _⟩ => rfl | ⟨1, _⟩ => rfl

/-- The broadcast bias is read at its one entry. -/
theorem bidx39 (i : Fin 16384) (z : Fin 1) : idx_main_v38 (idx_main_v39 (ix2 i z)) = ix1 (0 : Fin 1) :=
  funext fun a => match a with | ⟨0, _⟩ => rfl

section
variable (x0 : TX) (x1 x2 : TH) (x3 : TW) (x4 : TB) (x5 : TW) (x6 : TB) (x7 : TW) (x8 : TB) (x9 : TW) (x10 : TB)
  (x11 : TWa) (x12 : TBa)

/-- The attention logit of batch row `i`. -/
theorem logit_at (i : Fin 16384) (z : Fin 1) :
    val_main_v40 (F := Ideal) x0 x1 x2 x3 x4 x5 x6 x7 x8 x9 x10 x11 x12 (ix2 i z)
      = logitF (fun q => hA x0 x1 x2 (val_main_v1 (F := Ideal) x3 x5 x7 x9) (val_main_v2 (F := Ideal) x4 x6 x8 x10) i q)
          (fun q => x11 (ix2 (0 : Fin 1) q)) (x12 (ix1 (0 : Fin 1))) := by
  obtain rfl : z = 0 := Subsingleton.elim _ _
  rw [val_main_v40_apply, val_main_v37_apply, val_main_v39_apply, val_main_v38_apply, bidx39]
  simp only [val_main_v36_apply, lidx37, ridx37, hid_at]
  rfl

/-- The reference's column of attention logits is the specification's, as arrays. -/
theorem logit_eq :
    val_main_v40 (F := Ideal) x0 x1 x2 x3 x4 x5 x6 x7 x8 x9 x10 x11 x12
      = logitArr x0 x1 x2 (val_main_v1 (F := Ideal) x3 x5 x7 x9) (val_main_v2 (F := Ideal) x4 x6 x8 x10) x11 x12 := by
  funext j
  obtain ⟨i, z, rfl⟩ : ∃ (i : Fin 16384) (z : Fin 1), j = ix2 i z := ⟨j 0, j 1, eq_ix2 j⟩
  exact logit_at x0 x1 x2 x3 x4 x5 x6 x7 x8 x9 x10 x11 x12 i z

end

end Cert.RefSide

end
-- ==== Proof.Ref.Highway.lean ====
/-
  The reference's highway output, entry by entry. The transform `t = x·W_tᵀ + b_t` and the gate
  `σ(x·W_gᵀ + b_g)` are each a row of the input against a row of a weight matrix (the reference multiplies by the
  transpose) plus a bias entry; the hidden value is scaled by its row's attention weight (a 16384 × 1 column broadcast
  along the units); the result is `σ·t + (1 − σ)·(h·a)`. The attention column stays as it is: only its entry at a row
  appears.
-/
import proofs.«167787_j30270929502695_2_alg».proof.Proof.Ref.Cell

noncomputable section

open scoped BigOperators

namespace Cert.RefSide

open Cert.ReferenceIdeal Cert.ReferenceIdeal.Gen Cert.ReferenceIdeal.Read Idealize.ShloMosaic Idealize.ShloMosaic.ValueIdx Cert.Spec

/-- A highway weight matrix's type. -/
abbrev TWh : Type := (⟨S1024x512, .f32⟩ : BufTy).Contents (Elt Ideal)

/-- The transform product's left operand, the input, is read on batch row `i`, column `k`. -/
theorem lidx55 (i : Fin 16384) (q : Fin 1024) (k : Fin 512) : lidx_main_v55 (ix2 i q) k = ix2 i k :=
  funext fun a => match a with | ⟨0, _⟩ => rfl | ⟨1, _⟩ => rfl

/-- The transform product's right operand, the transposed weights, is read on the weights' row `q`, column `k`. -/
theorem ridx55 (i : Fin 16384) (q : Fin 1024) (k : Fin 512) : idx_main_v54 (ridx_main_v55 (ix2 i q) k) = ix2 q k :=
  funext fun a => match a with | ⟨0, _⟩ => rfl | ⟨1, _⟩ => rfl

/-- The transform's broadcast bias is read at unit `q`. -/
theorem bidx57 (i : Fin 16384) (q : Fin 1024) : idx_main_v56 (idx_main_v57 (ix2 i q)) = ix1 q :=
  funext fun a => match a with | ⟨0, _⟩ => rfl

/-- The gate product's left operand, the input, is read on batch row `i`, column `k`. -/
theorem lidx60 (i : Fin 16384) (q : Fin 1024) (k : Fin 512) : lidx_main_v60 (ix2 i q) k = ix2 i k :=
  funext fun a => match a with | ⟨0, _⟩ => rfl | ⟨1, _⟩ => rfl

/-- The gate product's right operand, the transposed weights, is read on the weights' row `q`, column `k`. -/
theorem ridx60 (i : Fin 16384) (q : Fin 1024) (k : Fin 512) : idx_main_v59 (ridx_main_v60 (ix2 i q) k) = ix2 q k :=
  funext fun a => match a with | ⟨0, _⟩ => rfl | ⟨1, _⟩ => rfl

/-- The gate's broadcast bias is read at unit `q`. -/
theorem bidx62 (i : Fin 16384) (q : Fin 1024) : idx_main_v61 (idx_main_v62 (ix2 i q)) = ix1 q :=
  funext fun a => match a with | ⟨0, _⟩ => rfl

/-- The broadcast attention column is read at batch row `i`. -/
theorem aidx52 (i : Fin 16384) (q : Fin 1024) : idx_main_v52 (ix2 i q) = ix2 i (0 : Fin 1) :=
  funext fun a => match a with | ⟨0, _⟩ => rfl | ⟨1, _⟩ => rfl

section
variable (x0 : TX) (x1 x2 : TH) (x3 : TW) (x4 : TB) (x5 : TW) (x6 : TB) (x7 : TW) (x8 : TB) (x9 : TW) (x10 : TB)
  (x11 : (⟨S1x1024, .f32⟩ : BufTy).Contents (Elt Ideal)) (x12 : (⟨S1, .f32⟩ : BufTy).Contents (Elt Ideal))
  (x13 : TWh) (x14 : TB) (x15 : TWh) (x16 : TB)

/-- The transform at `(i, q)`. -/
theorem t_at (i : Fin 16384) (q : Fin 1024) :
    val_main_v58 (F := Ideal) x0 x13 x14 (ix2 i q) = (∑ k : Fin 512, x0 (ix2 i k) * x13 (ix2 q k)) + x14 (ix1 q) := by
  rw [val_main_v58_apply, val_main_v55_apply, val_main_v57_apply, val_main_v56_apply, bidx57]
  simp only [val_main_v54_apply, lidx55, ridx55]
  rfl

/-- The highway gate's pre-activation at `(i, q)`. -/
theorem u_at (i : Fin 16384) (q : Fin 1024) :
    val_main_v63 (F := Ideal) x0 x15 x16 (ix2 i q) = (∑ k : Fin 512, x0 (ix2 i k) * x15 (ix2 q k)) + x16 (ix1 q) := by
  rw [val_main_v63_apply, val_main_v60_apply, val_main_v62_apply, val_main_v61_apply, bidx62]
  simp only [val_main_v59_apply, lidx60, ridx60]
  rfl

/-- The highway gate at `(i, q)`. -/
theorem sg_at (i : Fin 16384) (q : Fin 1024) :
    val_main_v69 (F := Ideal) x0 x15 x16 (ix2 i q)
      = Ideal.logistic ((∑ k : Fin 512, x0 (ix2 i k) * x15 (ix2 q k)) + x16 (ix1 q)) := by
  rw [val_main_v69_apply, val_main_v68_apply, val_main_cst_9_apply, val_main_v67_apply, val_main_v66_apply,
    val_main_cst_8_apply, val_main_v65_apply, val_main_v64_apply, u_at]
  exact div_one_add_exp_neg _

/-- The highway output at `(i, q)`, with the attention column as the reference computes it. -/
theorem out_at (i : Fin 16384) (q : Fin 1024) :
    val_main_v74 (F := Ideal) x0 x1 x2 x3 x4 x5 x6 x7 x8 x9 x10 x11 x12 x13 x14 x15 x16 (ix2 i q)
      = mixF (fun k => x0 (ix2 i k)) (fun k => x13 (ix2 q k)) (fun k => x15 (ix2 q k)) (x14 (ix1 q)) (x16 (ix1 q))
          (hA x0 x1 x2 (val_main_v1 (F := Ideal) x3 x5 x7 x9) (val_main_v2 (F := Ideal) x4 x6 x8 x10) i q
            * val_main_v51 (F := Ideal) x0 x1 x2 x3 x4 x5 x6 x7 x8 x9 x10 x11 x12 (ix2 i (0 : Fin 1))) := by
  rw [val_main_v74_apply, val_main_v70_apply, val_main_v73_apply, val_main_v72_apply, val_main_v71_apply,
    val_main_cst_10_apply, sg_at, t_at, val_main_v53_apply, hid_at, val_main_v52_apply, aidx52]
  simp only [Ideal.subf_def, Ideal.ofBits_def, ofBits_one]
  rfl

/-- The reference's highway output is the specification's, as arrays, given the reference's own attention column. -/
theorem out_eq :
    val_main_v74 (F := Ideal) x0 x1 x2 x3 x4 x5 x6 x7 x8 x9 x10 x11 x12 x13 x14 x15 x16
      = outArr x0 x1 x2 (val_main_v1 (F := Ideal) x3 x5 x7 x9) (val_main_v2 (F := Ideal) x4 x6 x8 x10) x13 x14 x15 x16
          (val_main_v51 (F := Ideal) x0 x1 x2 x3 x4 x5 x6 x7 x8 x9 x10 x11 x12) := by
  funext j
  obtain ⟨i, q, rfl⟩ : ∃ (i : Fin 16384) (q : Fin 1024), j = ix2 i q := ⟨j 0, j 1, eq_ix2 j⟩
  exact out_at x0 x1 x2 x3 x4 x5 x6 x7 x8 x9 x10 x11 x12 x13 x14 x15 x16 i q

end

end Cert.RefSide

end
-- ==== Proof.Ref.Softmax.lean ====
/-
  The three host terms the reference shares with the kernel's program, met by name. The reference's stacked weights and
  stacked bias are the same concatenations of the same arguments, and its softmax over the batch is the same chain of
  operations (the column's maximum joined with −∞, the exponentials of the differences, their sum from 0, the
  quotient) applied to its logits column: each is the shared term by unfolding the names only, the column itself and
  the argument arrays staying variables.
-/
import proofs.«167787_j30270929502695_2_alg».proof.Proof.Gen.ReferenceIdeal.Read
import proofs.«167787_j30270929502695_2_alg».proof.Proof.Shared

noncomputable section

namespace Cert.RefSide

open Cert.ReferenceIdeal Cert.ReferenceIdeal.Read Idealize.ShloMosaic

/-- The reference's stacked gate weights are the shared stacked weights. -/
theorem Wcat_eq (x3 x5 x7 x9 : (⟨S1024x1536, .f32⟩ : BufTy).Contents (Elt Ideal)) :
    val_main_v1 (F := Ideal) x3 x5 x7 x9 = Cert.Shared.Wcat x3 x5 x7 x9 := rfl

/-- The reference's stacked gate biases are the shared stacked biases. -/
theorem bcat_eq (x4 x6 x8 x10 : (⟨S1024, .f32⟩ : BufTy).Contents (Elt Ideal)) :
    val_main_v2 (F := Ideal) x4 x6 x8 x10 = Cert.Shared.bcat x4 x6 x8 x10 := rfl

/-- The reference's attention column is the shared softmax of its logits column. -/
theorem softmax_eq (x0 : (⟨S16384x512, .f32⟩ : BufTy).Contents (Elt Ideal)) (x1 x2 : (⟨S16384x1024, .f32⟩ : BufTy).Contents (Elt Ideal))
    (x3 : (⟨S1024x1536, .f32⟩ : BufTy).Contents (Elt Ideal)) (x4 : (⟨S1024, .f32⟩ : BufTy).Contents (Elt Ideal))
    (x5 : (⟨S1024x1536, .f32⟩ : BufTy).Contents (Elt Ideal)) (x6 : (⟨S1024, .f32⟩ : BufTy).Contents (Elt Ideal))
    (x7 : (⟨S1024x1536, .f32⟩ : BufTy).Contents (Elt Ideal)) (x8 : (⟨S1024, .f32⟩ : BufTy).Contents (Elt Ideal))
    (x9 : (⟨S1024x1536, .f32⟩ : BufTy).Contents (Elt Ideal)) (x10 : (⟨S1024, .f32⟩ : BufTy).Contents (Elt Ideal))
    (x11 : (⟨S1x1024, .f32⟩ : BufTy).Contents (Elt Ideal)) (x12 : (⟨S1, .f32⟩ : BufTy).Contents (Elt Ideal)) :
    val_main_v51 (F := Ideal) x0 x1 x2 x3 x4 x5 x6 x7 x8 x9 x10 x11 x12
      = Cert.Shared.softmaxCol (val_main_v40 (F := Ideal) x0 x1 x2 x3 x4 x5 x6 x7 x8 x9 x10 x11 x12) := by
  unfold val_main_v51 val_main_v50 val_main_v49 val_main_v48 val_main_v47 val_main_v46 val_main_v45 val_main_v44
    val_main_v43 val_main_v42 val_main_v41 val_main_cst_5 val_main_cst_6 val_main_cst_7
  generalize val_main_v40 (F := Ideal) x0 x1 x2 x3 x4 x5 x6 x7 x8 x9 x10 x11 x12 = z
  rfl

end Cert.RefSide

end
-- ==== Proof.RefSide.lean ====
/-
  The reference's run, read against the specification. The generated run leaves each result at the composed term of
  the reference's operations; entry by entry that term is the specification's array (the modules under Ref/): the new
  cell state is `cellArr`, and the highway output is `outArr` at the softmax of the logits column `logitArr`, with the
  stacked weights, the stacked bias and the softmax carried as the three shared host terms.
-/
import proofs.«167787_j30270929502695_2_alg».proof.Proof.Ref.Logit
import proofs.«167787_j30270929502695_2_alg».proof.Proof.Ref.Highway
import proofs.«167787_j30270929502695_2_alg».proof.Proof.Ref.Softmax

noncomputable section

namespace Cert.RefSide

open Cert.ReferenceIdeal Cert.ReferenceIdeal.Read Idealize.ShloMosaic Idealize.ShloMosaic.TcCoe Idealize.SL.Sem Cert.Spec

/-- The reference's highway output, as a function of the argument arrays, is the specification's output at the shared
    softmax of the specification's logits, over the shared stacked weights and bias. -/
theorem out_final (x0 : TX) (x1 : TH) (x2 : TH) (x3 : TW) (x4 : TB) (x5 : TW) (x6 : TB) (x7 : TW) (x8 : TB) (x9 : TW) (x10 : TB) (x11 : TWa) (x12 : TBa) (x13 : TWh) (x14 : TB) (x15 : TWh) (x16 : TB) :
    val_main_v74 (F := Ideal) x0 x1 x2 x3 x4 x5 x6 x7 x8 x9 x10 x11 x12 x13 x14 x15 x16
      = outArr x0 x1 x2 (Cert.Shared.Wcat x3 x5 x7 x9) (Cert.Shared.bcat x4 x6 x8 x10) x13 x14 x15 x16
          (Cert.Shared.softmaxCol (logitArr x0 x1 x2 (Cert.Shared.Wcat x3 x5 x7 x9) (Cert.Shared.bcat x4 x6 x8 x10) x11 x12)) := by
  rw [out_eq, softmax_eq, logit_eq, Wcat_eq, bcat_eq]

/-- The reference's new cell state, as a function of the argument arrays, is the specification's, over the shared
    stacked weights and bias. -/
theorem cell_final (x0 : TX) (x1 : TH) (x2 : TH) (x3 : TW) (x4 : TB) (x5 : TW) (x6 : TB) (x7 : TW) (x8 : TB) (x9 : TW) (x10 : TB) :
    val_main_v33 (F := Ideal) x0 x1 x2 x3 x4 x5 x6 x7 x8 x9 x10
      = cellArr x0 x1 x2 (Cert.Shared.Wcat x3 x5 x7 x9) (Cert.Shared.bcat x4 x6 x8 x10) := by
  rw [cell_eq, Wcat_eq, bcat_eq]

/-- Every weakly fair execution of the reference terminates with its first result at the specification's highway
    output, its second at the specification's new cell state, and its arguments unchanged. -/
theorem ref_run (m' : (ℓ : Loc Cert.ReferenceIdeal.nD Cert.ReferenceIdeal.τ Cert.ReferenceIdeal.sig) → Buf (Elt Ideal) ℓ) (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v74) = Cert.Spec.outArr (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (Cert.Shared.Wcat (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg9))) (Cert.Shared.bcat (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg10))) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (Cert.Shared.softmaxCol (Cert.Spec.logitArr (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (Cert.Shared.Wcat (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg9))) (Cert.Shared.bcat (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg10))) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12))))
      ∧ r.2.mem ((c.tc : Thread Cert.ReferenceIdeal.nD Cert.ReferenceIdeal.τ).loc Cert.ReferenceIdeal.main_v33) = Cert.Spec.cellArr (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (Cert.Shared.Wcat (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg9))) (Cert.Shared.bcat (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg10)))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)) :=
  (θ_run (Cert.ReferenceIdeal.defs (F := Ideal)) _ _).mono
    (fun r h c => ⟨(h c).1.trans ((val_main_v74_eq (F := Ideal) m' c).trans (out_final _ _ _ _ _ _ _ _ _ _ _ _ _ _ _ _ _)),
      (h c).2.1.trans ((val_main_v33_eq (F := Ideal) _ _ _ _ _ _ _ _ _ _ _).trans (cell_final _ _ _ _ _ _ _ _ _ _ _)),
      (h c).2.2⟩)
    (Cert.ReferenceIdeal.Value.run (F := Ideal) m' ρ')

end Cert.RefSide

end
-- ==== Proof.lean ====
/-
  The certificate of an LSTM cell with batch-wise attention and a highway merge: a first kernel computes, per block of 512
  batch rows, the four gates (input and previous hidden rows against the transposed stacked weights, plus bias), the new
  cell state, the hidden state and each row's attention logit; host operations take the softmax of the logits over the
  batch; a second kernel mixes the transformed input with the hidden state scaled by its row's attention weight. The
  reference computes the same with one matrix product over the concatenated input and hidden state.
  The three frames: each kernel program runs as four segments (host operations, region, host operations, region), each
  region's body proved at a generic grid point, and the argument buffers are walked back to the launch memory; the
  reference's frame is its run with the results dropped. Nothing was rewritten by the ideal pass, so there is nothing to
  preserve. At the ideal instance both programs end with the same two arrays: each result is read, entry by entry, as the
  same scalar functions of rows of the arguments — the sum over the 1536 concatenated columns splits into the sum over
  the 512 input columns plus the sum over the 1024 hidden columns, the stacked weights and the softmax over the batch are
  the same host terms on both sides and are never opened.
-/
import proofs.«167787_j30270929502695_2_alg».proof.Defs
import proofs.«167787_j30270929502695_2_alg».proof.Proof.Gen.Kernel
import proofs.«167787_j30270929502695_2_alg».proof.Proof.Gen.KernelIdeal
import proofs.«167787_j30270929502695_2_alg».proof.Proof.Gen.ReferenceIdeal
import proofs.«167787_j30270929502695_2_alg».proof.Proof.Gen.Pre_finite_inputs
import proofs.«167787_j30270929502695_2_alg».proof.Proof.Gen.ReferenceIdeal.Read
import proofs.«167787_j30270929502695_2_alg».proof.Proof.FrK.Frame
import proofs.«167787_j30270929502695_2_alg».proof.Proof.FrKI.Frame
import proofs.«167787_j30270929502695_2_alg».proof.Proof.SpecArr
import proofs.«167787_j30270929502695_2_alg».proof.Proof.Shared
import proofs.«167787_j30270929502695_2_alg».proof.Proof.ValKI.Kernel
import proofs.«167787_j30270929502695_2_alg».proof.Proof.RefSide
import Idealize.ShloMosaic.Adequacy
import Idealize.ShloMosaic.Init

noncomputable section

open Idealize.ShloMosaic Idealize.ShloMosaic.TcCoe Idealize.SL.Sem

namespace Cert.Proof

/-- The idealized kernel's run with its two results named: the highway output and the new cell state as the
    specification's arrays of the arguments, the arguments unchanged. The run's last boundary read at the two result
    buffers and at each argument's. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v28) = Cert.Spec.outArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (Cert.Shared.Wcat (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg7)) (m ((c.tc : Thread Cert.KernelIdeal.nD Cert.KernelIdeal.τ).loc Cert.KernelIdeal.main_arg9))) (Cert.Shared.bcat (m ((c.tc : Thread Cert.KernelIdeal.nD Cert.KernelIdeal.τ).loc Cert.KernelIdeal.main_arg4)) (m ((c.tc : Thread Cert.KernelIdeal.nD Cert.KernelIdeal.τ).loc Cert.KernelIdeal.main_arg6)) (m ((c.tc : Thread Cert.KernelIdeal.nD Cert.KernelIdeal.τ).loc Cert.KernelIdeal.main_arg8)) (m ((c.tc : Thread Cert.KernelIdeal.nD Cert.KernelIdeal.τ).loc Cert.KernelIdeal.main_arg10))) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (Cert.Shared.softmaxCol (Cert.Spec.logitArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (Cert.Shared.Wcat (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg7)) (m ((c.tc : Thread Cert.KernelIdeal.nD Cert.KernelIdeal.τ).loc Cert.KernelIdeal.main_arg9))) (Cert.Shared.bcat (m ((c.tc : Thread Cert.KernelIdeal.nD Cert.KernelIdeal.τ).loc Cert.KernelIdeal.main_arg4)) (m ((c.tc : Thread Cert.KernelIdeal.nD Cert.KernelIdeal.τ).loc Cert.KernelIdeal.main_arg6)) (m ((c.tc : Thread Cert.KernelIdeal.nD Cert.KernelIdeal.τ).loc Cert.KernelIdeal.main_arg8)) (m ((c.tc : Thread Cert.KernelIdeal.nD Cert.KernelIdeal.τ).loc Cert.KernelIdeal.main_arg10))) (m ((c.tc : Thread Cert.KernelIdeal.nD Cert.KernelIdeal.τ).loc Cert.KernelIdeal.main_arg11)) (m ((c.tc : Thread Cert.KernelIdeal.nD Cert.KernelIdeal.τ).loc Cert.KernelIdeal.main_arg12))))
      ∧ r.2.mem ((c.tc : Thread Cert.KernelIdeal.nD Cert.KernelIdeal.τ).loc Cert.KernelIdeal.main_v10_1) = Cert.Spec.cellArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (Cert.Shared.Wcat (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg7)) (m ((c.tc : Thread Cert.KernelIdeal.nD Cert.KernelIdeal.τ).loc Cert.KernelIdeal.main_arg9))) (Cert.Shared.bcat (m ((c.tc : Thread Cert.KernelIdeal.nD Cert.KernelIdeal.τ).loc Cert.KernelIdeal.main_arg4)) (m ((c.tc : Thread Cert.KernelIdeal.nD Cert.KernelIdeal.τ).loc Cert.KernelIdeal.main_arg6)) (m ((c.tc : Thread Cert.KernelIdeal.nD Cert.KernelIdeal.τ).loc Cert.KernelIdeal.main_arg8)) (m ((c.tc : Thread Cert.KernelIdeal.nD Cert.KernelIdeal.τ).loc Cert.KernelIdeal.main_arg10)))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)) :=
  (θ_run (Cert.KernelIdeal.defs (F := Ideal)) _ _).mono (fun r h c =>
    ⟨(h c _ (Cert.KernelIdeal.Fr.mem_uc Cert.KernelIdeal.main_v28 (by decide))).trans (Cert.KernelIdeal.Val.W4_out m ρ c),
      (h c _ (Cert.KernelIdeal.Fr.mem_uc Cert.KernelIdeal.main_v10_1 (by decide))).trans (Cert.KernelIdeal.Val.W4_cell m ρ c),
      (h c _ (Cert.KernelIdeal.Fr.mem_uc Cert.KernelIdeal.main_arg0 (by decide))).trans (Cert.KernelIdeal.Fr.W4_main_arg0 m ρ c),
      (h c _ (Cert.KernelIdeal.Fr.mem_uc Cert.KernelIdeal.main_arg1 (by decide))).trans (Cert.KernelIdeal.Fr.W4_main_arg1 m ρ c),
      (h c _ (Cert.KernelIdeal.Fr.mem_uc Cert.KernelIdeal.main_arg2 (by decide))).trans (Cert.KernelIdeal.Fr.W4_main_arg2 m ρ c),
      (h c _ (Cert.KernelIdeal.Fr.mem_uc Cert.KernelIdeal.main_arg3 (by decide))).trans (Cert.KernelIdeal.Fr.W4_main_arg3 m ρ c),
      (h c _ (Cert.KernelIdeal.Fr.mem_uc Cert.KernelIdeal.main_arg4 (by decide))).trans (Cert.KernelIdeal.Fr.W4_main_arg4 m ρ c),
      (h c _ (Cert.KernelIdeal.Fr.mem_uc Cert.KernelIdeal.main_arg5 (by decide))).trans (Cert.KernelIdeal.Fr.W4_main_arg5 m ρ c),
      (h c _ (Cert.KernelIdeal.Fr.mem_uc Cert.KernelIdeal.main_arg6 (by decide))).trans (Cert.KernelIdeal.Fr.W4_main_arg6 m ρ c),
      (h c _ (Cert.KernelIdeal.Fr.mem_uc Cert.KernelIdeal.main_arg7 (by decide))).trans (Cert.KernelIdeal.Fr.W4_main_arg7 m ρ c),
      (h c _ (Cert.KernelIdeal.Fr.mem_uc Cert.KernelIdeal.main_arg8 (by decide))).trans (Cert.KernelIdeal.Fr.W4_main_arg8 m ρ c),
      (h c _ (Cert.KernelIdeal.Fr.mem_uc Cert.KernelIdeal.main_arg9 (by decide))).trans (Cert.KernelIdeal.Fr.W4_main_arg9 m ρ c),
      (h c _ (Cert.KernelIdeal.Fr.mem_uc Cert.KernelIdeal.main_arg10 (by decide))).trans (Cert.KernelIdeal.Fr.W4_main_arg10 m ρ c),
      (h c _ (Cert.KernelIdeal.Fr.mem_uc Cert.KernelIdeal.main_arg11 (by decide))).trans (Cert.KernelIdeal.Fr.W4_main_arg11 m ρ c),
      (h c _ (Cert.KernelIdeal.Fr.mem_uc Cert.KernelIdeal.main_arg12 (by decide))).trans (Cert.KernelIdeal.Fr.W4_main_arg12 m ρ c),
      (h c _ (Cert.KernelIdeal.Fr.mem_uc Cert.KernelIdeal.main_arg13 (by decide))).trans (Cert.KernelIdeal.Fr.W4_main_arg13 m ρ c),
      (h c _ (Cert.KernelIdeal.Fr.mem_uc Cert.KernelIdeal.main_arg14 (by decide))).trans (Cert.KernelIdeal.Fr.W4_main_arg14 m ρ c),
      (h c _ (Cert.KernelIdeal.Fr.mem_uc Cert.KernelIdeal.main_arg15 (by decide))).trans (Cert.KernelIdeal.Fr.W4_main_arg15 m ρ c),
      (h c _ (Cert.KernelIdeal.Fr.mem_uc Cert.KernelIdeal.main_arg16 (by decide))).trans (Cert.KernelIdeal.Fr.W4_main_arg16 m ρ c)⟩)
    (Cert.KernelIdeal.Fr.run_all (F := Ideal) m ρ)

theorem frame_k : Cert.frame_Kernel := fun m ρ _ => Cert.Kernel.Fr.frame (F := Bits) m ρ
theorem frame_ki : Cert.frame_KernelIdeal := fun m ρ _ => Cert.KernelIdeal.Fr.frame (F := Ideal) m ρ
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote nothing: there is nothing to preserve. -/
theorem preserves : Cert.preserves_Kernel_KernelIdeal := trivial

/-- At the ideal instance both programs end with the same two arrays: each side's run states its results as the
    specification's arrays of its own arguments, and the arguments agree. -/
theorem algebraic : Cert.algebraic_KernelIdeal_ReferenceIdeal := by
  intro m ρ m' ρ' _ hagree
  refine ⟨_, _, kernel_run m ρ, ?_⟩
  refine (θ_run Cert.ReferenceIdeal.defs _ _).mono (fun r h c => ⟨(h c).1.trans ?_, (h c).2.1.trans ?_, (h c).2.2⟩) (Cert.RefSide.ref_run m' ρ')
  · obtain ⟨h0, h1, h2, h3, h4, h5, h6, h7, h8, h9, h10, h11, h12, h13, h14, h15, h16⟩ := hagree c
    rw [h0, h1, h2, h3, h4, h5, h6, h7, h8, h9, h10, h11, h12, h13, h14, h15, h16]
  · obtain ⟨h0, h1, h2, h3, h4, h5, h6, h7, h8, h9, h10, h11, h12, h13, h14, h15, h16⟩ := hagree c
    rw [h0, h1, h2, h3, h4, h5, h6, h7, h8, h9, h10]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
